-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256 : Shape := ⟨3, ![16, 64, 256]⟩
abbrev S16x64 : Shape := ⟨2, ![16, 64]⟩
abbrev S16x48 : Shape := ⟨2, ![16, 48]⟩
abbrev S50000x256 : Shape := ⟨2, ![50000, 256]⟩
abbrev S50000 : Shape := ⟨1, ![50000]⟩
abbrev S_ : Shape := ⟨0, ![]⟩

class Facts : Prop where
  bcast_S_S16x64x256 : S_.BroadcastsInDim S16x64x256 (![] : Fin 0 → Fin S16x64x256.rank)
  reducesTo_S16x64x256_S_d0_1_2 : S16x64x256.ReducesTo [0, 1, 2] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg6 : FVec F S50000x256 .f32) (main_arg7 : FVec F S50000 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S50000x256 .f32 := Host.absf main_arg6
  let main_cst_6 : FVec F S_ .f32 := constant S_ .f32 0x7F800000#32
  let main_v20 : FVec F S50000x256 .f32 := broadcastInDim S50000x256 ![] bcast_S_S50000x256 main_cst_6
  let main_v21 : IVec S50000x256 1 := cmpf .olt main_v19 main_v20
  let main_c_7 : IVec S_ 1 := constantI S_ 1 1#1
  let main_v22 : IVec S_ 1 := (fun x v => Host.reduce IntOp.andi x v reducesTo_S50000x256_S_d0_1 h_S_) main_v21 main_c_7
  let main_v23 : IVec S_ 1 := andi main_v18 main_v22
  let main_v24 : FVec F S50000 .f32 := Host.absf main_arg7
  let main_cst_8 : FVec F S_ .f32 := constant S_ .f32 0x7F800000#32
  let main_v25 : FVec F S50000 .f32 := broadcastInDim S50000 ![] bcast_S_S50000 main_cst_8
  let main_v26 : IVec S50000 1 := cmpf .olt main_v24 main_v25
  let main_c_9 : IVec S_ 1 := constantI S_ 1 1#1
  let main_v27 : IVec S_ 1 := (fun x v => Host.reduce IntOp.andi x v reducesTo_S50000_S_d0 h_S_) main_v26 main_c_9
  let main_v28 : IVec S_ 1 := andi main_v23 main_v27
  main_v28

def fn {F : FTy → Type} [FloatOps F] (main_arg0 : FVec F S16x64x256 .f32) (main_arg1 : FVec F S16x64x256 .f32) (main_arg2 : IVec S16x64 32) (main_arg3 : IVec S16x48 32) (main_arg4 : FVec F S50000x256 .f32) (main_arg5 : FVec F S50000 .f32) (main_arg6 : FVec F S50000x256 .f32) (main_arg7 : FVec F S50000 .f32) : IVec S_ 1 :=
  let main_v0 : FVec F S16x64x256 .f32 := Host.absf main_arg0
  let main_cst : FVec F S_ .f32 := constant S_ .f32 0x7F800000#32
  let main_v1 : FVec F S16x64x256 .f32 := broadcastInDim S16x64x256 ![] bcast_S_S16x64x256 main_cst
  let main_v2 : IVec S16x64x256 1 := cmpf .olt main_v0 main_v1
  let main_c : IVec S_ 1 := constantI S_ 1 1#1
  let main_v3 : IVec S_ 1 := (fun x v => Host.reduce IntOp.andi x v reducesTo_S16x64x256_S_d0_1_2 h_S_) main_v2 main_c
  let main_v4 : FVec F S16x64x256 .f32 := Host.absf main_arg1
  let main_cst_0 : FVec F S_ .f32 := constant S_ .f32 0x7F800000#32
  let main_v5 : FVec F S16x64x256 .f32 := broadcastInDim S16x64x256 ![] bcast_S_S16x64x256 main_cst_0
  let main_v6 : IVec S16x64x256 1 := cmpf .olt main_v4 main_v5
  let main_c_1 : IVec S_ 1 := constantI S_ 1 1#1
  let main_v7 : IVec S_ 1 := (fun x v => Host.reduce IntOp.andi x v reducesTo_S16x64x256_S_d0_1_2 h_S_) main_v6 main_c_1
  let main_v8 : IVec S_ 1 := andi main_v3 main_v7
  let main_v9 : FVec F S50000x256 .f32 := Host.absf main_arg4
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S50000 .f32 := Host.absf main_arg5
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg6 main_arg7 main_v13 main_v16
-- ==== Kernel.lean ====
abbrev S16x64x256 : Shape := ⟨3, ![16, 64, 256]⟩
abbrev S16x64 : Shape := ⟨2, ![16, 64]⟩
abbrev S16x48 : Shape := ⟨2, ![16, 48]⟩
abbrev S50000x256 : Shape := ⟨2, ![50000, 256]⟩
abbrev S50000 : Shape := ⟨1, ![50000]⟩
abbrev S1024x256 : Shape := ⟨2, ![1024, 256]⟩
abbrev S25x1x2000 : Shape := ⟨3, ![25, 1, 2000]⟩
abbrev S1024x1 : Shape := ⟨2, ![1024, 1]⟩
abbrev S512x256 : Shape := ⟨2, ![512, 256]⟩
abbrev S2000x256 : Shape := ⟨2, ![2000, 256]⟩
abbrev S1x1x2000 : Shape := ⟨3, ![1, 1, 2000]⟩
abbrev S512x1 : Shape := ⟨2, ![512, 1]⟩
abbrev S512x2000 : Shape := ⟨2, ![512, 2000]⟩
abbrev S1x2000 : Shape := ⟨2, ![1, 2000]⟩
abbrev S512 : Shape := ⟨1, ![512]⟩
abbrev S1024 : Shape := ⟨1, ![1024]⟩
abbrev S_ : Shape := ⟨0, ![]⟩
abbrev S16x64x1 : Shape := ⟨3, ![16, 64, 1]⟩
abbrev S1 : Shape := ⟨1, ![1]⟩
abbrev S1x1x1 : Shape := ⟨3, ![1, 1, 1]⟩
abbrev S16x48x1 : Shape := ⟨3, ![16, 48, 1]⟩
abbrev S16x48x256 : Shape := ⟨3, ![16, 48, 256]⟩
abbrev S16x64x48 : Shape := ⟨3, ![16, 64, 48]⟩
abbrev S16x1x48 : Shape := ⟨3, ![16, 1, 48]⟩

abbrev nBuf : Space → Nat
  | .hbm => 152
  | .vmem => 18
  | .smem => 0
  | _ => 0

abbrev hbmTy0_0 (i : Nat) : BufTy := match i % 128 with
  | 0 => ⟨S16x64x256, .f32⟩
  | 1 => ⟨S16x64x256, .f32⟩
  | 2 => ⟨S16x64, .i32⟩
  | 3 => ⟨S16x48, .i32⟩
  | 4 => ⟨S50000x256, .f32⟩
  | 5 => ⟨S50000, .f32⟩
  | 6 => ⟨S50000x256, .f32⟩
  | 7 => ⟨S50000, .f32⟩
  | 8 => ⟨S16x64x256, .f32⟩
  | 9 => ⟨S1024x256, .f32⟩
  | 10 => ⟨S25x1x2000, .f32⟩
  | 11 => ⟨S25x1x2000, .f32⟩
  | 12 => ⟨S1024x1, .f32⟩
  | 13 => ⟨S1024x1, .f32⟩
  | 14 => ⟨S1024, .f32⟩
  | 15 => ⟨S16x64, .f32⟩
  | 16 => ⟨S1024, .f32⟩
  | 17 => ⟨S16x64, .f32⟩
  | 18 => ⟨S16x64x256, .bf16⟩
  | 19 => ⟨S16x64x256, .f32⟩
  | 20 => ⟨S_, .i32⟩
  | 21 => ⟨S16x64, .i32⟩
  | 22 => ⟨S16x64, .i1⟩
  | 23 => ⟨S_, .i32⟩
  | 24 => ⟨S16x64, .i32⟩
  | 25 => ⟨S16x64, .i32⟩
  | 26 => ⟨S16x64, .i32⟩
  | 27 => ⟨S16x64x1, .i32⟩
  | 28 => ⟨S1, .i32⟩
  | 29 => ⟨S_, .i32⟩
  | 30 => ⟨S16x64x1, .i32⟩
  | 31 => ⟨S16x64x1, .i1⟩
  | 32 => ⟨S1x1x1, .i32⟩
  | 33 => ⟨S16x64x1, .i32⟩
  | 34 => ⟨S16x64x1, .i1⟩
  | 35 => ⟨S16x64x1, .i1⟩
  | 36 => ⟨S_, .i1⟩
  | 37 => ⟨S16x64, .i1⟩
  | 38 => ⟨S16x64x256, .f32⟩
  | 39 => ⟨S16x64x256, .i1⟩
  | 40 => ⟨S_, .f32⟩
  | 41 => ⟨S16x64x256, .f32⟩
  | 42 => ⟨S16x64x256, .f32⟩
  | 43 => ⟨S16x64x256, .bf16⟩
  | 44 => ⟨S16x64x256, .f32⟩
  | 45 => ⟨S16x64x256, .f32⟩
  | 46 => ⟨S_, .f32⟩
  | 47 => ⟨S16x64, .f32⟩
  | 48 => ⟨S_, .i32⟩
  | 49 => ⟨S16x64, .i32⟩
  | 50 => ⟨S16x64, .i1⟩
  | 51 => ⟨S_, .i32⟩
  | 52 => ⟨S16x64, .i32⟩
  | 53 => ⟨S16x64, .i32⟩
  | 54 => ⟨S16x64, .i32⟩
  | 55 => ⟨S16x64x1, .i32⟩
  | 56 => ⟨S1, .i32⟩
  | 57 => ⟨S_, .i32⟩
  | 58 => ⟨S16x64x1, .i32⟩
  | 59 => ⟨S16x64x1, .i1⟩
  | 60 => ⟨S1x1x1, .i32⟩
  | 61 => ⟨S16x64x1, .i32⟩
  | 62 => ⟨S16x64x1, .i1⟩
  | 63 => ⟨S16x64x1, .i1⟩
  | 64 => ⟨S_, .i1⟩
  | 65 => ⟨S16x64, .i1⟩
  | 66 => ⟨S16x64, .f32⟩
  | 67 => ⟨S_, .f32⟩
  | 68 => ⟨S16x64, .f32⟩
  | 69 => ⟨S16x64, .f32⟩
  | 70 => ⟨S16x64, .f32⟩
  | 71 => ⟨S16x64, .f32⟩
  | 72 => ⟨S_, .f32⟩
  | 73 => ⟨S_, .f32⟩
  | 74 => ⟨S_, .i32⟩
  | 75 => ⟨S16x48, .i32⟩
  | 76 => ⟨S16x48, .i1⟩
  | 77 => ⟨S_, .i32⟩
  | 78 => ⟨S16x48, .i32⟩
  | 79 => ⟨S16x48, .i32⟩
  | 80 => ⟨S16x48, .i32⟩
  | 81 => ⟨S16x48x1, .i32⟩
  | 82 => ⟨S1, .i32⟩
  | 83 => ⟨S_, .i32⟩
  | 84 => ⟨S16x48x1, .i32⟩
  | 85 => ⟨S16x48x1, .i1⟩
  | 86 => ⟨S1x1x1, .i32⟩
  | 87 => ⟨S16x48x1, .i32⟩
  | 88 => ⟨S16x48x1, .i1⟩
  | 89 => ⟨S16x48x1, .i1⟩
  | 90 => ⟨S_, .i1⟩
  | 91 => ⟨S16x48, .i1⟩
  | 92 => ⟨S16x48x256, .f32⟩
  | 93 => ⟨S16x48x256, .i1⟩
  | 94 => ⟨S_, .f32⟩
  | 95 => ⟨S16x48x256, .f32⟩
  | 96 => ⟨S16x48x256, .f32⟩
  | 97 => ⟨S16x48x256, .bf16⟩
  | 98 => ⟨S16x48x256, .f32⟩
  | 99 => ⟨S_, .i32⟩
  | 100 => ⟨S16x48, .i32⟩
  | 101 => ⟨S16x48, .i1⟩
  | 102 => ⟨S_, .i32⟩
  | 103 => ⟨S16x48, .i32⟩
  | 104 => ⟨S16x48, .i32⟩
  | 105 => ⟨S16x48, .i32⟩
  | 106 => ⟨S16x48x1, .i32⟩
  | 107 => ⟨S1, .i32⟩
  | 108 => ⟨S_, .i32⟩
  | 109 => ⟨S16x48x1, .i32⟩
  | 110 => ⟨S16x48x1, .i1⟩
  | 111 => ⟨S1x1x1, .i32⟩
  | 112 => ⟨S16x48x1, .i32⟩
  | 113 => ⟨S16x48x1, .i1⟩
  | 114 => ⟨S16x48x1, .i1⟩
  | 115 => ⟨S_, .i1⟩
  | 116 => ⟨S16x48, .i1⟩
  | 117 => ⟨S16x48, .f32⟩
  | 118 => ⟨S_, .f32⟩
  | 119 => ⟨S16x48, .f32⟩
  | 120 => ⟨S16x48, .f32⟩
  | 121 => ⟨S16x64x48, .f32⟩
  | 122 => ⟨S16x1x48, .f32⟩
  | 123 => ⟨S16x64x48, .f32⟩
  | 124 => ⟨S16x64x48, .f32⟩
  | 125 => ⟨S16x64x1, .f32⟩
  | 126 => ⟨S16x64x48, .f32⟩
  | 127 => ⟨S16x64x48, .f32⟩
  | _ => ⟨S16x64x256, .f32⟩

abbrev hbmTy0_1 (i : Nat) : BufTy := match i % 128 with
  | 0 => ⟨S16x64x48, .f32⟩
  | 1 => ⟨S_, .f32⟩
  | 2 => ⟨S16x48, .f32⟩
  | 3 => ⟨S_, .f32⟩
  | 4 => ⟨S16x48, .f32⟩
  | 5 => ⟨S16x48, .f32⟩
  | 6 => ⟨S16x48, .f32⟩
  | 7 => ⟨S_, .f32⟩
  | 8 => ⟨S_, .f32⟩
  | 9 => ⟨S_, .f32⟩
  | 10 => ⟨S16x64x256, .f32⟩
  | 11 => ⟨S16x64x256, .f32⟩
  | 12 => ⟨S16x64x256, .f32⟩
  | 13 => ⟨S16x64x256, .f32⟩
  | 14 => ⟨S16x64x256, .f32⟩
  | 15 => ⟨S_, .f32⟩
  | 16 => ⟨S16x64x256, .f32⟩
  | 17 => ⟨S16x64x256, .f32⟩
  | 18 => ⟨S16x64x256, .f32⟩
  | 19 => ⟨S_, .f32⟩
  | 20 => ⟨S16x64x256, .f32⟩
  | 21 => ⟨S16x64x256, .f32⟩
  | 22 => ⟨S_, .f32⟩
  | 23 => ⟨S_, .f32⟩
  | _ => ⟨S16x64x256, .f32⟩

abbrev hbmTy (i : Nat) : BufTy := match i / 128 with
  | 0 => hbmTy0_0 i
  | 1 => hbmTy0_1 i
  | _ => ⟨S16x64x256, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S2000x256, .f32⟩
  | .local _ .vmem, ⟨3, _⟩ => ⟨S2000x256, .f32⟩
  | .local _ .vmem, ⟨4, _⟩ => ⟨S1x1x2000, .f32⟩
  | .local _ .vmem, ⟨5, _⟩ => ⟨S1x1x2000, .f32⟩
  | .local _ .vmem, ⟨6, _⟩ => ⟨S2000x256, .f32⟩
  | .local _ .vmem, ⟨7, _⟩ => ⟨S2000x256, .f32⟩
  | .local _ .vmem, ⟨8, _⟩ => ⟨S1x1x2000, .f32⟩
  | .local _ .vmem, ⟨9, _⟩ => ⟨S1x1x2000, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S16x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst : Ref sig .tc := ⟨.hbm, 46, rfl⟩
abbrev main_v15 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_cst : Ref sig .tc := ⟨.hbm, 67, rfl⟩
abbrev main_call1_v14 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_cst_0 : Ref sig .tc := ⟨.hbm, 72, rfl⟩
abbrev main_v19 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_cst : Ref sig .tc := ⟨.hbm, 118, rfl⟩
abbrev main_call3_v14 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_cst_1 : Ref sig .tc := ⟨.hbm, 129, rfl⟩
abbrev main_v32 : Ref sig .tc := ⟨.hbm, 130, rfl⟩
abbrev main_cst_2 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_cst_3 : Ref sig .tc := ⟨.hbm, 135, rfl⟩
abbrev main_v36 : Ref sig .tc := ⟨.hbm, 136, rfl⟩
abbrev main_v37 : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩
abbrev main_v42 : Ref sig .tc := ⟨.hbm, 142, rfl⟩
abbrev main_cst_4 : Ref sig .tc := ⟨.hbm, 143, rfl⟩
abbrev main_v43 : Ref sig .tc := ⟨.hbm, 144, rfl⟩
abbrev main_v44 : Ref sig .tc := ⟨.hbm, 145, rfl⟩
abbrev main_v45 : Ref sig .tc := ⟨.hbm, 146, rfl⟩
abbrev main_cst_5 : Ref sig .tc := ⟨.hbm, 147, rfl⟩
abbrev main_v46 : Ref sig .tc := ⟨.hbm, 148, rfl⟩
abbrev main_v47 : Ref sig .tc := ⟨.hbm, 149, rfl⟩
abbrev main_cst_6 : Ref sig .tc := ⟨.hbm, 150, rfl⟩
abbrev main_v48 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v62 : BitVec 1 := Scalar.cmpi .eq arg1 c24_i32
  let v63 : BitVec 32 := Scalar.extui v62
  let c0_i32_37 : BitVec 32 := 0#32
  let v64 : BitVec 1 := Scalar.cmpi .ne v63 c0_i32_37
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S16x64x256_S1024x256 : S16x64x256.ShapeCasts S1024x256
  shapeCasts_S50000_S25x1x2000 : S50000.ShapeCasts S25x1x2000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S1x1x2000_S1x1x2000_0_0_0 : ∀ a, (![0, 0, 0] : Fin 3 → Nat) a + S1x1x2000.size a ≤ S1x1x2000.size a
  h_S1x1x2000 : 0 < S1x1x2000.numel
  shapeCasts_S1x1x2000_S1x2000 : S1x1x2000.ShapeCasts S1x2000
  broadcasts_S1x2000_S512x2000 : S1x2000.Broadcasts S512x2000
  reduces_S512x2000_S512 : S512x2000.Reduces [1] S512
  shapeCasts_S512_S512x1 : S512.ShapeCasts S512x1
  broadcasts_S512x1_S512x2000 : S512x1.Broadcasts S512x2000
  shapeCasts_S1024x1_S1024 : S1024x1.ShapeCasts S1024
  shapeCasts_S1024_S16x64 : S1024.ShapeCasts S16x64
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S_S16x64x1 : S_.BroadcastsInDim S16x64x1 (![] : Fin 0 → Fin S16x64x1.rank)
  bcast_S1_S1x1x1_2 : S1.BroadcastsInDim S1x1x1 (![2] : Fin 1 → Fin S1x1x1.rank)
  bcast_S1x1x1_S16x64x1_0_1_2 : S1x1x1.BroadcastsInDim S16x64x1 (![0, 1, 2] : Fin 3 → Fin S16x64x1.rank)
  reducesTo_S16x64x1_S16x64_d2 : S16x64x1.ReducesTo [2] S16x64
  h_S_ : 0 < S_.numel
  bcast_S16x64_S16x64x256_0_1 : S16x64.BroadcastsInDim S16x64x256 (![0, 1] : Fin 2 → Fin S16x64x256.rank)
  bcast_S_S16x64x256 : S_.BroadcastsInDim S16x64x256 (![] : Fin 0 → Fin S16x64x256.rank)
  reducesTo_S16x64x256_S16x64_d2 : S16x64x256.ReducesTo [2] S16x64
  reducesTo_S16x64_S_d0_1 : S16x64.ReducesTo [0, 1] S_
  bcast_S_S16x48 : S_.BroadcastsInDim S16x48 (![] : Fin 0 → Fin S16x48.rank)
  bcast_S16x48_S16x48x1_0_1 : S16x48.BroadcastsInDim S16x48x1 (![0, 1] : Fin 2 → Fin S16x48x1.rank)
  bcast_S_S16x48x1 : S_.BroadcastsInDim S16x48x1 (![] : Fin 0 → Fin S16x48x1.rank)
  bcast_S1x1x1_S16x48x1_0_1_2 : S1x1x1.BroadcastsInDim S16x48x1 (![0, 1, 2] : Fin 3 → Fin S16x48x1.rank)
  reducesTo_S16x48x1_S16x48_d2 : S16x48x1.ReducesTo [2] S16x48
  bcast_S16x48_S16x48x256_0_1 : S16x48.BroadcastsInDim S16x48x256 (![0, 1] : Fin 2 → Fin S16x48x256.rank)
  bcast_S_S16x48x256 : S_.BroadcastsInDim S16x48x256 (![] : Fin 0 → Fin S16x48x256.rank)
  bcast_S16x48_S16x1x48_0_2 : S16x48.BroadcastsInDim S16x1x48 (![0, 2] : Fin 2 → Fin S16x1x48.rank)
  bcast_S16x1x48_S16x64x48_0_1_2 : S16x1x48.BroadcastsInDim S16x64x48 (![0, 1, 2] : Fin 3 → Fin S16x64x48.rank)
  bcast_S16x64x1_S16x64x48_0_1_2 : S16x64x1.BroadcastsInDim S16x64x48 (![0, 1, 2] : Fin 3 → Fin S16x64x48.rank)
  reducesTo_S16x64x48_S16x48_d1 : S16x64x48.ReducesTo [1] S16x48
  reducesTo_S16x48_S_d0_1 : S16x48.ReducesTo [0, 1] S_
  reducesTo_S16x64x256_S_d0_1_2 : S16x64x256.ReducesTo [0, 1, 2] S_
  dot_S512x256_S2000x256_S512x2000_1_1_0_0_n_n_wf : DotDims.WF S512x256 S2000x256 S512x2000 [1] [1] [0] [0] [] []
  gather_S50000x256_S16x64x1_S16x64x256_2_0_n_n_0_2_1256_wf : GatherDims.WF S50000x256 S16x64x1 S16x64x256 [2] [0] [] [0] [] 2 ![1, 256]
  gather_S50000_S16x64x1_S16x64_n_0_n_n_0_2_1_wf : GatherDims.WF S50000 S16x64x1 S16x64 [] [0] [] [0] [] 2 ![1]
  gather_S50000x256_S16x48x1_S16x48x256_2_0_n_n_0_2_1256_wf : GatherDims.WF S50000x256 S16x48x1 S16x48x256 [2] [0] [] [0] [] 2 ![1, 256]
  gather_S50000_S16x48x1_S16x48_n_0_n_n_0_2_1_wf : GatherDims.WF S50000 S16x48x1 S16x48 [] [0] [] [0] [] 2 ![1]
  dot_S16x64x256_S16x48x256_S16x64x48_2_2_1_1_0_0_wf : DotDims.WF S16x64x256 S16x48x256 S16x64x48 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S1024x256.size a
  hwx0_0 : ∀ i : grid0.Coords, EltTy.bits .f32 = 32 ∨ (Rect.block (s := S1024x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2000.size a ≤ S25x1x2000.size a
  hwx0_2 : ∀ i : grid0.Coords, EltTy.bits .f32 = 32 ∨ (Rect.block (s := S25x1x2000) S1x1x2000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2000.size a ≤ S25x1x2000.size a
  hwx0_4 : ∀ i : grid0.Coords, EltTy.bits .f32 = 32 ∨ (Rect.block (s := S25x1x2000) S1x1x2000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S1024x1.size a
  hwx0_5 : ∀ i : grid0.Coords, EltTy.bits .f32 = 32 ∨ (Rect.block (s := S1024x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S1024x1.size a
  hwx0_6 : ∀ i : grid0.Coords, EltTy.bits .f32 = 32 ∨ (Rect.block (s := S1024x1) S512x1.size (cc0_transform_6 i) (hinb0_6 i)).WholeWords (EltTy.packing .f32)

variable [Facts₀]

def dot_S512x256_S2000x256_S512x2000_1_1_0_0_n_n : DotDims S512x256 S2000x256 S512x2000 where
  lhsContracting := [1]
  rhsContracting := [1]
  lhsNonContracting := [0]
  rhsNonContracting := [0]
  lhsBatch := []
  rhsBatch := []
  wf := dot_S512x256_S2000x256_S512x2000_1_1_0_0_n_n_wf
def gather_S50000x256_S16x64x1_S16x64x256_2_0_n_n_0_2_1256 : GatherDims S50000x256 S16x64x1 S16x64x256 where
  offsetDims := [2]
  collapsedSliceDims := [0]
  operandBatchingDims := []
  startIndicesBatchingDims := []
  startIndexMap := [0]
  indexVectorDim := 2
  sliceSizes := ![1, 256]
  wf := gather_S50000x256_S16x64x1_S16x64x256_2_0_n_n_0_2_1256_wf
def gather_S50000_S16x64x1_S16x64_n_0_n_n_0_2_1 : GatherDims S50000 S16x64x1 S16x64 where
  offsetDims := []
  collapsedSliceDims := [0]
  operandBatchingDims := []
  startIndicesBatchingDims := []
  startIndexMap := [0]
  indexVectorDim := 2
  sliceSizes := ![1]
  wf := gather_S50000_S16x64x1_S16x64_n_0_n_n_0_2_1_wf
def gather_S50000x256_S16x48x1_S16x48x256_2_0_n_n_0_2_1256 : GatherDims S50000x256 S16x48x1 S16x48x256 where
  offsetDims := [2]
  collapsedSliceDims := [0]
  operandBatchingDims := []
  startIndicesBatchingDims := []
  startIndexMap := [0]
  indexVectorDim := 2
  sliceSizes := ![1, 256]
  wf := gather_S50000x256_S16x48x1_S16x48x256_2_0_n_n_0_2_1256_wf
def gather_S50000_S16x48x1_S16x48_n_0_n_n_0_2_1 : GatherDims S50000 S16x48x1 S16x48 where
  offsetDims := []
  collapsedSliceDims := [0]
  operandBatchingDims := []
  startIndicesBatchingDims := []
  startIndexMap := [0]
  indexVectorDim := 2
  sliceSizes := ![1]
  wf := gather_S50000_S16x48x1_S16x48_n_0_n_n_0_2_1_wf
def dot_S16x64x256_S16x48x256_S16x64x48_2_2_1_1_0_0 : DotDims S16x64x256 S16x48x256 S16x64x48 where
  lhsContracting := [2]
  rhsContracting := [2]
  lhsNonContracting := [1]
  rhsNonContracting := [1]
  lhsBatch := [0]
  rhsBatch := [0]
  wf := dot_S16x64x256_S16x48x256_S16x64x48_2_2_1_1_0_0_wf

abbrev win0_0 : Pipeline.Window sig grid0 :=
  Pipeline.Window.ofSpec (Memref.whole main_v1) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x2000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S2000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x2000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16x64x256 : Shape := ⟨3, ![16, 64, 256]⟩
abbrev S16x64 : Shape := ⟨2, ![16, 64]⟩
abbrev S16x48 : Shape := ⟨2, ![16, 48]⟩
abbrev S50000x256 : Shape := ⟨2, ![50000, 256]⟩
abbrev S50000 : Shape := ⟨1, ![50000]⟩
abbrev S16x64x50000 : Shape := ⟨3, ![16, 64, 50000]⟩
abbrev S1x1x50000 : Shape := ⟨3, ![1, 1, 50000]⟩
abbrev S_ : Shape := ⟨0, ![]⟩
abbrev S16x64x1 : Shape := ⟨3, ![16, 64, 1]⟩
abbrev S16x64x1x1 : Shape := ⟨4, ![16, 64, 1, 1]⟩
abbrev S1 : Shape := ⟨1, ![1]⟩
abbrev S1x1x1x1 : Shape := ⟨4, ![1, 1, 1, 1]⟩
abbrev S16x1x48 : Shape := ⟨3, ![16, 1, 48]⟩
abbrev S16x48x1 : Shape := ⟨3, ![16, 48, 1]⟩
abbrev S1x1x1 : Shape := ⟨3, ![1, 1, 1]⟩
abbrev S16x64x48 : Shape := ⟨3, ![16, 64, 48]⟩

abbrev nBuf : Space → Nat
  | .hbm => 119
  | .vmem => 0
  | .smem => 0
  | _ => 0

abbrev bufTy : (tb : Table) → Fin (tcTables nBuf tb) → BufTy
  | .hbm, ⟨0, _⟩ => ⟨S16x64x256, .f32⟩
  | .hbm, ⟨1, _⟩ => ⟨S16x64x256, .f32⟩
  | .hbm, ⟨2, _⟩ => ⟨S16x64, .i32⟩
  | .hbm, ⟨3, _⟩ => ⟨S16x48, .i32⟩
  | .hbm, ⟨4, _⟩ => ⟨S50000x256, .f32⟩
  | .hbm, ⟨5, _⟩ => ⟨S50000, .f32⟩
  | .hbm, ⟨6, _⟩ => ⟨S50000x256, .f32⟩
  | .hbm, ⟨7, _⟩ => ⟨S50000, .f32⟩
  | .hbm, ⟨8, _⟩ => ⟨S16x64x256, .f32⟩
  | .hbm, ⟨9, _⟩ => ⟨S16x64x50000, .f32⟩
  | .hbm, ⟨10, _⟩ => ⟨S1x1x50000, .f32⟩
  | .hbm, ⟨11, _⟩ => ⟨S16x64x50000, .f32⟩
  | .hbm, ⟨12, _⟩ => ⟨S16x64x50000, .f32⟩
  | .hbm, ⟨13, _⟩ => ⟨S_, .f32⟩
  | .hbm, ⟨14, _⟩ => ⟨S16x64, .f32⟩
  | .hbm, ⟨15, _⟩ => ⟨S_, .f32⟩
  | .hbm, ⟨16, _⟩ => ⟨S16x64, .f32⟩
  | .hbm, ⟨17, _⟩ => ⟨S16x64, .f32⟩
  | .hbm, ⟨18, _⟩ => ⟨S16x64x1, .f32⟩
  | .hbm, ⟨19, _⟩ => ⟨S16x64x50000, .f32⟩
  | .hbm, ⟨20, _⟩ => ⟨S16x64x50000, .f32⟩
  | .hbm, ⟨21, _⟩ => ⟨S16x64x50000, .f32⟩
  | .hbm, ⟨22, _⟩ => ⟨S_, .f32⟩
  | .hbm, ⟨23, _⟩ => ⟨S16x64, .f32⟩
  | .hbm, ⟨24, _⟩ => ⟨S16x64x1, .f32⟩
  | .hbm, ⟨25, _⟩ => ⟨S16x64x1, .f32⟩
  | .hbm, ⟨26, _⟩ => ⟨S16x64x50000, .f32⟩
  | .hbm, ⟨27, _⟩ => ⟨S16x64x50000, .f32⟩
  | .hbm, ⟨28, _⟩ => ⟨S16x64x1, .i32⟩
  | .hbm, ⟨29, _⟩ => ⟨S_, .i32⟩
  | .hbm, ⟨30, _⟩ => ⟨S16x64x1, .i32⟩
  | .hbm, ⟨31, _⟩ => ⟨S16x64x1, .i1⟩
  | .hbm, ⟨32, _⟩ => ⟨S_, .i32⟩
  | .hbm, ⟨33, _⟩ => ⟨S16x64x1, .i32⟩
  | .hbm, ⟨34, _⟩ => ⟨S16x64x1, .i32⟩
  | .hbm, ⟨35, _⟩ => ⟨S16x64x1, .i32⟩
  | .hbm, ⟨36, _⟩ => ⟨S16x64x1x1, .i32⟩
  | .hbm, ⟨37, _⟩ => ⟨S1, .i32⟩
  | .hbm, ⟨38, _⟩ => ⟨S_, .i32⟩
  | .hbm, ⟨39, _⟩ => ⟨S16x64x1x1, .i32⟩
  | .hbm, ⟨40, _⟩ => ⟨S16x64x1x1, .i1⟩
  | .hbm, ⟨41, _⟩ => ⟨S1x1x1x1, .i32⟩
  | .hbm, ⟨42, _⟩ => ⟨S16x64x1x1, .i32⟩
  | .hbm, ⟨43, _⟩ => ⟨S16x64x1x1, .i1⟩
  | .hbm, ⟨44, _⟩ => ⟨S16x64x1x1, .i1⟩
  | .hbm, ⟨45, _⟩ => ⟨S_, .i1⟩
  | .hbm, ⟨46, _⟩ => ⟨S16x64x1, .i1⟩
  | .hbm, ⟨47, _⟩ => ⟨S16x64x1, .f32⟩
  | .hbm, ⟨48, _⟩ => ⟨S_, .f32⟩
  | .hbm, ⟨49, _⟩ => ⟨S16x64x1, .f32⟩
  | .hbm, ⟨50, _⟩ => ⟨S16x64x1, .f32⟩
  | .hbm, ⟨51, _⟩ => ⟨S16x64, .f32⟩
  | .hbm, ⟨52, _⟩ => ⟨S16x64x50000, .f32⟩
  | .hbm, ⟨53, _⟩ => ⟨S1x1x50000, .f32⟩
  | .hbm, ⟨54, _⟩ => ⟨S16x64x50000, .f32⟩
  | .hbm, ⟨55, _⟩ => ⟨S16x64x50000, .f32⟩
  | .hbm, ⟨56, _⟩ => ⟨S_, .f32⟩
  | .hbm, ⟨57, _⟩ => ⟨S16x64, .f32⟩
  | .hbm, ⟨58, _⟩ => ⟨S_, .f32⟩
  | .hbm, ⟨59, _⟩ => ⟨S16x64, .f32⟩
  | .hbm, ⟨60, _⟩ => ⟨S16x64, .f32⟩
  | .hbm, ⟨61, _⟩ => ⟨S16x64x1, .f32⟩
  | .hbm, ⟨62, _⟩ => ⟨S16x64x50000, .f32⟩
  | .hbm, ⟨63, _⟩ => ⟨S16x64x50000, .f32⟩
  | .hbm, ⟨64, _⟩ => ⟨S16x64x50000, .f32⟩
  | .hbm, ⟨65, _⟩ => ⟨S_, .f32⟩
  | .hbm, ⟨66, _⟩ => ⟨S16x64, .f32⟩
  | .hbm, ⟨67, _⟩ => ⟨S16x64x1, .f32⟩
  | .hbm, ⟨68, _⟩ => ⟨S16x64x50000, .f32⟩
  | .hbm, ⟨69, _⟩ => ⟨S16x64x50000, .f32⟩
  | .hbm, ⟨70, _⟩ => ⟨S16x1x48, .i32⟩
  | .hbm, ⟨71, _⟩ => ⟨S_, .i32⟩
  | .hbm, ⟨72, _⟩ => ⟨S16x1x48, .i32⟩
  | .hbm, ⟨73, _⟩ => ⟨S16x1x48, .i1⟩
  | .hbm, ⟨74, _⟩ => ⟨S_, .i32⟩
  | .hbm, ⟨75, _⟩ => ⟨S16x1x48, .i32⟩
  | .hbm, ⟨76, _⟩ => ⟨S16x1x48, .i32⟩
  | .hbm, ⟨77, _⟩ => ⟨S16x1x48, .i32⟩
  | .hbm, ⟨78, _⟩ => ⟨S16x48x1, .i32⟩
  | .hbm, ⟨79, _⟩ => ⟨S1, .i32⟩
  | .hbm, ⟨80, _⟩ => ⟨S_, .i32⟩
  | .hbm, ⟨81, _⟩ => ⟨S16x48x1, .i32⟩
  | .hbm, ⟨82, _⟩ => ⟨S16x48x1, .i1⟩
  | .hbm, ⟨83, _⟩ => ⟨S1x1x1, .i32⟩
  | .hbm, ⟨84, _⟩ => ⟨S16x48x1, .i32⟩
  | .hbm, ⟨85, _⟩ => ⟨S16x48x1, .i1⟩
  | .hbm, ⟨86, _⟩ => ⟨S16x48x1, .i1⟩
  | .hbm, ⟨87, _⟩ => ⟨S_, .i1⟩
  | .hbm, ⟨88, _⟩ => ⟨S16x48, .i1⟩
  | .hbm, ⟨89, _⟩ => ⟨S16x64x48, .f32⟩
  | .hbm, ⟨90, _⟩ => ⟨S16x64x48, .i1⟩
  | .hbm, ⟨91, _⟩ => ⟨S_, .f32⟩
  | .hbm, ⟨92, _⟩ => ⟨S16x64x48, .f32⟩
  | .hbm, ⟨93, _⟩ => ⟨S16x64x48, .f32⟩
  | .hbm, ⟨94, _⟩ => ⟨S_, .f32⟩
  | .hbm, ⟨95, _⟩ => ⟨S16x48, .f32⟩
  | .hbm, ⟨96, _⟩ => ⟨S_, .f32⟩
  | .hbm, ⟨97, _⟩ => ⟨S16x48, .f32⟩
  | .hbm, ⟨98, _⟩ => ⟨S16x48, .f32⟩
  | .hbm, ⟨99, _⟩ => ⟨S_, .f32⟩
  | .hbm, ⟨100, _⟩ => ⟨S_, .f32⟩
  | .hbm, ⟨101, _⟩ => ⟨S16x48, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S16x64x256, .f32⟩
  | .hbm, ⟨106, _⟩ => ⟨S16x64x256, .f32⟩
  | .hbm, ⟨107, _⟩ => ⟨S16x64x256, .f32⟩
  | .hbm, ⟨108, _⟩ => ⟨S16x64x256, .f32⟩
  | .hbm, ⟨109, _⟩ => ⟨S16x64x256, .f32⟩
  | .hbm, ⟨110, _⟩ => ⟨S_, .f32⟩
  | .hbm, ⟨111, _⟩ => ⟨S16x64x256, .f32⟩
  | .hbm, ⟨112, _⟩ => ⟨S16x64x256, .f32⟩
  | .hbm, ⟨113, _⟩ => ⟨S16x64x256, .f32⟩
  | .hbm, ⟨114, _⟩ => ⟨S_, .f32⟩
  | .hbm, ⟨115, _⟩ => ⟨S16x64x256, .f32⟩
  | .hbm, ⟨116, _⟩ => ⟨S16x64x256, .f32⟩
  | .hbm, ⟨117, _⟩ => ⟨S_, .f32⟩
  | .hbm, ⟨118, _⟩ => ⟨S_, .f32⟩
  | _, _ => ⟨S16x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_call0_cst_0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_1 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_v5 : Ref sig .tc := ⟨.hbm, 27, rfl⟩
abbrev main_v6 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst : Ref sig .tc := ⟨.hbm, 56, rfl⟩
abbrev main_v13 : Ref sig .tc := ⟨.hbm, 57, rfl⟩
abbrev main_cst_0 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_cst_1 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v25 : Ref sig .tc := ⟨.hbm, 93, rfl⟩
abbrev main_cst_2 : Ref sig .tc := ⟨.hbm, 94, rfl⟩
abbrev main_v26 : Ref sig .tc := ⟨.hbm, 95, rfl⟩
abbrev main_cst_3 : Ref sig .tc := ⟨.hbm, 96, rfl⟩
abbrev main_v27 : Ref sig .tc := ⟨.hbm, 97, rfl⟩
abbrev main_v28 : Ref sig .tc := ⟨.hbm, 98, rfl⟩
abbrev main_cst_4 : Ref sig .tc := ⟨.hbm, 99, rfl⟩
abbrev main_v29 : Ref sig .tc := ⟨.hbm, 100, rfl⟩
abbrev main_v30 : Ref sig .tc := ⟨.hbm, 101, rfl⟩
abbrev main_cst_5 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_cst_6 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_cst_7 : Ref sig .tc := ⟨.hbm, 114, rfl⟩
abbrev main_v41 : Ref sig .tc := ⟨.hbm, 115, rfl⟩
abbrev main_v42 : Ref sig .tc := ⟨.hbm, 116, rfl⟩
abbrev main_cst_8 : Ref sig .tc := ⟨.hbm, 117, rfl⟩
abbrev main_v43 : Ref sig .tc := ⟨.hbm, 118, rfl⟩

abbrev nD : Nat := 1
abbrev τ : Topo := Topo.v7x

variable {F : FTy → Type} [FloatOps F]

class Facts₀ : Prop where
  bcast_S50000_S1x1x50000_2 : S50000.BroadcastsInDim S1x1x50000 (![2] : Fin 1 → Fin S1x1x50000.rank)
  bcast_S1x1x50000_S16x64x50000_0_1_2 : S1x1x50000.BroadcastsInDim S16x64x50000 (![0, 1, 2] : Fin 3 → Fin S16x64x50000.rank)
  reducesTo_S16x64x50000_S16x64_d2 : S16x64x50000.ReducesTo [2] S16x64
  h_S_ : 0 < S_.numel
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x50000_0_1_2 : S16x64x1.BroadcastsInDim S16x64x50000 (![0, 1, 2] : Fin 3 → Fin S16x64x50000.rank)
  bcast_S_S16x64x1 : S_.BroadcastsInDim S16x64x1 (![] : Fin 0 → Fin S16x64x1.rank)
  shapeCasts_S16x64x1_S16x64x1x1 : S16x64x1.ShapeCasts S16x64x1x1
  bcast_S_S16x64x1x1 : S_.BroadcastsInDim S16x64x1x1 (![] : Fin 0 → Fin S16x64x1x1.rank)
  bcast_S1_S1x1x1x1_3 : S1.BroadcastsInDim S1x1x1x1 (![3] : Fin 1 → Fin S1x1x1x1.rank)
  bcast_S1x1x1x1_S16x64x1x1_0_1_2_3 : S1x1x1x1.BroadcastsInDim S16x64x1x1 (![0, 1, 2, 3] : Fin 4 → Fin S16x64x1x1.rank)
  reducesTo_S16x64x1x1_S16x64x1_d3 : S16x64x1x1.ReducesTo [3] S16x64x1
  shapeCasts_S16x64x1_S16x64 : S16x64x1.ShapeCasts S16x64
  bcast_S16x48_S16x1x48_0_2 : S16x48.BroadcastsInDim S16x1x48 (![0, 2] : Fin 2 → Fin S16x1x48.rank)
  bcast_S_S16x1x48 : S_.BroadcastsInDim S16x1x48 (![] : Fin 0 → Fin S16x1x48.rank)
  shapeCasts_S16x1x48_S16x48x1 : S16x1x48.ShapeCasts S16x48x1
  bcast_S_S16x48x1 : S_.BroadcastsInDim S16x48x1 (![] : Fin 0 → Fin S16x48x1.rank)
  bcast_S1_S1x1x1_2 : S1.BroadcastsInDim S1x1x1 (![2] : Fin 1 → Fin S1x1x1.rank)
  bcast_S1x1x1_S16x48x1_0_1_2 : S1x1x1.BroadcastsInDim S16x48x1 (![0, 1, 2] : Fin 3 → Fin S16x48x1.rank)
  reducesTo_S16x48x1_S16x48_d2 : S16x48x1.ReducesTo [2] S16x48
  bcast_S16x48_S16x64x48_0_2 : S16x48.BroadcastsInDim S16x64x48 (![0, 2] : Fin 2 → Fin S16x64x48.rank)
  bcast_S_S16x64x48 : S_.BroadcastsInDim S16x64x48 (![] : Fin 0 → Fin S16x64x48.rank)
  reducesTo_S16x64x48_S16x48_d1 : S16x64x48.ReducesTo [1] S16x48
  bcast_S_S16x48 : S_.BroadcastsInDim S16x48 (![] : Fin 0 → Fin S16x48.rank)
  reducesTo_S16x64_S_d0_1 : S16x64.ReducesTo [0, 1] S_
  reducesTo_S16x48_S_d0_1 : S16x48.ReducesTo [0, 1] S_
  bcast_S_S16x64x256 : S_.BroadcastsInDim S16x64x256 (![] : Fin 0 → Fin S16x64x256.rank)
  reducesTo_S16x64x256_S_d0_1_2 : S16x64x256.ReducesTo [0, 1, 2] S_
  dot_S16x64x256_S50000x256_S16x64x50000_2_1_01_0_n_n_wf : DotDims.WF S16x64x256 S50000x256 S16x64x50000 [2] [1] [0, 1] [0] [] []
  gather_S16x64x50000_S16x64x1x1_S16x64x1_n_2_01_01_2_3_111_wf : GatherDims.WF S16x64x50000 S16x64x1x1 S16x64x1 [] [2] [0, 1] [2] [0, 1] 3 ![1, 1, 1]
  gather_S16x64x50000_S16x48x1_S16x64x48_1_2_0_0_2_2_1641_wf : GatherDims.WF S16x64x50000 S16x48x1 S16x64x48 [1] [2] [0] [2] [0] 2 ![1, 64, 1]

variable [Facts₀]

def dot_S16x64x256_S50000x256_S16x64x50000_2_1_01_0_n_n : DotDims S16x64x256 S50000x256 S16x64x50000 where
  lhsContracting := [2]
  rhsContracting := [1]
  lhsNonContracting := [0, 1]
  rhsNonContracting := [0]
  lhsBatch := []
  rhsBatch := []
  wf := dot_S16x64x256_S50000x256_S16x64x50000_2_1_01_0_n_n_wf
def gather_S16x64x50000_S16x64x1x1_S16x64x1_n_2_01_01_2_3_111 : GatherDims S16x64x50000 S16x64x1x1 S16x64x1 where
  offsetDims := []
  collapsedSliceDims := [2]
  operandBatchingDims := [0, 1]
  startIndicesBatchingDims := [0, 1]
  startIndexMap := [2]
  indexVectorDim := 3
  sliceSizes := ![1, 1, 1]
  wf := gather_S16x64x50000_S16x64x1x1_S16x64x1_n_2_01_01_2_3_111_wf
def gather_S16x64x50000_S16x48x1_S16x64x48_1_2_0_0_2_2_1641 : GatherDims S16x64x50000 S16x48x1 S16x64x48 where
  offsetDims := [1]
  collapsedSliceDims := [2]
  operandBatchingDims := [0]
  startIndicesBatchingDims := [0]
  startIndexMap := [2]
  indexVectorDim := 2
  sliceSizes := ![1, 64, 1]
  wf := gather_S16x64x50000_S16x48x1_S16x64x48_1_2_0_0_2_2_1641_wf

class Facts : Prop extends Facts₀ where

variable [Facts]
-- ==== Proof.BitsAround.lean ====
/-
  @main around the one kernel region, and what the per-case runs of the region's body are stated over.

  @main is four host operations (z = mu + sigma, its [1024, 256] reshape, the two biases reshaped to [25, 1, 2000]),
  the region — a 2 x 25 grid: the row half mi and the vocabulary block vj, the four [512, 1] scratch buffers (the
  running maxima and the running sums of the two heads) carried from one vocabulary block to the next —, and 138
  host operations after it in nine stretches (the target-row logits, the two log-probability sums, the KL sum).
  Here: the contents the region finds (the four operations applied to the launch memory), that no operation
  after the region writes an array the region stages or an argument, the two conditions of the body on the grid
  point in closed form (vj = 0, vj = 24), and at which points the two result windows are stored into.
-/
import proofs.«121325_j12979391169156_2_alg».proof.Proof.Gen.Kernel.Launch
import proofs.«121325_j12979391169156_2_alg».proof.Proof.Gen.Kernel.Skeleton
import proofs.«121325_j12979391169156_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region finds -/

/-- Core `c`'s buffers when the region is entered: the four operations before it applied to the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The nine stretches of host operations after the region, in order. -/
abbrev tail : List (List (HloOp τ sig (Elt F))) :=
  [hostOps1, hostOps1_1, hostOps1_2, hostOps1_3, hostOps1_4, hostOps1_5, hostOps1_6, hostOps1_7, hostOps1_8]

theorem hostOps0_fresh : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor
theorem fresh1_5 : (hostOps1_5 : List (HloOp τ sig (Elt F))).Forall fun op => op.fresh = ∅ := by
  simp only [List.Forall]; repeat' constructor
theorem fresh1_6 : (hostOps1_6 : List (HloOp τ sig (Elt F))).Forall fun op => op.fresh = ∅ := by
  simp only [List.Forall]; repeat' constructor
theorem fresh1_7 : (hostOps1_7 : List (HloOp τ sig (Elt F))).Forall fun op => op.fresh = ∅ := by
  simp only [List.Forall]; repeat' constructor
theorem fresh1_8 : (hostOps1_8 : List (HloOp τ sig (Elt F))).Forall fun op => op.fresh = ∅ := by
  simp only [List.Forall]; repeat' constructor

/-- @main is the operations before the region, the region, and the region CONTINUED BY the nine stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- Every operation after the region touches unscoped TensorCore references only. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- None of them allocates. -/
theorem tail_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop
  · exact (List.forall_iff_forall_mem.mp fresh1_5) op hop
  · exact (List.forall_iff_forall_mem.mp fresh1_6) op hop
  · exact (List.forall_iff_forall_mem.mp fresh1_7) op hop
  · exact (List.forall_iff_forall_mem.mp fresh1_8) op hop

/-- A reference numbered below 14 (the arguments and the arrays the region stages) is none numbered 14 or above (the
    results of the operations after the region). -/
theorem ne_of_idx {b y : Ref sig .tc} (hb : b.idx.val < 14) (hy : 14 ≤ y.idx.val) : b ≠ y := fun h => by subst h; omega

theorem nw1 (b : Ref sig .tc) (hb : b.idx.val < 14) : ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_1 (b : Ref sig .tc) (hb : b.idx.val < 14) : ∀ op ∈ (hostOps1_1 : List (HloOp τ sig (Elt F))), Proc.devRef .tc b ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_2 (b : Ref sig .tc) (hb : b.idx.val < 14) : ∀ op ∈ (hostOps1_2 : List (HloOp τ sig (Elt F))), Proc.devRef .tc b ∉ op.writes := by
  intro op hop
  simp only [hostOps1_2, List.mem_cons, List.mem_nil_iff, or_false] at hop
  rcases hop with rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_3 (b : Ref sig .tc) (hb : b.idx.val < 14) : ∀ op ∈ (hostOps1_3 : List (HloOp τ sig (Elt F))), Proc.devRef .tc b ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_4 (b : Ref sig .tc) (hb : b.idx.val < 14) : ∀ op ∈ (hostOps1_4 : List (HloOp τ sig (Elt F))), Proc.devRef .tc b ∉ op.writes := by
  intro op hop
  simp only [hostOps1_4, List.mem_cons, List.mem_nil_iff, or_false] at hop
  rcases hop with rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_5 (b : Ref sig .tc) (hb : b.idx.val < 14) : ∀ op ∈ (hostOps1_5 : List (HloOp τ sig (Elt F))), Proc.devRef .tc b ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_6 (b : Ref sig .tc) (hb : b.idx.val < 14) : ∀ op ∈ (hostOps1_6 : List (HloOp τ sig (Elt F))), Proc.devRef .tc b ∉ op.writes := by
  intro op hop
  simp only [hostOps1_6, List.mem_cons, List.mem_nil_iff, or_false] at hop
  rcases hop with rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_7 (b : Ref sig .tc) (hb : b.idx.val < 14) : ∀ op ∈ (hostOps1_7 : List (HloOp τ sig (Elt F))), Proc.devRef .tc b ∉ op.writes := by
  intro op hop
  simp only [hostOps1_7, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_8 (b : Ref sig .tc) (hb : b.idx.val < 14) : ∀ op ∈ (hostOps1_8 : List (HloOp τ sig (Elt F))), Proc.devRef .tc b ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

/-- No operation after the region writes a reference numbered below 14. -/
theorem tail_nw (b : Ref sig .tc) (hb : b.idx.val < 14) : ∀ ops ∈ (tail : List (List (HloOp τ sig (Elt F)))), ∀ op ∈ ops,
    Proc.devRef .tc b ∉ op.writes := by
  intro ops hops op hop
  simp only [List.mem_cons, List.mem_nil_iff, or_false] at hops
  rcases hops with rfl | rfl | rfl | rfl | rfl | rfl | rfl | rfl | rfl
  · exact nw1 b hb op hop
  · exact nw1_1 b hb op hop
  · exact nw1_2 b hb op hop
  · exact nw1_3 b hb op hop
  · exact nw1_4 b hb op hop
  · exact nw1_5 b hb op hop
  · exact nw1_6 b hb op hop
  · exact nw1_7 b hb op hop
  · exact nw1_8 b hb op hop

/-- In particular none writes an array the region stages. -/
theorem tail_keeps : ∀ ops ∈ (tail : List (List (HloOp τ sig (Elt F)))), ∀ op ∈ ops,
    ∀ w, Proc.devRef .tc (Pipeline.arrRef spec0 w) ∉ op.writes :=
  fun ops hops op hop w => tail_nw (Pipeline.arrRef spec0 w) (by fin_cases w <;> decide) ops hops op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (when it is not
    fetched its index has not moved), for any proof data over the region-entry arrays whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (when it is not
    fetched its index has not moved), for any proof data over the region-entry arrays whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (when it is not
    fetched its index has not moved), for any proof data over the region-entry arrays whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (when it is not
    fetched its index has not moved), for any proof data over the region-entry arrays whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (when it is not
    fetched its index has not moved), for any proof data over the region-entry arrays whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions on the grid point -/

/-- The first conditional of the body (the scratch buffers are reset): the vocabulary block is the first, vj = 0. -/
abbrev isFirst (i : grid0.Coords) : Prop := (Scalar.cmpi .ne (Scalar.extui (Scalar.cmpi .eq (BitVec.ofNat 32 (i 1).val) 0#32)) 0#32) = 1#1
/-- It holds at the points ≡ 0 (mod 25). -/
theorem isFirst_iff : ∀ t : Fin cfg0.N, isFirst (grid0.coords t) ↔ t.val % 25 = 0 :=
  (by decide +kernel : ∀ t : Fin grid0.N, isFirst (grid0.coords t) ↔ t.val % 25 = 0)
/-- The second conditional (the two results are stored): the vocabulary block is the last, vj = 24. -/
abbrev isLast (i : grid0.Coords) : Prop := k0_cond2 i = 1#1
/-- It holds at the points ≡ 24 (mod 25). -/
theorem isLast_iff : ∀ t : Fin cfg0.N, isLast (grid0.coords t) ↔ t.val % 25 = 24 :=
  (by decide +kernel : ∀ t : Fin grid0.N, isLast (grid0.coords t) ↔ t.val % 25 = 24)

/-! ## Where the windows are stored into -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Result window 5 is stored into at the last vocabulary block only, and written back there only. -/
theorem idle5 : ∀ t : Fin cfg0.N, ¬isLast (grid0.coords t) → cfg0.idle 5 (grid0.coords t) = true := by decide +kernel
theorem noFlush5 : ∀ t : Fin cfg0.N, ¬isLast (grid0.coords t) → (cfg0.win 5).flush t = false := by decide +kernel
theorem live5 : ∀ t : Fin cfg0.N, isLast (grid0.coords t) → cfg0.idle 5 (grid0.coords t) = false := by decide +kernel
/-- Result window 6 is stored into at the last vocabulary block only, and written back there only. -/
theorem idle6 : ∀ t : Fin cfg0.N, ¬isLast (grid0.coords t) → cfg0.idle 6 (grid0.coords t) = true := by decide +kernel
theorem noFlush6 : ∀ t : Fin cfg0.N, ¬isLast (grid0.coords t) → (cfg0.win 6).flush t = false := by decide +kernel
theorem live6 : ∀ t : Fin cfg0.N, isLast (grid0.coords t) → cfg0.idle 6 (grid0.coords t) = false := by decide +kernel

/-! ## The memrefs the body is called with -/
abbrev ms0 (t : Fin cfg0.N) : Memref sig .tc .vmem S512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x2000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2000x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x2000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
/-- Scratch 0 (the English head's running maximum), a whole scoped buffer of the kernel's own. -/
abbrev sc0 : Memref sig .tc .vmem S512x1 .f32 := Memref.whole cc0_scratch0
/-- Scratch 1 (the English head's running sum), a whole scoped buffer of the kernel's own. -/
abbrev sc1 : Memref sig .tc .vmem S512x1 .f32 := Memref.whole cc0_scratch1
/-- Scratch 2 (the French head's running maximum), a whole scoped buffer of the kernel's own. -/
abbrev sc2 : Memref sig .tc .vmem S512x1 .f32 := Memref.whole cc0_scratch2
/-- Scratch 3 (the French head's running sum), a whole scoped buffer of the kernel's own. -/
abbrev sc3 : Memref sig .tc .vmem S512x1 .f32 := Memref.whole cc0_scratch3
/-- The view through which a [512, 1] buffer's contents are stated (which buffer does not matter). -/
abbrev VS : View sig .tc .vmem S512x1 .f32 := (sc0).view

/-- The launch's invariant with the four scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.Kernel.Lse

end
-- ==== Proof.BitsRunFirst.lean ====
/-
  The body of the region run once at the FIRST vocabulary block of a row half (vj = 0): the four scratch buffers arrive at anything and are reset before they are read; the two result windows are not touched.
  The run is symbolic: each conditional is decided by the case's hypotheses, and what each buffer the body stores into
  ends with is found by the run as a list of stored pieces (the witness of the subtype).
-/
import proofs.«121325_j12979391169156_2_alg».proof.Proof.BitsAround

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the five inputs at their contents, the two result buffers at contents handed back untouched, the four scratch
    buffers at anything — the body runs to a continuation holding the inputs as they were, the result buffers as they were
    and each scratch buffer with its pieces written. -/
noncomputable def runFirst (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i)
    (x0 : Vec F S512x256 .f32) (x1 : Vec F S2000x256 .f32) (x2 : Vec F S1x1x2000 .f32) (x3 : Vec F S2000x256 .f32) (x4 : Vec F S1x1x2000 .f32) :
    Σ' (LS0 LS1 LS2 : List (View.Piece (Elt F) S512x1 .f32)), { LS3 : List (View.Piece (Elt F) S512x1 .f32) //
      ∀ (xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 E K => ?run⟩
  case run =>
    simp only [cc0__lse_kernel_eq_skeleton]; unfold cc0__lse_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Lse

end
-- ==== Proof.BitsRunMiddle.lean ====
/-
  The body of the region run once at a MIDDLE vocabulary block (0 < vj < 24): the four scratch buffers arrive at what the block before left; the two result windows are not touched.
  The run is symbolic: each conditional is decided by the case's hypotheses, and what each buffer the body stores into
  ends with is found by the run as a list of stored pieces (the witness of the subtype).
-/
import proofs.«121325_j12979391169156_2_alg».proof.Proof.BitsRunFirst

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the five inputs at their contents, the two result buffers at contents handed back untouched, the four scratch
    buffers at the contents the block before left — the body runs to a continuation holding the inputs as they were, the result buffers as they were
    and each scratch buffer with its pieces written. -/
noncomputable def runMiddle (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i)
    (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    Σ' (LS0 LS1 LS2 : List (View.Piece (Elt F) S512x1 .f32)), { LS3 : List (View.Piece (Elt F) S512x1 .f32) //
      ∀ (xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 E K => ?run⟩
  case run =>
    simp only [cc0__lse_kernel_eq_skeleton]; unfold cc0__lse_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Lse

end
-- ==== Proof.BitsRunLast.lean ====
/-
  The body of the region run once at the LAST vocabulary block (vj = 24): the four scratch buffers arrive at what the block before left, and after their update the two result windows are stored (maximum + log of the sum).
  The run is symbolic: each conditional is decided by the case's hypotheses, and what each buffer the body stores into
  ends with is found by the run as a list of stored pieces (the witness of the subtype).
-/
import proofs.«121325_j12979391169156_2_alg».proof.Proof.BitsRunMiddle

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the five inputs at their contents, the two result buffers at anything, the four scratch
    buffers at the contents the block before left — the body runs to a continuation holding the inputs as they were, the result buffers with their pieces written
    and each scratch buffer with its pieces written. -/
noncomputable def runLast (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i)
    (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    Σ' (L5 L6 LS0 LS1 LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__lse_kernel_eq_skeleton]; unfold cc0__lse_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.Kernel.Lse

end
-- ==== Proof.BitsFrame.lean ====
/-
  The frame of the whole program, and with it what every buffer holds at the end.

  What the four scratch buffers hold after each grid point is a recursion on the point: the first vocabulary block of
  a row half resets them and folds its block in, every later block folds its block into what the block before left,
  and the last block also stores the two results from them. With that recursion as the region's invariant the body
  runs at every point (one of three cases, by the point's residue mod 25), the region runs, and the 138 host
  operations after it run on what it left.
-/
import proofs.«121325_j12979391169156_2_alg».proof.Proof.BitsRunLast

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces the first-block run stores into scratch 0 tile the buffer, so they cover it. -/
theorem scoverFirst0 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) (y : S512x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4).1 S512x1.size (by sl_kernel_rfl) y
/-- What the first-block run leaves in scratch 0: its pieces read back. -/
def soutFirst0 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) : Vec F S512x1 .f32 :=
  VS.read (Elt F) (VS.writes (Elt F) VS.junk (runFirst c i arg2 harg2 arg3 harg3 arg4 harg4 arg5 harg5 arg6 harg6 arg7 harg7 arg8 harg8 arg9 harg9 arg10 harg10 arg11 harg11 arg12 harg12 hc0 hc1 x0 x1 x2 x3 x4).1)

/-- The pieces the first-block run stores into scratch 1 tile the buffer, so they cover it. -/
theorem scoverFirst1 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) (y : S512x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4).2.1 S512x1.size (by sl_kernel_rfl) y
/-- What the first-block run leaves in scratch 1: its pieces read back. -/
def soutFirst1 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) : Vec F S512x1 .f32 :=
  VS.read (Elt F) (VS.writes (Elt F) VS.junk (runFirst c i arg2 harg2 arg3 harg3 arg4 harg4 arg5 harg5 arg6 harg6 arg7 harg7 arg8 harg8 arg9 harg9 arg10 harg10 arg11 harg11 arg12 harg12 hc0 hc1 x0 x1 x2 x3 x4).2.1)

/-- The pieces the first-block run stores into scratch 2 tile the buffer, so they cover it. -/
theorem scoverFirst2 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) (y : S512x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4).2.2.1 S512x1.size (by sl_kernel_rfl) y
/-- What the first-block run leaves in scratch 2: its pieces read back. -/
def soutFirst2 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) : Vec F S512x1 .f32 :=
  VS.read (Elt F) (VS.writes (Elt F) VS.junk (runFirst c i arg2 harg2 arg3 harg3 arg4 harg4 arg5 harg5 arg6 harg6 arg7 harg7 arg8 harg8 arg9 harg9 arg10 harg10 arg11 harg11 arg12 harg12 hc0 hc1 x0 x1 x2 x3 x4).2.2.1)

/-- The pieces the first-block run stores into scratch 3 tile the buffer, so they cover it. -/
theorem scoverFirst3 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) (y : S512x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4).2.2.2.1 S512x1.size (by sl_kernel_rfl) y
/-- What the first-block run leaves in scratch 3: its pieces read back. -/
def soutFirst3 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) : Vec F S512x1 .f32 :=
  VS.read (Elt F) (VS.writes (Elt F) VS.junk (runFirst c i arg2 harg2 arg3 harg3 arg4 harg4 arg5 harg5 arg6 harg6 arg7 harg7 arg8 harg8 arg9 harg9 arg10 harg10 arg11 harg11 arg12 harg12 hc0 hc1 x0 x1 x2 x3 x4).2.2.2.1)

/-- The pieces the middle-block run stores into scratch 0 tile the buffer, so they cover it. -/
theorem scoverMiddle0 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1 S512x1.size (by sl_kernel_rfl) y
/-- What the middle-block run leaves in scratch 0: its pieces read back. -/
def soutMiddle0 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- The pieces the middle-block run stores into scratch 1 tile the buffer, so they cover it. -/
theorem scoverMiddle1 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1 S512x1.size (by sl_kernel_rfl) y
/-- What the middle-block run leaves in scratch 1: its pieces read back. -/
def soutMiddle1 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1)

/-- The pieces the middle-block run stores into scratch 2 tile the buffer, so they cover it. -/
theorem scoverMiddle2 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S512x1.size (by sl_kernel_rfl) y
/-- What the middle-block run leaves in scratch 2: its pieces read back. -/
def soutMiddle2 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- The pieces the middle-block run stores into scratch 3 tile the buffer, so they cover it. -/
theorem scoverMiddle3 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S512x1.size (by sl_kernel_rfl) y
/-- What the middle-block run leaves in scratch 3: its pieces read back. -/
def soutMiddle3 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- The pieces the last-block run stores into scratch 0 tile the buffer, so they cover it. -/
theorem scoverLast0 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S512x1.size (by sl_kernel_rfl) y
/-- What the last-block run leaves in scratch 0: its pieces read back. -/
def soutLast0 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- The pieces the last-block run stores into scratch 1 tile the buffer, so they cover it. -/
theorem scoverLast1 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S512x1.size (by sl_kernel_rfl) y
/-- What the last-block run leaves in scratch 1: its pieces read back. -/
def soutLast1 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- The pieces the last-block run stores into scratch 2 tile the buffer, so they cover it. -/
theorem scoverLast2 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1 S512x1.size (by sl_kernel_rfl) y
/-- What the last-block run leaves in scratch 2: its pieces read back. -/
def soutLast2 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1)

/-- The pieces the last-block run stores into scratch 3 tile the buffer, so they cover it. -/
theorem scoverLast3 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1 S512x1.size (by sl_kernel_rfl) y
/-- What the last-block run leaves in scratch 3: its pieces read back. -/
def soutLast3 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1)

/-- The pieces the last-block run stores into result window 5's buffer cover it. -/
theorem cover5 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1 S512x1.size (by sl_kernel_rfl) y
/-- What the last-block run leaves in result window 5's buffer. -/
def out5 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- The pieces the last-block run stores into result window 6's buffer cover it. -/
theorem cover6 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1 S512x1.size (by sl_kernel_rfl) y
/-- What the last-block run leaves in result window 6's buffer. -/
def out6 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1)

/-! ## The scratch buffers after each point -/

/-- The four scratch buffers after the body at position `n` (running maximum and running sum of the English head, then
    of the French head): by the point's residue mod 25 the first-block, middle-block or last-block run at the point's
    memrefs and input blocks, the latter two over what position `n - 1` left. -/
def scAt (c : Dev nD) : (n : ℕ) → n < cfg0.N → Vec F S512x1 .f32 × Vec F S512x1 .f32 × Vec F S512x1 .f32 × Vec F S512x1 .f32
  | 0, hn => (soutFirst0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩), soutFirst1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩), soutFirst2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩), soutFirst3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 25 = 0 then
      if h1 : (n + 1) % 25 = 24 then False.elim (by omega)
      else (soutFirst0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), soutFirst1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), soutFirst2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), soutFirst3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 25 = 24 then (soutLast0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2, soutLast1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2, soutLast2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2, soutLast3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2)
      else (soutMiddle0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2, soutMiddle1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2, soutMiddle2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2, soutMiddle3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2)

theorem scAt_first (c : Dev nD) (t : Fin cfg0.N) (h0 : t.val % 25 = 0) (h1 : ¬t.val % 25 = 24) :
    scAt m c t.val t.isLt = (soutFirst0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t) (iblk m c 4 t), soutFirst1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t) (iblk m c 4 t), soutFirst2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t) (iblk m c 4 t), soutFirst3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem scAt_middle (c : Dev nD) (t : Fin cfg0.N) (h0 : ¬t.val % 25 = 0) (h1 : ¬t.val % 25 = 24) :
    scAt m c t.val t.isLt = (soutMiddle0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2, soutMiddle1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2, soutMiddle2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2, soutMiddle3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem scAt_last (c : Dev nD) (t : Fin cfg0.N) (h0 : ¬t.val % 25 = 0) (h1 : t.val % 25 = 24) :
    scAt m c t.val t.isLt = (soutLast0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2, soutLast1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2, soutLast2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2, soutLast3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The two result windows' buffers after the body at point `t`: at a last vocabulary block what that run stores (over
    what the block before left in the scratch buffers); elsewhere the windows are not stored into and not written
    back, and the value here is a placeholder nothing consults. -/
def outAt (c : Dev nD) (t : Fin cfg0.N) : Vec F S512x1 .f32 × Vec F S512x1 .f32 :=
  if h1 : t.val % 25 = 24 then
    have h0 : ¬t.val % 25 = 0 := by omega
    (out5 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2,
     out6 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2)
  else (VS.read (Elt F) VS.junk, VS.read (Elt F) VS.junk)

theorem outAt_last (c : Dev nD) (t : Fin cfg0.N) (h0 : ¬t.val % 25 = 0) (h1 : t.val % 25 = 24) :
    outAt m c t = (out5 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2,
     out6 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2) := by
  unfold outAt; rw [dif_pos h1]

/-- The region's invariant before position `n`: before the first point the launch's (every scratch buffer at
    anything); afterwards the four scratch buffers at what the point before left, and the generator register. -/
def PhiS (c : Dev nD) : (n : ℕ) → n ≤ cfg0.N → sProp 𝕄
  | 0, _ => Pipeline.ΦA spec0 c
  | n + 1, hn => iprop(iprop(owns (c : Thread nD τ) sc0 fullShare ((scAt m c n hn).1) ∗ owns (c : Thread nD τ) sc1 fullShare ((scAt m c n hn).2.1) ∗ owns (c : Thread nD τ) sc2 fullShare ((scAt m c n hn).2.2.1) ∗ owns (c : Thread nD τ) sc3 fullShare ((scAt m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc0 fullShare ((scAt m c n hn).1) ∗ owns (c : Thread nD τ) sc1 fullShare ((scAt m c n hn).2.1) ∗ owns (c : Thread nD τ) sc2 fullShare ((scAt m c n hn).2.2.1) ∗ owns (c : Thread nD τ) sc3 fullShare ((scAt m c n hn).2.2.2)) ∗ (∃ r, prngReg c r)) := rfl
theorem PhiS_pos (c : Dev nD) (n : ℕ) (h : n ≤ cfg0.N) (hz : n ≠ 0) :
    PhiS m c n h = iprop(iprop(owns (c : Thread nD τ) sc0 fullShare ((scAt m c (n - 1) (by omega)).1) ∗ owns (c : Thread nD τ) sc1 fullShare ((scAt m c (n - 1) (by omega)).2.1) ∗ owns (c : Thread nD τ) sc2 fullShare ((scAt m c (n - 1) (by omega)).2.2.1) ∗ owns (c : Thread nD τ) sc3 fullShare ((scAt m c (n - 1) (by omega)).2.2.2)) ∗ (∃ r, prngReg c r)) := by
  cases n with
  | zero => exact absurd rfl hz
  | succ n => rfl

/-! ## The proof data of the region -/

/-- On core `c`: the arrays as the region finds them; after the body at point `t` each input's buffer at its block and
    the two results' at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outAt m c t).1
    | ⟨6, _⟩ => (outAt m c t).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outAt m c t).1 := by dsimp only [dats]
theorem after6 (c : Dev nD) (t : Fin cfg0.N) : (dats m 0 c).after 6 t = (outAt m c t).2 := by dsimp only [dats]
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; the point's residue mod 25 says which of the three runs
    applies; the invariant hands the scratch buffers over at what the point before left (at anything before the first
    point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  by_cases h0 : t.val % 25 = 0
  · have h1 : ¬t.val % 25 = 24 := by omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [show (dats m 0 c).leavesExact 4 t = owns (c : Thread nD τ) (ms4 t) fullShare ((dats m 0 c).after 4 t) from by
      unfold Dat.leavesExact; rw [live4 t], after4]
    rw [Dat.leavesExact_idle (dats m 0 c) 5 t (idle5 t (fun h => h1 ((isLast_iff t).mp h))) (noFlush5 t (fun h => h1 ((isLast_iff t).mp h)))]
    rw [Dat.leavesExact_idle (dats m 0 c) 6 t (idle6 t (fun h => h1 ((isLast_iff t).mp h))) (noFlush6 t (fun h => h1 ((isLast_iff t).mp h)))]
    rw [scAt_first m c t h0 h1]
    unfold soutFirst0 soutFirst1 soutFirst2 soutFirst3; (try dsimp only)
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t) (iblk m c 4 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverFirst0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverFirst1 c _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverFirst2 c _ _ _ _ _ _ _ _ _ _ _ _ _ _ _ _ _ _ _ _ _ _ _ _ _ _ _ _ _ _)
          unfold owns; iexists _; isplitr
          swap; · iexact HS3
          ipureintro; exact View.read_writes_of_cover _ _ _ _ _ (scoverFirst3 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t) (iblk m c 4 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverFirst0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverFirst1 c _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverFirst2 c _ _ _ _ _ _ _ _ _ _ _ _ _ _ _ _ _ _ _ _ _ _ _ _ _ _ _ _ _ _)
          unfold owns; iexists _; isplitr
          swap; · iexact HS3
          ipureintro; exact View.read_writes_of_cover _ _ _ _ _ (scoverFirst3 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

  · have hz : t.val ≠ 0 := fun h => h0 (by rw [h])
    by_cases h1 : t.val % 25 = 24
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t ((isLast_iff t).mpr h1)], after5]
      rw [show (dats m 0 c).leavesExact 6 t = owns (c : Thread nD τ) (ms6 t) fullShare ((dats m 0 c).after 6 t) from by
        unfold Dat.leavesExact; rw [live6 t ((isLast_iff t).mpr h1)], after6]
      rw [scAt_last m c t h0 h1, outAt_last m c t h0 h1]
      unfold soutLast0 soutLast1 soutLast2 soutLast3 out5 out6; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverLast0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverLast1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverLast2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scoverLast3 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5 c _ _ _ _ _ _ _ _ _ _ _ _ _ _ _ _ _ _ _ _ _ _ _ _ _ _ _ _ _ _ _ _ _ _)
      unfold owns; iexists _; isplitr
      swap; · iexact H6
      ipureintro; exact View.read_writes_of_cover _ _ _ _ _ (cover6 c _ _ _ _ _ _ _ _ _ _ _ _ _ _ _ _ _ _ _ _ _ _ _ _ _ _ _ _ _ _ _ _ _ _)

    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [Dat.leavesExact_idle (dats m 0 c) 5 t (idle5 t (fun h => h1 ((isLast_iff t).mp h))) (noFlush5 t (fun h => h1 ((isLast_iff t).mp h)))]
      rw [Dat.leavesExact_idle (dats m 0 c) 6 t (idle6 t (fun h => h1 ((isLast_iff t).mp h))) (noFlush6 t (fun h => h1 ((isLast_iff t).mp h)))]
      rw [scAt_middle m c t h0 h1]
      unfold soutMiddle0 soutMiddle1 soutMiddle2 soutMiddle3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (iblk m c 4 t) _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverMiddle0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverMiddle1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverMiddle2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scoverMiddle3 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

/-! ## The run -/

set_option backward.isDefEq.respectTransparency.types false in
/-- From any memory with zero counters every weakly fair execution of @main terminates, and every final state has every
    array the region stages at what the proof data computes and every other unscoped buffer as the 138 operations after
    the region leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps)
    (hmain := hmain m Variants.none) (hA := A_eq m) (hin := hin m) (hout := hout m)

end Cert.Kernel.Lse

end
-- ==== Proof.BitsArgs.lean ====
/-
  The frame claim from the run: every argument array ends as it was launched. The two weight matrices are arrays the
  region stages as inputs (an input window's array is never written back); the other six arguments are touched by no
  window, and no host operation, before or after the region, writes a reference numbered below 8.
-/
import proofs.«121325_j12979391169156_2_alg».proof.Proof.BitsFrame

set_option maxRecDepth 16384

noncomputable section

namespace Cert.Kernel.Lse

open Cert.Kernel Cert.Kernel.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The four operations before the region write references 8 to 11 only. -/
theorem nw0 (b : Ref sig .tc) (hb : b.idx.val < 8) : ∀ op ∈ (List.flatten [hostOps0] : List (HloOp τ sig (Elt F))), Proc.devRef .tc b ∉ op.writes := by
  intro op hop
  simp only [List.flatten_cons, List.flatten_nil, List.append_nil, hostOps0, List.mem_cons, List.mem_nil_iff, or_false] at hop
  rcases hop with rfl | rfl | rfl | rfl
  all_goals
    simp only [StableHlo.binary_writes, StableHlo.reshape_writes, Finset.mem_singleton]
    exact StableHlo.devRef_ne_of_ne (fun h => by subst h; revert hb; decide)

/-- An argument reaches the region as launched. -/
theorem V_arg (c : Dev nD) (b : Ref sig .tc) (hb : b.idx.val < 8) : V m c b = m ((c : Thread nD τ).loc b) :=
  StableHlo.after_of_forall_not_mem (b := Proc.devRef .tc b) _ _ (nw0 b hb)

/-- An argument no window stages is, after the whole tail, as launched. -/
theorem tail_arg (c : Dev nD) (b : Ref sig .tc) (hb : b.idx.val < 8) (hne : ∀ w, Pipeline.arrRef spec0 w ≠ b) :
    Pipeline.afterTail₀ cfgs (dats m) 0 (V0 m) tail c b = m ((c : Thread nD τ).loc b) := by
  unfold Pipeline.afterTail₀
  rw [StableHlo.after_of_forall_not_mem (b := Proc.devRef .tc b) _ _ (fun op hop => by
    obtain ⟨ops, hops, hop'⟩ := List.mem_flatten.mp hop
    exact tail_nw b (by omega) ops hops op hop')]
  rw [Pipeline.withArrays_of_ne _ _ _ _ b hne]
  exact V_arg m c b hb

/-- THE FRAME: from any memory with zero counters every weakly fair execution of @main terminates, nothing faulting,
    with the eight argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_arg0 (Pipeline.mem_restRefs_of _ (by decide) (by decide))).trans (tail_arg m c main_arg0 (by decide) (by decide)),
     ((h c).2 main_arg1 (Pipeline.mem_restRefs_of _ (by decide) (by decide))).trans (tail_arg m c main_arg1 (by decide) (by decide)),
     ((h c).2 main_arg2 (Pipeline.mem_restRefs_of _ (by decide) (by decide))).trans (tail_arg m c main_arg2 (by decide) (by decide)),
     ((h c).2 main_arg3 (Pipeline.mem_restRefs_of _ (by decide) (by decide))).trans (tail_arg m c main_arg3 (by decide) (by decide)),
     ((h c).1 1).trans (((dats m 0 c).arrAt_in 1 rfl _).trans ((A_eq m c 1).trans (V_arg m c main_arg4 (by decide)))),
     ((h c).2 main_arg5 (Pipeline.mem_restRefs_of _ (by decide) (by decide))).trans (tail_arg m c main_arg5 (by decide) (by decide)),
     ((h c).1 3).trans (((dats m 0 c).arrAt_in 3 rfl _).trans ((A_eq m c 3).trans (V_arg m c main_arg6 (by decide)))),
     ((h c).2 main_arg7 (Pipeline.mem_restRefs_of _ (by decide) (by decide))).trans (tail_arg m c main_arg7 (by decide) (by decide))⟩)
    (run_main m ρ)

end Cert.Kernel.Lse

end
-- ==== Proof.IdealAround.lean ====
/-
  @main around the one kernel region, and what the per-case runs of the region's body are stated over.

  @main is four host operations (z = mu + sigma, its [1024, 256] reshape, the two biases reshaped to [25, 1, 2000]),
  the region — a 2 x 25 grid: the row half mi and the vocabulary block vj, the four [512, 1] scratch buffers (the
  running maxima and the running sums of the two heads) carried from one vocabulary block to the next —, and 138
  host operations after it in nine stretches (the target-row logits, the two log-probability sums, the KL sum).
  Here: the contents the region finds (the four operations applied to the launch memory), that no operation
  after the region writes an array the region stages or an argument, the two conditions of the body on the grid
  point in closed form (vj = 0, vj = 24), and at which points the two result windows are stored into.
-/
import proofs.«121325_j12979391169156_2_alg».proof.Proof.Gen.KernelIdeal.Launch
import proofs.«121325_j12979391169156_2_alg».proof.Proof.Gen.KernelIdeal.Skeleton
import proofs.«121325_j12979391169156_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region finds -/

/-- Core `c`'s buffers when the region is entered: the four operations before it applied to the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The nine stretches of host operations after the region, in order. -/
abbrev tail : List (List (HloOp τ sig (Elt F))) :=
  [hostOps1, hostOps1_1, hostOps1_2, hostOps1_3, hostOps1_4, hostOps1_5, hostOps1_6, hostOps1_7, hostOps1_8]

theorem hostOps0_fresh : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor
theorem fresh1_5 : (hostOps1_5 : List (HloOp τ sig (Elt F))).Forall fun op => op.fresh = ∅ := by
  simp only [List.Forall]; repeat' constructor
theorem fresh1_6 : (hostOps1_6 : List (HloOp τ sig (Elt F))).Forall fun op => op.fresh = ∅ := by
  simp only [List.Forall]; repeat' constructor
theorem fresh1_7 : (hostOps1_7 : List (HloOp τ sig (Elt F))).Forall fun op => op.fresh = ∅ := by
  simp only [List.Forall]; repeat' constructor
theorem fresh1_8 : (hostOps1_8 : List (HloOp τ sig (Elt F))).Forall fun op => op.fresh = ∅ := by
  simp only [List.Forall]; repeat' constructor

/-- @main is the operations before the region, the region, and the region CONTINUED BY the nine stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- Every operation after the region touches unscoped TensorCore references only. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- None of them allocates. -/
theorem tail_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop
  · exact (List.forall_iff_forall_mem.mp fresh1_5) op hop
  · exact (List.forall_iff_forall_mem.mp fresh1_6) op hop
  · exact (List.forall_iff_forall_mem.mp fresh1_7) op hop
  · exact (List.forall_iff_forall_mem.mp fresh1_8) op hop

/-- A reference numbered below 14 (the arguments and the arrays the region stages) is none numbered 14 or above (the
    results of the operations after the region). -/
theorem ne_of_idx {b y : Ref sig .tc} (hb : b.idx.val < 14) (hy : 14 ≤ y.idx.val) : b ≠ y := fun h => by subst h; omega

theorem nw1 (b : Ref sig .tc) (hb : b.idx.val < 14) : ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_1 (b : Ref sig .tc) (hb : b.idx.val < 14) : ∀ op ∈ (hostOps1_1 : List (HloOp τ sig (Elt F))), Proc.devRef .tc b ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_2 (b : Ref sig .tc) (hb : b.idx.val < 14) : ∀ op ∈ (hostOps1_2 : List (HloOp τ sig (Elt F))), Proc.devRef .tc b ∉ op.writes := by
  intro op hop
  simp only [hostOps1_2, List.mem_cons, List.mem_nil_iff, or_false] at hop
  rcases hop with rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_3 (b : Ref sig .tc) (hb : b.idx.val < 14) : ∀ op ∈ (hostOps1_3 : List (HloOp τ sig (Elt F))), Proc.devRef .tc b ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_4 (b : Ref sig .tc) (hb : b.idx.val < 14) : ∀ op ∈ (hostOps1_4 : List (HloOp τ sig (Elt F))), Proc.devRef .tc b ∉ op.writes := by
  intro op hop
  simp only [hostOps1_4, List.mem_cons, List.mem_nil_iff, or_false] at hop
  rcases hop with rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_5 (b : Ref sig .tc) (hb : b.idx.val < 14) : ∀ op ∈ (hostOps1_5 : List (HloOp τ sig (Elt F))), Proc.devRef .tc b ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_6 (b : Ref sig .tc) (hb : b.idx.val < 14) : ∀ op ∈ (hostOps1_6 : List (HloOp τ sig (Elt F))), Proc.devRef .tc b ∉ op.writes := by
  intro op hop
  simp only [hostOps1_6, List.mem_cons, List.mem_nil_iff, or_false] at hop
  rcases hop with rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_7 (b : Ref sig .tc) (hb : b.idx.val < 14) : ∀ op ∈ (hostOps1_7 : List (HloOp τ sig (Elt F))), Proc.devRef .tc b ∉ op.writes := by
  intro op hop
  simp only [hostOps1_7, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

theorem nw1_8 (b : Ref sig .tc) (hb : b.idx.val < 14) : ∀ op ∈ (hostOps1_8 : List (HloOp τ sig (Elt F))), Proc.devRef .tc b ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_idx hb (by decide))

/-- No operation after the region writes a reference numbered below 14. -/
theorem tail_nw (b : Ref sig .tc) (hb : b.idx.val < 14) : ∀ ops ∈ (tail : List (List (HloOp τ sig (Elt F)))), ∀ op ∈ ops,
    Proc.devRef .tc b ∉ op.writes := by
  intro ops hops op hop
  simp only [List.mem_cons, List.mem_nil_iff, or_false] at hops
  rcases hops with rfl | rfl | rfl | rfl | rfl | rfl | rfl | rfl | rfl
  · exact nw1 b hb op hop
  · exact nw1_1 b hb op hop
  · exact nw1_2 b hb op hop
  · exact nw1_3 b hb op hop
  · exact nw1_4 b hb op hop
  · exact nw1_5 b hb op hop
  · exact nw1_6 b hb op hop
  · exact nw1_7 b hb op hop
  · exact nw1_8 b hb op hop

/-- In particular none writes an array the region stages. -/
theorem tail_keeps : ∀ ops ∈ (tail : List (List (HloOp τ sig (Elt F)))), ∀ op ∈ ops,
    ∀ w, Proc.devRef .tc (Pipeline.arrRef spec0 w) ∉ op.writes :=
  fun ops hops op hop w => tail_nw (Pipeline.arrRef spec0 w) (by fin_cases w <;> decide) ops hops op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (when it is not
    fetched its index has not moved), for any proof data over the region-entry arrays whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (when it is not
    fetched its index has not moved), for any proof data over the region-entry arrays whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (when it is not
    fetched its index has not moved), for any proof data over the region-entry arrays whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (when it is not
    fetched its index has not moved), for any proof data over the region-entry arrays whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (when it is not
    fetched its index has not moved), for any proof data over the region-entry arrays whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions on the grid point -/

/-- The first conditional of the body (the scratch buffers are reset): the vocabulary block is the first, vj = 0. -/
abbrev isFirst (i : grid0.Coords) : Prop := (Scalar.cmpi .ne (Scalar.extui (Scalar.cmpi .eq (BitVec.ofNat 32 (i 1).val) 0#32)) 0#32) = 1#1
/-- It holds at the points ≡ 0 (mod 25). -/
theorem isFirst_iff : ∀ t : Fin cfg0.N, isFirst (grid0.coords t) ↔ t.val % 25 = 0 :=
  (by decide +kernel : ∀ t : Fin grid0.N, isFirst (grid0.coords t) ↔ t.val % 25 = 0)
/-- The second conditional (the two results are stored): the vocabulary block is the last, vj = 24. -/
abbrev isLast (i : grid0.Coords) : Prop := k0_cond2 i = 1#1
/-- It holds at the points ≡ 24 (mod 25). -/
theorem isLast_iff : ∀ t : Fin cfg0.N, isLast (grid0.coords t) ↔ t.val % 25 = 24 :=
  (by decide +kernel : ∀ t : Fin grid0.N, isLast (grid0.coords t) ↔ t.val % 25 = 24)

/-! ## Where the windows are stored into -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Result window 5 is stored into at the last vocabulary block only, and written back there only. -/
theorem idle5 : ∀ t : Fin cfg0.N, ¬isLast (grid0.coords t) → cfg0.idle 5 (grid0.coords t) = true := by decide +kernel
theorem noFlush5 : ∀ t : Fin cfg0.N, ¬isLast (grid0.coords t) → (cfg0.win 5).flush t = false := by decide +kernel
theorem live5 : ∀ t : Fin cfg0.N, isLast (grid0.coords t) → cfg0.idle 5 (grid0.coords t) = false := by decide +kernel
/-- Result window 6 is stored into at the last vocabulary block only, and written back there only. -/
theorem idle6 : ∀ t : Fin cfg0.N, ¬isLast (grid0.coords t) → cfg0.idle 6 (grid0.coords t) = true := by decide +kernel
theorem noFlush6 : ∀ t : Fin cfg0.N, ¬isLast (grid0.coords t) → (cfg0.win 6).flush t = false := by decide +kernel
theorem live6 : ∀ t : Fin cfg0.N, isLast (grid0.coords t) → cfg0.idle 6 (grid0.coords t) = false := by decide +kernel

/-! ## The memrefs the body is called with -/
abbrev ms0 (t : Fin cfg0.N) : Memref sig .tc .vmem S512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x2000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2000x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x2000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
/-- Scratch 0 (the English head's running maximum), a whole scoped buffer of the kernel's own. -/
abbrev sc0 : Memref sig .tc .vmem S512x1 .f32 := Memref.whole cc0_scratch0
/-- Scratch 1 (the English head's running sum), a whole scoped buffer of the kernel's own. -/
abbrev sc1 : Memref sig .tc .vmem S512x1 .f32 := Memref.whole cc0_scratch1
/-- Scratch 2 (the French head's running maximum), a whole scoped buffer of the kernel's own. -/
abbrev sc2 : Memref sig .tc .vmem S512x1 .f32 := Memref.whole cc0_scratch2
/-- Scratch 3 (the French head's running sum), a whole scoped buffer of the kernel's own. -/
abbrev sc3 : Memref sig .tc .vmem S512x1 .f32 := Memref.whole cc0_scratch3
/-- The view through which a [512, 1] buffer's contents are stated (which buffer does not matter). -/
abbrev VS : View sig .tc .vmem S512x1 .f32 := (sc0).view

/-- The launch's invariant with the four scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.KernelIdeal.Lse

end
-- ==== Proof.IdealRunFirst.lean ====
/-
  The body of the region run once at the FIRST vocabulary block of a row half (vj = 0): the four scratch buffers arrive at anything and are reset before they are read; the two result windows are not touched.
  The run is symbolic: each conditional is decided by the case's hypotheses, and what each buffer the body stores into
  ends with is found by the run as a list of stored pieces (the witness of the subtype).
-/
import proofs.«121325_j12979391169156_2_alg».proof.Proof.IdealAround

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the five inputs at their contents, the two result buffers at contents handed back untouched, the four scratch
    buffers at anything — the body runs to a continuation holding the inputs as they were, the result buffers as they were
    and each scratch buffer with its pieces written. -/
noncomputable def runFirst (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i)
    (x0 : Vec F S512x256 .f32) (x1 : Vec F S2000x256 .f32) (x2 : Vec F S1x1x2000 .f32) (x3 : Vec F S2000x256 .f32) (x4 : Vec F S1x1x2000 .f32) :
    Σ' (LS0 LS1 LS2 : List (View.Piece (Elt F) S512x1 .f32)), { LS3 : List (View.Piece (Elt F) S512x1 .f32) //
      ∀ (xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 E K => ?run⟩
  case run =>
    simp only [cc0__lse_kernel_eq_skeleton]; unfold cc0__lse_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Lse

end
-- ==== Proof.IdealRunMiddle.lean ====
/-
  The body of the region run once at a MIDDLE vocabulary block (0 < vj < 24): the four scratch buffers arrive at what the block before left; the two result windows are not touched.
  The run is symbolic: each conditional is decided by the case's hypotheses, and what each buffer the body stores into
  ends with is found by the run as a list of stored pieces (the witness of the subtype).
-/
import proofs.«121325_j12979391169156_2_alg».proof.Proof.IdealRunFirst

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the five inputs at their contents, the two result buffers at contents handed back untouched, the four scratch
    buffers at the contents the block before left — the body runs to a continuation holding the inputs as they were, the result buffers as they were
    and each scratch buffer with its pieces written. -/
noncomputable def runMiddle (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i)
    (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    Σ' (LS0 LS1 LS2 : List (View.Piece (Elt F) S512x1 .f32)), { LS3 : List (View.Piece (Elt F) S512x1 .f32) //
      ∀ (xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 E K => ?run⟩
  case run =>
    simp only [cc0__lse_kernel_eq_skeleton]; unfold cc0__lse_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Lse

end
-- ==== Proof.IdealRunLast.lean ====
/-
  The body of the region run once at the LAST vocabulary block (vj = 24): the four scratch buffers arrive at what the block before left, and after their update the two result windows are stored (maximum + log of the sum).
  The run is symbolic: each conditional is decided by the case's hypotheses, and what each buffer the body stores into
  ends with is found by the run as a list of stored pieces (the witness of the subtype).
-/
import proofs.«121325_j12979391169156_2_alg».proof.Proof.IdealRunMiddle

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the five inputs at their contents, the two result buffers at anything, the four scratch
    buffers at the contents the block before left — the body runs to a continuation holding the inputs as they were, the result buffers with their pieces written
    and each scratch buffer with its pieces written. -/
noncomputable def runLast (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i)
    (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    Σ' (L5 L6 LS0 LS1 LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__lse_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__lse_kernel_eq_skeleton]; unfold cc0__lse_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.KernelIdeal.Lse

end
-- ==== Proof.IdealFrame.lean ====
/-
  The frame of the whole program, and with it what every buffer holds at the end.

  What the four scratch buffers hold after each grid point is a recursion on the point: the first vocabulary block of
  a row half resets them and folds its block in, every later block folds its block into what the block before left,
  and the last block also stores the two results from them. With that recursion as the region's invariant the body
  runs at every point (one of three cases, by the point's residue mod 25), the region runs, and the 138 host
  operations after it run on what it left.
-/
import proofs.«121325_j12979391169156_2_alg».proof.Proof.IdealRunLast

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces the first-block run stores into scratch 0 tile the buffer, so they cover it. -/
theorem scoverFirst0 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) (y : S512x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4).1 S512x1.size (by sl_kernel_rfl) y
/-- What the first-block run leaves in scratch 0: its pieces read back. -/
def soutFirst0 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) : Vec F S512x1 .f32 :=
  VS.read (Elt F) (VS.writes (Elt F) VS.junk (runFirst c i arg2 harg2 arg3 harg3 arg4 harg4 arg5 harg5 arg6 harg6 arg7 harg7 arg8 harg8 arg9 harg9 arg10 harg10 arg11 harg11 arg12 harg12 hc0 hc1 x0 x1 x2 x3 x4).1)

/-- The pieces the first-block run stores into scratch 1 tile the buffer, so they cover it. -/
theorem scoverFirst1 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) (y : S512x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4).2.1 S512x1.size (by sl_kernel_rfl) y
/-- What the first-block run leaves in scratch 1: its pieces read back. -/
def soutFirst1 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) : Vec F S512x1 .f32 :=
  VS.read (Elt F) (VS.writes (Elt F) VS.junk (runFirst c i arg2 harg2 arg3 harg3 arg4 harg4 arg5 harg5 arg6 harg6 arg7 harg7 arg8 harg8 arg9 harg9 arg10 harg10 arg11 harg11 arg12 harg12 hc0 hc1 x0 x1 x2 x3 x4).2.1)

/-- The pieces the first-block run stores into scratch 2 tile the buffer, so they cover it. -/
theorem scoverFirst2 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) (y : S512x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4).2.2.1 S512x1.size (by sl_kernel_rfl) y
/-- What the first-block run leaves in scratch 2: its pieces read back. -/
def soutFirst2 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) : Vec F S512x1 .f32 :=
  VS.read (Elt F) (VS.writes (Elt F) VS.junk (runFirst c i arg2 harg2 arg3 harg3 arg4 harg4 arg5 harg5 arg6 harg6 arg7 harg7 arg8 harg8 arg9 harg9 arg10 harg10 arg11 harg11 arg12 harg12 hc0 hc1 x0 x1 x2 x3 x4).2.2.1)

/-- The pieces the first-block run stores into scratch 3 tile the buffer, so they cover it. -/
theorem scoverFirst3 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) (y : S512x1.Idx) :
    ∃ pc ∈ (runFirst c i arg2 harg2 arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 hc0 hc1 x0 x1 x2 x3 x4).2.2.2.1 S512x1.size (by sl_kernel_rfl) y
/-- What the first-block run leaves in scratch 3: its pieces read back. -/
def soutFirst3 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) : Vec F S512x1 .f32 :=
  VS.read (Elt F) (VS.writes (Elt F) VS.junk (runFirst c i arg2 harg2 arg3 harg3 arg4 harg4 arg5 harg5 arg6 harg6 arg7 harg7 arg8 harg8 arg9 harg9 arg10 harg10 arg11 harg11 arg12 harg12 hc0 hc1 x0 x1 x2 x3 x4).2.2.2.1)

/-- The pieces the middle-block run stores into scratch 0 tile the buffer, so they cover it. -/
theorem scoverMiddle0 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1 S512x1.size (by sl_kernel_rfl) y
/-- What the middle-block run leaves in scratch 0: its pieces read back. -/
def soutMiddle0 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- The pieces the middle-block run stores into scratch 1 tile the buffer, so they cover it. -/
theorem scoverMiddle1 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1 S512x1.size (by sl_kernel_rfl) y
/-- What the middle-block run leaves in scratch 1: its pieces read back. -/
def soutMiddle1 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1)

/-- The pieces the middle-block run stores into scratch 2 tile the buffer, so they cover it. -/
theorem scoverMiddle2 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S512x1.size (by sl_kernel_rfl) y
/-- What the middle-block run leaves in scratch 2: its pieces read back. -/
def soutMiddle2 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- The pieces the middle-block run stores into scratch 3 tile the buffer, so they cover it. -/
theorem scoverMiddle3 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S512x1.size (by sl_kernel_rfl) y
/-- What the middle-block run leaves in scratch 3: its pieces read back. -/
def soutMiddle3 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runMiddle c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- The pieces the last-block run stores into scratch 0 tile the buffer, so they cover it. -/
theorem scoverLast0 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S512x1.size (by sl_kernel_rfl) y
/-- What the last-block run leaves in scratch 0: its pieces read back. -/
def soutLast0 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- The pieces the last-block run stores into scratch 1 tile the buffer, so they cover it. -/
theorem scoverLast1 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S512x1.size (by sl_kernel_rfl) y
/-- What the last-block run leaves in scratch 1: its pieces read back. -/
def soutLast1 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- The pieces the last-block run stores into scratch 2 tile the buffer, so they cover it. -/
theorem scoverLast2 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1 S512x1.size (by sl_kernel_rfl) y
/-- What the last-block run leaves in scratch 2: its pieces read back. -/
def soutLast2 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1)

/-- The pieces the last-block run stores into scratch 3 tile the buffer, so they cover it. -/
theorem scoverLast3 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1 S512x1.size (by sl_kernel_rfl) y
/-- What the last-block run leaves in scratch 3: its pieces read back. -/
def soutLast3 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1)

/-- The pieces the last-block run stores into result window 5's buffer cover it. -/
theorem cover5 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1 S512x1.size (by sl_kernel_rfl) y
/-- What the last-block run leaves in result window 5's buffer. -/
def out5 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- The pieces the last-block run stores into result window 6's buffer cover it. -/
theorem cover6 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) (y : S512x1.Idx) :
    ∃ pc ∈ (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1 S512x1.size (by sl_kernel_rfl) y
/-- What the last-block run leaves in result window 6's buffer. -/
def out6 (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) : Vec F S512x1 .f32 :=
  VS.read (Elt F) (VS.writes (Elt F) VS.junk (runLast c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1)

/-! ## The scratch buffers after each point -/

/-- The four scratch buffers after the body at position `n` (running maximum and running sum of the English head, then
    of the French head): by the point's residue mod 25 the first-block, middle-block or last-block run at the point's
    memrefs and input blocks, the latter two over what position `n - 1` left. -/
def scAt (c : Dev nD) : (n : ℕ) → n < cfg0.N → Vec F S512x1 .f32 × Vec F S512x1 .f32 × Vec F S512x1 .f32 × Vec F S512x1 .f32
  | 0, hn => (soutFirst0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩), soutFirst1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩), soutFirst2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩), soutFirst3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sc0 (Memref.isWhole_whole _) sc1 (Memref.isWhole_whole _) sc2 (Memref.isWhole_whole _) sc3 (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 25 = 0 then
      if h1 : (n + 1) % 25 = 24 then False.elim (by omega)
      else (soutFirst0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), soutFirst1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), soutFirst2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), soutFirst3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 25 = 24 then (soutLast0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2, soutLast1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2, soutLast2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2, soutLast3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2)
      else (soutMiddle0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2, soutMiddle1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2, soutMiddle2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2, soutMiddle3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sc0 (Memref.isWhole_whole _) sc1 (Memref.isWhole_whole _) sc2 (Memref.isWhole_whole _) sc3 (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2.1 (scAt c n (Nat.lt_of_succ_lt hn)).2.2.1 (scAt c n (Nat.lt_of_succ_lt hn)).2.2.2)

theorem scAt_first (c : Dev nD) (t : Fin cfg0.N) (h0 : t.val % 25 = 0) (h1 : ¬t.val % 25 = 24) :
    scAt m c t.val t.isLt = (soutFirst0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t) (iblk m c 4 t), soutFirst1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t) (iblk m c 4 t), soutFirst2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t) (iblk m c 4 t), soutFirst3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem scAt_middle (c : Dev nD) (t : Fin cfg0.N) (h0 : ¬t.val % 25 = 0) (h1 : ¬t.val % 25 = 24) :
    scAt m c t.val t.isLt = (soutMiddle0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2, soutMiddle1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2, soutMiddle2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2, soutMiddle3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem scAt_last (c : Dev nD) (t : Fin cfg0.N) (h0 : ¬t.val % 25 = 0) (h1 : t.val % 25 = 24) :
    scAt m c t.val t.isLt = (soutLast0 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2, soutLast1 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2, soutLast2 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2, soutLast3 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The two result windows' buffers after the body at point `t`: at a last vocabulary block what that run stores (over
    what the block before left in the scratch buffers); elsewhere the windows are not stored into and not written
    back, and the value here is a placeholder nothing consults. -/
def outAt (c : Dev nD) (t : Fin cfg0.N) : Vec F S512x1 .f32 × Vec F S512x1 .f32 :=
  if h1 : t.val % 25 = 24 then
    have h0 : ¬t.val % 25 = 0 := by omega
    (out5 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2,
     out6 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2)
  else (VS.read (Elt F) VS.junk, VS.read (Elt F) VS.junk)

theorem outAt_last (c : Dev nD) (t : Fin cfg0.N) (h0 : ¬t.val % 25 = 0) (h1 : t.val % 25 = 24) :
    outAt m c t = (out5 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2,
     out6 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2.1 (scAt m c (t.val - 1) (Nat.lt_of_le_of_lt (Nat.sub_le _ _) t.isLt)).2.2.1 (scAt m c (t.val - 1) (Nat.lt_of_le_of_lt (Nat.sub_le _ _) t.isLt)).2.2.2) := by
  unfold outAt; rw [dif_pos h1]

/-- The region's invariant before position `n`: before the first point the launch's (every scratch buffer at
    anything); afterwards the four scratch buffers at what the point before left, and the generator register. -/
def PhiS (c : Dev nD) : (n : ℕ) → n ≤ cfg0.N → sProp 𝕄
  | 0, _ => Pipeline.ΦA spec0 c
  | n + 1, hn => iprop(iprop(owns (c : Thread nD τ) sc0 fullShare ((scAt m c n hn).1) ∗ owns (c : Thread nD τ) sc1 fullShare ((scAt m c n hn).2.1) ∗ owns (c : Thread nD τ) sc2 fullShare ((scAt m c n hn).2.2.1) ∗ owns (c : Thread nD τ) sc3 fullShare ((scAt m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc0 fullShare ((scAt m c n hn).1) ∗ owns (c : Thread nD τ) sc1 fullShare ((scAt m c n hn).2.1) ∗ owns (c : Thread nD τ) sc2 fullShare ((scAt m c n hn).2.2.1) ∗ owns (c : Thread nD τ) sc3 fullShare ((scAt m c n hn).2.2.2)) ∗ (∃ r, prngReg c r)) := rfl
theorem PhiS_pos (c : Dev nD) (n : ℕ) (h : n ≤ cfg0.N) (hz : n ≠ 0) :
    PhiS m c n h = iprop(iprop(owns (c : Thread nD τ) sc0 fullShare ((scAt m c (n - 1) (by omega)).1) ∗ owns (c : Thread nD τ) sc1 fullShare ((scAt m c (n - 1) (by omega)).2.1) ∗ owns (c : Thread nD τ) sc2 fullShare ((scAt m c (n - 1) (by omega)).2.2.1) ∗ owns (c : Thread nD τ) sc3 fullShare ((scAt m c (n - 1) (by omega)).2.2.2)) ∗ (∃ r, prngReg c r)) := by
  cases n with
  | zero => exact absurd rfl hz
  | succ n => rfl

/-! ## The proof data of the region -/

/-- On core `c`: the arrays as the region finds them; after the body at point `t` each input's buffer at its block and
    the two results' at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outAt m c t).1
    | ⟨6, _⟩ => (outAt m c t).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outAt m c t).1 := by dsimp only [dats]
theorem after6 (c : Dev nD) (t : Fin cfg0.N) : (dats m 0 c).after 6 t = (outAt m c t).2 := by dsimp only [dats]
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; the point's residue mod 25 says which of the three runs
    applies; the invariant hands the scratch buffers over at what the point before left (at anything before the first
    point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  by_cases h0 : t.val % 25 = 0
  · have h1 : ¬t.val % 25 = 24 := by omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [show (dats m 0 c).leavesExact 4 t = owns (c : Thread nD τ) (ms4 t) fullShare ((dats m 0 c).after 4 t) from by
      unfold Dat.leavesExact; rw [live4 t], after4]
    rw [Dat.leavesExact_idle (dats m 0 c) 5 t (idle5 t (fun h => h1 ((isLast_iff t).mp h))) (noFlush5 t (fun h => h1 ((isLast_iff t).mp h)))]
    rw [Dat.leavesExact_idle (dats m 0 c) 6 t (idle6 t (fun h => h1 ((isLast_iff t).mp h))) (noFlush6 t (fun h => h1 ((isLast_iff t).mp h)))]
    rw [scAt_first m c t h0 h1]
    unfold soutFirst0 soutFirst1 soutFirst2 soutFirst3; (try dsimp only)
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t) (iblk m c 4 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverFirst0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverFirst1 c _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverFirst2 c _ _ _ _ _ _ _ _ _ _ _ _ _ _ _ _ _ _ _ _ _ _ _ _ _ _ _ _ _ _)
          unfold owns; iexists _; isplitr
          swap; · iexact HS3
          ipureintro; exact View.read_writes_of_cover _ _ _ _ _ (scoverFirst3 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) ((isFirst_iff t).mpr h0) (fun h => h1 ((isLast_iff t).mp h)) (iblk m c 0 t) (iblk m c 1 t) (iblk m c 2 t) (iblk m c 3 t) (iblk m c 4 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverFirst0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverFirst1 c _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverFirst2 c _ _ _ _ _ _ _ _ _ _ _ _ _ _ _ _ _ _ _ _ _ _ _ _ _ _ _ _ _ _)
          unfold owns; iexists _; isplitr
          swap; · iexact HS3
          ipureintro; exact View.read_writes_of_cover _ _ _ _ _ (scoverFirst3 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

  · have hz : t.val ≠ 0 := fun h => h0 (by rw [h])
    by_cases h1 : t.val % 25 = 24
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t ((isLast_iff t).mpr h1)], after5]
      rw [show (dats m 0 c).leavesExact 6 t = owns (c : Thread nD τ) (ms6 t) fullShare ((dats m 0 c).after 6 t) from by
        unfold Dat.leavesExact; rw [live6 t ((isLast_iff t).mpr h1)], after6]
      rw [scAt_last m c t h0 h1, outAt_last m c t h0 h1]
      unfold soutLast0 soutLast1 soutLast2 soutLast3 out5 out6; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) ((isLast_iff t).mpr h1) (iblk m c 0 t) (iblk m c 1 t) (iblk m c 2 t) (iblk m c 3 t) (iblk m c 4 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverLast0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverLast1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverLast2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scoverLast3 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5 c _ _ _ _ _ _ _ _ _ _ _ _ _ _ _ _ _ _ _ _ _ _ _ _ _ _ _ _ _ _ _ _ _ _)
      unfold owns; iexists _; isplitr
      swap; · iexact H6
      ipureintro; exact View.read_writes_of_cover _ _ _ _ _ (cover6 c _ _ _ _ _ _ _ _ _ _ _ _ _ _ _ _ _ _ _ _ _ _ _ _ _ _ _ _ _ _ _ _ _ _)

    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [Dat.leavesExact_idle (dats m 0 c) 5 t (idle5 t (fun h => h1 ((isLast_iff t).mp h))) (noFlush5 t (fun h => h1 ((isLast_iff t).mp h)))]
      rw [Dat.leavesExact_idle (dats m 0 c) 6 t (idle6 t (fun h => h1 ((isLast_iff t).mp h))) (noFlush6 t (fun h => h1 ((isLast_iff t).mp h)))]
      rw [scAt_middle m c t h0 h1]
      unfold soutMiddle0 soutMiddle1 soutMiddle2 soutMiddle3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (fun h => h0 ((isFirst_iff t).mp h)) (fun h => h1 ((isLast_iff t).mp h)) (iblk m c 0 t) (iblk m c 1 t) (iblk m c 2 t) (iblk m c 3 t) (iblk m c 4 t) _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitr [Hg]
        · isplitl [HS0]
          · unfold owns; iexists _; isplitr
            swap; · iexact HS0
            ipureintro; exact View.read_writes_of_cover _ _ _ _ _ (scoverMiddle0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverMiddle1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scoverMiddle2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scoverMiddle3 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨⟨HS0, HS1, HS2, HS3⟩, Hg⟩
  isplitr [Hg]
  · isplitl [HS0]; · iexists _; iexact HS0
    isplitl [HS1]; · iexists _; iexact HS1
    isplitl [HS2]; · iexists _; iexact HS2
    iexists _; iexact HS3
  iexact Hg

/-! ## The run -/

set_option backward.isDefEq.respectTransparency.types false in
/-- From any memory with zero counters every weakly fair execution of @main terminates, and every final state has every
    array the region stages at what the proof data computes and every other unscoped buffer as the 138 operations after
    the region leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps)
    (hmain := hmain m Variants.none) (hA := A_eq m) (hin := hin m) (hout := hout m)

end Cert.KernelIdeal.Lse

end
-- ==== Proof.IdealPieces.lean ====
/-
  What each run leaves, as the body's arithmetic: one vocabulary block folded into a head's running maximum and running
  sum. The runs found what each buffer ends with as a list of stored pieces; every store of this body writes a whole
  buffer, so the list is one piece, and its value is the body's arithmetic applied to the blocks the run loaded.
-/
import proofs.«121325_j12979391169156_2_alg».proof.Proof.IdealFrame
import Idealize.ShloMosaic.Lib.Pipeline.Value

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A head's running maximum after one more block: max(m, the block's row maxima), from the row block z, the block of the
    head's weight rows and bias, and the running maximum m. -/
def stepMaxE (z : Vec F S512x256 .f32) (w : Vec F S2000x256 .f32) (b : Vec F S1x1x2000 .f32) (me : Vec F S512x1 .f32) : Vec F S512x1 .f32 :=
  k0_pay2 (k0_pay15 z w b me)
/-- The head's running sum after one more block: exp(m − m')·l + the row sums of exp(logits − m'). -/
def stepSumE (z : Vec F S512x256 .f32) (w : Vec F S2000x256 .f32) (b : Vec F S1x1x2000 .f32) (me le : Vec F S512x1 .f32) : Vec F S512x1 .f32 :=
  k0_pay1 (k0_pay16 z w b me me le) (k0_pay17 z w b me)
/-- The same two for the second head, as the body spells them. -/
def stepMaxF (z : Vec F S512x256 .f32) (w : Vec F S2000x256 .f32) (b : Vec F S1x1x2000 .f32) (mf : Vec F S512x1 .f32) : Vec F S512x1 .f32 :=
  k0_pay5 (k0_pay14 z w b) mf
def stepSumF (z : Vec F S512x256 .f32) (w : Vec F S2000x256 .f32) (b : Vec F S1x1x2000 .f32) (mf lf : Vec F S512x1 .f32) : Vec F S512x1 .f32 :=
  k0_pay4 (k0_pay14 z w b) mf mf lf

theorem hz2 : (![0, 0] : Fin 2 → ℕ) = fun _ => 0 := by funext a; fin_cases a <;> rfl
theorem hz3 : (![0, 0, 0] : Fin 3 → ℕ) = fun _ => 0 := by funext a; fin_cases a <;> rfl

theorem soutFirst0_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) :
    soutFirst0 c i arg2 harg2 arg3 harg3 arg4 harg4 arg5 harg5 arg6 harg6 arg7 harg7 arg8 harg8 arg9 harg9 arg10 harg10 arg11 harg11 arg12 harg12 hc0 hc1 x0 x1 x2 x3 x4 = stepMaxE x0 x1 x2 (k0_pay8 (F := F)) := by
  unfold soutFirst0
  rw [View.read_writes_eq_canon _ _ _ (scoverFirst0 c i arg2 harg2 arg3 harg3 arg4 harg4 arg5 harg5 arg6 harg6 arg7 harg7 arg8 harg8 arg9 harg9 arg10 harg10 arg11 harg11 arg12 harg12 hc0 hc1 x0 x1 x2 x3 x4)]
  unfold runFirst stepMaxE
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

theorem soutFirst1_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) :
    soutFirst1 c i arg2 harg2 arg3 harg3 arg4 harg4 arg5 harg5 arg6 harg6 arg7 harg7 arg8 harg8 arg9 harg9 arg10 harg10 arg11 harg11 arg12 harg12 hc0 hc1 x0 x1 x2 x3 x4 = stepSumE x0 x1 x2 (k0_pay8 (F := F)) (k0_pay9 (F := F)) := by
  unfold soutFirst1
  rw [View.read_writes_eq_canon _ _ _ (scoverFirst1 c i arg2 harg2 arg3 harg3 arg4 harg4 arg5 harg5 arg6 harg6 arg7 harg7 arg8 harg8 arg9 harg9 arg10 harg10 arg11 harg11 arg12 harg12 hc0 hc1 x0 x1 x2 x3 x4)]
  unfold runFirst stepSumE
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

theorem soutFirst2_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) :
    soutFirst2 c i arg2 harg2 arg3 harg3 arg4 harg4 arg5 harg5 arg6 harg6 arg7 harg7 arg8 harg8 arg9 harg9 arg10 harg10 arg11 harg11 arg12 harg12 hc0 hc1 x0 x1 x2 x3 x4 = stepMaxF x0 x3 x4 (k0_pay10 (F := F)) := by
  unfold soutFirst2
  rw [View.read_writes_eq_canon _ _ _ (scoverFirst2 c i arg2 harg2 arg3 harg3 arg4 harg4 arg5 harg5 arg6 harg6 arg7 harg7 arg8 harg8 arg9 harg9 arg10 harg10 arg11 harg11 arg12 harg12 hc0 hc1 x0 x1 x2 x3 x4)]
  unfold runFirst stepMaxF
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

theorem soutFirst3_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : isFirst i) (hc1 : ¬isLast i) (x0 : Vec F S512x256 .f32) (x1 : Vec F S2000x256 .f32) (x2 : Vec F S1x1x2000 .f32) (x3 : Vec F S2000x256 .f32) (x4 : Vec F S1x1x2000 .f32) :
    soutFirst3 c i arg2 harg2 arg3 harg3 arg4 harg4 arg5 harg5 arg6 harg6 arg7 harg7 arg8 harg8 arg9 harg9 arg10 harg10 arg11 harg11 arg12 harg12 hc0 hc1 x0 x1 x2 x3 x4 = stepSumF x0 x3 x4 (k0_pay10 (F := F)) (k0_pay11 (F := F)) := by
  unfold soutFirst3
  rw [View.read_writes_eq_canon _ _ _ (scoverFirst3 c i arg2 harg2 arg3 harg3 arg4 harg4 arg5 harg5 arg6 harg6 arg7 harg7 arg8 harg8 arg9 harg9 arg10 harg10 arg11 harg11 arg12 harg12 hc0 hc1 x0 x1 x2 x3 x4)]
  unfold runFirst stepSumF
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

theorem soutMiddle0_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    soutMiddle0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = stepMaxE x0 x1 x2 xs0 := by
  unfold soutMiddle0
  rw [View.read_writes_eq_canon _ _ _ (scoverMiddle0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold runMiddle stepMaxE
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

theorem soutMiddle1_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    soutMiddle1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = stepSumE x0 x1 x2 xs0 xs1 := by
  unfold soutMiddle1
  rw [View.read_writes_eq_canon _ _ _ (scoverMiddle1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold runMiddle stepSumE
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

theorem soutMiddle2_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    soutMiddle2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = stepMaxF x0 x3 x4 xs2 := by
  unfold soutMiddle2
  rw [View.read_writes_eq_canon _ _ _ (scoverMiddle2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold runMiddle stepMaxF
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

theorem soutMiddle3_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : ¬isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    soutMiddle3 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = stepSumF x0 x3 x4 xs2 xs3 := by
  unfold soutMiddle3
  rw [View.read_writes_eq_canon _ _ _ (scoverMiddle3 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold runMiddle stepSumF
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

theorem soutLast0_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    soutLast0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = stepMaxE x0 x1 x2 xs0 := by
  unfold soutLast0
  rw [View.read_writes_eq_canon _ _ _ (scoverLast0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold runLast stepMaxE
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

theorem soutLast1_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    soutLast1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = stepSumE x0 x1 x2 xs0 xs1 := by
  unfold soutLast1
  rw [View.read_writes_eq_canon _ _ _ (scoverLast1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold runLast stepSumE
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

theorem soutLast2_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    soutLast2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = stepMaxF x0 x3 x4 xs2 := by
  unfold soutLast2
  rw [View.read_writes_eq_canon _ _ _ (scoverLast2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold runLast stepMaxF
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

theorem soutLast3_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    soutLast3 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = stepSumF x0 x3 x4 xs2 xs3 := by
  unfold soutLast3
  rw [View.read_writes_eq_canon _ _ _ (scoverLast3 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold runLast stepSumF
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

/-- At the last block the first result is the English head's running maximum plus the log of its running sum, -/
theorem out5_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    out5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = k0_pay6 (stepMaxE x0 x1 x2 xs0) (stepSumE x0 x1 x2 xs0 xs1) := by
  unfold out5
  rw [View.read_writes_eq_canon _ _ _ (cover5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold runLast stepMaxE stepSumE
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

/-- and the second the French head's. -/
theorem out6_eq (c : Dev nD) (i : grid0.Coords) (arg2 : Memref sig .tc .vmem S512x256 .f32) (harg2 : arg2.IsWhole) (arg3 : Memref sig .tc .vmem S2000x256 .f32) (harg3 : arg3.IsWhole) (arg4 : Memref sig .tc .vmem S1x1x2000 .f32) (harg4 : arg4.IsWhole) (arg5 : Memref sig .tc .vmem S2000x256 .f32) (harg5 : arg5.IsWhole) (arg6 : Memref sig .tc .vmem S1x1x2000 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬isFirst i) (hc1 : isLast i) (x0 : Vec F S512x256 .f32) (x1 : Vec F S2000x256 .f32) (x2 : Vec F S1x1x2000 .f32) (x3 : Vec F S2000x256 .f32) (x4 : Vec F S1x1x2000 .f32) (xs0 xs1 xs2 xs3 : Vec F S512x1 .f32) :
    out6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 = k0_pay7 (stepMaxF x0 x3 x4 xs2) (stepSumF x0 x3 x4 xs2 xs3) := by
  unfold out6
  rw [View.read_writes_eq_canon _ _ _ (cover6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold runLast stepMaxF stepSumF
  dsimp only
  try sl_unfold_run_names
  rw [View.canon_cons_unit_zero hz2]
  simp only [View.readAt_eq_ld, harg2.read_unread, harg3.read_unread, harg4.read_unread, harg5.read_unread, harg6.read_unread, harg9.read_unread, harg10.read_unread, harg11.read_unread, harg12.read_unread, View.readCov_unit_zero (S := S512x1) _ hz2, View.ld_unit_zero (S := S512x256) hz2, View.ld_unit_zero (S := S2000x256) hz2, View.ld_unit_zero (S := S1x1x2000) hz3, View.ld_unit_zero (S := S512x1) hz2]

end Cert.KernelIdeal.Lse

end
-- ==== Proof.LibKeepdims.lean ====
/-
  A per-row value kept as a column: a length-`a` vector cast to an `[a, 1]` matrix, and an `[a, 1]` matrix
  broadcast along its rows to `[a, b]`, each read at an index given by its coordinates.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims
-- ==== Proof.LibDotRows.lean ====
/-
  A matrix product whose right operand is contracted on its LAST axis (A · Bᵀ for an m×k matrix A and an n×k
  matrix B), accumulated into a zero splat and read at an index on the extended reals:
  (A · Bᵀ)[a, b] = Σ_c A[a, c] · B[b, c].
-/
import Idealize.ShloMosaic.PureOps.Ideal.Laws
import Idealize.ShloMosaic.Lib.ValueIdx

noncomputable section

namespace Cert.LibDotRows

open Idealize.ShloMosaic Idealize.ShloMosaic.ValueIdx

/-- The product with the right operand contracted on its last axis, into the zero accumulator, at (a, b):
    the sum over the contracted coordinate of the products of the two rows' entries. -/
theorem matmul_transposedRhs_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  show FloatOps.matmul (DotDims.transposedRhs m k n) prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibDotRows

end
-- ==== Proof.IdealBlock.lean ====
/-
  One vocabulary block folded into a head's running pair, read at a row.

  For a row block z [512, 256], a block of the head's weight rows w [2000, 256] and of its bias b [1, 1, 2000], the block's
  logit of row r and word u is Σ_d z[r,d]·w[u,d] + b[u] (the matrix product contracts the width of both; a change of
  float format is the identity here), the block maximum of row r is the maximum from −∞ of its 2000 logits, the new
  running maximum is max(m[r], that), and the new running sum is exp(m[r] − m')·l[r] + Σ_u exp(logit − m'). At the last
  block a result is m[r] + log l[r].
-/
import proofs.«121325_j12979391169156_2_alg».proof.Proof.IdealPieces
import proofs.«121325_j12979391169156_2_alg».proof.Proof.LibKeepdims
import proofs.«121325_j12979391169156_2_alg».proof.Proof.LibDotRows
import Idealize.ShloMosaic.Lib.ValueLayout
import Idealize.ShloMosaic.Lib.ValueIdx
import Idealize.ShloMosaic.PureOps.Ideal.Laws

set_option maxRecDepth 16384

noncomputable section

namespace Cert.KernelIdeal.Lse

open Cert.KernelIdeal Cert.KernelIdeal.Gen
open Idealize.ShloMosaic Idealize.ShloMosaic.ValueIdx Idealize.ShloMosaic.Keepdims

variable (z : FVec Ideal S512x256 .f32) (w : FVec Ideal S2000x256 .f32) (bv : FVec Ideal S1x1x2000 .f32)

/-- The block's logit of row r and word u. -/
def blkLogit (r : Fin 512) (u : Fin 2000) : EReal := (∑ d : Fin 256, z (ix2 r d) * w (ix2 u d)) + bv (ix3 (0 : Fin 1) (0 : Fin 1) u)

/-- The maximum, from −∞, of row r's 2000 logits of the block. -/
def blkMax (r : Fin 512) : EReal := (Finset.univ : Finset (Fin 2000)).fold max ⊥ (fun u => blkLogit z w bv r u)

/-- The source index of a lane reduction of a [512, 2000] array: row r, lane u. -/
theorem lift_row (r : Fin 512) (u : Fin 2000) : reduces_S512x2000_S512.lift (ix1 r) u = ix2 r u := by
  funext c; apply Fin.ext
  match c with
  | ⟨0, _⟩ => rfl
  | ⟨1, _⟩ => rfl

theorem neg_inf_word : Ideal.ofBits .f32 0xFF800000#32 = ⊥ := by simp [Ideal.ofBits, Ideal.ieee]

/-- The English head's block logits, as the body computes them. -/
theorem pay13_apply (r : Fin 512) (u : Fin 2000) : k0_pay13 (F := Ideal) z w bv (ix2 r u) = blkLogit z w bv r u := by
  unfold k0_pay13 k0_pay12 blkLogit
  (try dsimp only)
  refine congrArg₂ (· + ·) ?_ ?_
  · refine (Cert.LibDotRows.matmul_transposedRhs_apply none _ _ r u).trans ?_
    refine Finset.sum_congr rfl fun d _ => ?_
    rw [truncf_apply, truncf_apply, shapeCast_self]
  · refine (broadcastTo_1b_ab_apply _ _ r u).trans ?_
    exact shapeCast_1ab_ab_apply _ _ (0 : Fin 1) u

/-- The French head's block logits: the same arithmetic. -/
theorem pay14_apply (r : Fin 512) (u : Fin 2000) : k0_pay14 (F := Ideal) z w bv (ix2 r u) = blkLogit z w bv r u := by
  unfold k0_pay14 k0_pay12 blkLogit
  (try dsimp only)
  refine congrArg₂ (· + ·) ?_ ?_
  · refine (Cert.LibDotRows.matmul_transposedRhs_apply none _ _ r u).trans ?_
    refine Finset.sum_congr rfl fun d _ => ?_
    rw [truncf_apply, truncf_apply, shapeCast_self]
  · refine (broadcastTo_1b_ab_apply _ _ r u).trans ?_
    exact shapeCast_1ab_ab_apply _ _ (0 : Fin 1) u

/-- A lane maximum of a [512, 2000] array, kept as a column, at row r. -/
theorem rowmax_apply (s : FVec Ideal S512x2000 .f32) (r : Fin 512) :
    shapeCast S512x1 (multiReduction .maximumf [1] S512 s 0xFF800000#32 reduces_S512x2000_S512 (.inl rfl) rfl) shapeCasts_S512_S512x1 (ix2 r (0 : Fin 1))
      = (Finset.univ : Finset (Fin 2000)).fold max ⊥ (fun u => s (ix2 r u)) := by
  refine (shapeCast_a_a1_apply _ _ r (0 : Fin 1)).trans ?_
  refine (Ideal.multiReduction_maximumf_single s 0xFF800000#32 reduces_S512x2000_S512 (.inl rfl) rfl (ix1 r)).trans ?_
  rw [Ideal.ofBits_def, neg_inf_word]
  congr 1
  funext u
  exact congrArg s (lift_row r u)

/-- A lane sum of a [512, 2000] array, kept as a column, at row r. -/
theorem rowsum_apply (s : FVec Ideal S512x2000 .f32) (r : Fin 512) :
    shapeCast S512x1 (multiReduction .add [1] S512 s 0x00000000#32 reduces_S512x2000_S512 (.inl rfl) rfl) shapeCasts_S512_S512x1 (ix2 r (0 : Fin 1))
      = ∑ u : Fin 2000, s (ix2 r u) := by
  refine (shapeCast_a_a1_apply _ _ r (0 : Fin 1)).trans ?_
  refine (Ideal.multiReduction_add_single s 0x00000000#32 reduces_S512x2000_S512 (.inl rfl) rfl (ix1 r)).trans ?_
  exact Finset.sum_congr rfl fun u _ => congrArg s (lift_row r u)

/-- The English head's new running maximum at row r. -/
theorem stepMaxE_apply (m : FVec Ideal S512x1 .f32) (r : Fin 512) :
    stepMaxE (F := Ideal) z w bv m (ix2 r (0 : Fin 1)) = max (m (ix2 r (0 : Fin 1))) (blkMax z w bv r) := by
  unfold stepMaxE k0_pay2 k0_pay15 blkMax
  (try dsimp only)
  rw [shapeCast_self]
  refine (maximumf_apply _ _ _).trans ?_
  refine congrArg (max (m (ix2 r (0 : Fin 1)))) ?_
  refine (rowmax_apply _ r).trans ?_
  congr 1
  funext u
  exact pay13_apply z w bv r u

/-- The French head's new running maximum at row r. -/
theorem stepMaxF_apply (m : FVec Ideal S512x1 .f32) (r : Fin 512) :
    stepMaxF (F := Ideal) z w bv m (ix2 r (0 : Fin 1)) = max (m (ix2 r (0 : Fin 1))) (blkMax z w bv r) := by
  unfold stepMaxF k0_pay5 k0_pay3 blkMax
  (try dsimp only)
  rw [shapeCast_self]
  refine (maximumf_apply _ _ _).trans ?_
  refine congrArg (max (m (ix2 r (0 : Fin 1)))) ?_
  refine (rowmax_apply _ r).trans ?_
  congr 1
  funext u
  exact pay14_apply z w bv r u

/-- exp and log act entry by entry. -/
theorem exp_apply {s : Shape} (a : FVec Ideal s .f32) (i : s.Idx) : exp a i = Ideal.exp (a i) := rfl
theorem log_apply {s : Shape} (a : FVec Ideal s .f32) (i : s.Idx) : log a i = Ideal.log (a i) := rfl

/-- The English head's new running sum at row r. -/
theorem stepSumE_apply (m l : FVec Ideal S512x1 .f32) (r : Fin 512) :
    stepSumE (F := Ideal) z w bv m l (ix2 r (0 : Fin 1))
      = Ideal.exp (m (ix2 r (0 : Fin 1)) - max (m (ix2 r (0 : Fin 1))) (blkMax z w bv r)) * l (ix2 r (0 : Fin 1))
        + ∑ u : Fin 2000, Ideal.exp (blkLogit z w bv r u - max (m (ix2 r (0 : Fin 1))) (blkMax z w bv r)) := by
  have hm : k0_pay15 (F := Ideal) z w bv m (ix2 r (0 : Fin 1)) = max (m (ix2 r (0 : Fin 1))) (blkMax z w bv r) := by
    have := stepMaxE_apply z w bv m r
    unfold stepMaxE k0_pay2 at this
    (try dsimp only at this)
    rwa [shapeCast_self] at this
  unfold stepSumE k0_pay1 k0_pay16 k0_pay17
  (try dsimp only)
  rw [shapeCast_self]
  refine (addf_apply _ _ _).trans ?_
  refine congrArg₂ (· + ·) ?_ ?_
  · refine (mulf_apply _ _ _).trans ?_
    refine congrArg (· * l (ix2 r (0 : Fin 1))) ?_
    refine (exp_apply _ _).trans ?_
    refine congrArg Ideal.exp ?_
    refine (subf_apply _ _ _).trans ?_
    rw [hm]
  · refine (rowsum_apply _ r).trans ?_
    refine Finset.sum_congr rfl fun u _ => ?_
    refine (exp_apply _ _).trans ?_
    refine congrArg Ideal.exp ?_
    refine (subf_apply _ _ _).trans ?_
    refine congrArg₂ (· - ·) (pay13_apply z w bv r u) ?_
    refine (broadcastTo_a1_ab_apply _ _ r u).trans ?_
    exact hm

/-- The French head's new running sum at row r. -/
theorem stepSumF_apply (m l : FVec Ideal S512x1 .f32) (r : Fin 512) :
    stepSumF (F := Ideal) z w bv m l (ix2 r (0 : Fin 1))
      = Ideal.exp (m (ix2 r (0 : Fin 1)) - max (m (ix2 r (0 : Fin 1))) (blkMax z w bv r)) * l (ix2 r (0 : Fin 1))
        + ∑ u : Fin 2000, Ideal.exp (blkLogit z w bv r u - max (m (ix2 r (0 : Fin 1))) (blkMax z w bv r)) := by
  have hm : k0_pay3 (F := Ideal) (k0_pay14 z w bv) m (ix2 r (0 : Fin 1)) = max (m (ix2 r (0 : Fin 1))) (blkMax z w bv r) := by
    have := stepMaxF_apply z w bv m r
    unfold stepMaxF k0_pay5 at this
    (try dsimp only at this)
    rwa [shapeCast_self] at this
  unfold stepSumF k0_pay4
  (try dsimp only)
  rw [shapeCast_self]
  refine (addf_apply _ _ _).trans ?_
  refine congrArg₂ (· + ·) ?_ ?_
  · refine (mulf_apply _ _ _).trans ?_
    refine congrArg (· * l (ix2 r (0 : Fin 1))) ?_
    refine (exp_apply _ _).trans ?_
    refine congrArg Ideal.exp ?_
    refine (subf_apply _ _ _).trans ?_
    rw [hm]
  · refine (rowsum_apply _ r).trans ?_
    refine Finset.sum_congr rfl fun u _ => ?_
    refine (exp_apply _ _).trans ?_
    refine congrArg Ideal.exp ?_
    refine (subf_apply _ _ _).trans ?_
    refine congrArg₂ (· - ·) (pay14_apply z w bv r u) ?_
    refine (broadcastTo_a1_ab_apply _ _ r u).trans ?_
    exact hm

/-- A result at the last block: the running maximum plus the log of the running sum, at row r. -/
theorem pay6_apply (M L : FVec Ideal S512x1 .f32) (i : S512x1.Idx) : k0_pay6 (F := Ideal) M L i = M i + Ideal.log (L i) := rfl
theorem pay7_apply (M L : FVec Ideal S512x1 .f32) (i : S512x1.Idx) : k0_pay7 (F := Ideal) M L i = M i + Ideal.log (L i) := rfl

/-- The reset values: −∞ for a running maximum, 0 for a running sum. -/
theorem pay8_apply (i : S512x1.Idx) : k0_pay8 (F := Ideal) i = ⊥ := by
  unfold k0_pay8; (try dsimp only); rw [shapeCast_self]; exact neg_inf_word
theorem pay10_apply (i : S512x1.Idx) : k0_pay10 (F := Ideal) i = ⊥ := by
  unfold k0_pay10; (try dsimp only); rw [shapeCast_self]; exact neg_inf_word
theorem pay9_apply (i : S512x1.Idx) : k0_pay9 (F := Ideal) i = 0 := by
  unfold k0_pay9; (try dsimp only); rw [shapeCast_self]; exact Ideal.ofBits_zero_f32
theorem pay11_apply (i : S512x1.Idx) : k0_pay11 (F := Ideal) i = 0 := by
  unfold k0_pay11; (try dsimp only); rw [shapeCast_self]; exact Ideal.ofBits_zero_f32

end Cert.KernelIdeal.Lse

end
-- ==== Proof.IdealArgs.lean ====
/-
  The frame claim from the run: every argument array ends as it was launched. The two weight matrices are arrays the
  region stages as inputs (an input window's array is never written back); the other six arguments are touched by no
  window, and no host operation, before or after the region, writes a reference numbered below 8.
-/
import proofs.«121325_j12979391169156_2_alg».proof.Proof.IdealFrame

set_option maxRecDepth 16384

noncomputable section

namespace Cert.KernelIdeal.Lse

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The four operations before the region write references 8 to 11 only. -/
theorem nw0 (b : Ref sig .tc) (hb : b.idx.val < 8) : ∀ op ∈ (List.flatten [hostOps0] : List (HloOp τ sig (Elt F))), Proc.devRef .tc b ∉ op.writes := by
  intro op hop
  simp only [List.flatten_cons, List.flatten_nil, List.append_nil, hostOps0, List.mem_cons, List.mem_nil_iff, or_false] at hop
  rcases hop with rfl | rfl | rfl | rfl
  all_goals
    simp only [StableHlo.binary_writes, StableHlo.reshape_writes, Finset.mem_singleton]
    exact StableHlo.devRef_ne_of_ne (fun h => by subst h; revert hb; decide)

/-- An argument reaches the region as launched. -/
theorem V_arg (c : Dev nD) (b : Ref sig .tc) (hb : b.idx.val < 8) : V m c b = m ((c : Thread nD τ).loc b) :=
  StableHlo.after_of_forall_not_mem (b := Proc.devRef .tc b) _ _ (nw0 b hb)

/-- An argument no window stages is, after the whole tail, as launched. -/
theorem tail_arg (c : Dev nD) (b : Ref sig .tc) (hb : b.idx.val < 8) (hne : ∀ w, Pipeline.arrRef spec0 w ≠ b) :
    Pipeline.afterTail₀ cfgs (dats m) 0 (V0 m) tail c b = m ((c : Thread nD τ).loc b) := by
  unfold Pipeline.afterTail₀
  rw [StableHlo.after_of_forall_not_mem (b := Proc.devRef .tc b) _ _ (fun op hop => by
    obtain ⟨ops, hops, hop'⟩ := List.mem_flatten.mp hop
    exact tail_nw b (by omega) ops hops op hop')]
  rw [Pipeline.withArrays_of_ne _ _ _ _ b hne]
  exact V_arg m c b hb

/-- THE FRAME: from any memory with zero counters every weakly fair execution of @main terminates, nothing faulting,
    with the eight argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_arg0 (Pipeline.mem_restRefs_of _ (by decide) (by decide))).trans (tail_arg m c main_arg0 (by decide) (by decide)),
     ((h c).2 main_arg1 (Pipeline.mem_restRefs_of _ (by decide) (by decide))).trans (tail_arg m c main_arg1 (by decide) (by decide)),
     ((h c).2 main_arg2 (Pipeline.mem_restRefs_of _ (by decide) (by decide))).trans (tail_arg m c main_arg2 (by decide) (by decide)),
     ((h c).2 main_arg3 (Pipeline.mem_restRefs_of _ (by decide) (by decide))).trans (tail_arg m c main_arg3 (by decide) (by decide)),
     ((h c).1 1).trans (((dats m 0 c).arrAt_in 1 rfl _).trans ((A_eq m c 1).trans (V_arg m c main_arg4 (by decide)))),
     ((h c).2 main_arg5 (Pipeline.mem_restRefs_of _ (by decide) (by decide))).trans (tail_arg m c main_arg5 (by decide) (by decide)),
     ((h c).1 3).trans (((dats m 0 c).arrAt_in 3 rfl _).trans ((A_eq m c 3).trans (V_arg m c main_arg6 (by decide)))),
     ((h c).2 main_arg7 (Pipeline.mem_restRefs_of _ (by decide) (by decide))).trans (tail_arg m c main_arg7 (by decide) (by decide))⟩)
    (run_main m ρ)

end Cert.KernelIdeal.Lse

end
-- ==== Proof.LibRealsInEReal.lean ====
/-
  Real numbers inside the extended reals.

  At the ideal reading a float is an extended real, and the laws a value proof needs — distributing a product over a
  sum, exchanging a factor with a finite sum — hold only among real numbers. This file names the extended reals that
  are real numbers (`IsReal`) and shows them closed under what kernels compute with: sums, products, differences,
  maxima, finite sums, the square root of a sum of squares, and the quotient by a nonzero real. It also has the
  inclusion of the reals commuting with finite sums (`coe_sum`).
-/
import Idealize.ShloMosaic.PureOps.Ideal.Laws

noncomputable section

open Idealize.ShloMosaic

namespace Cert.Lib.RealsInEReal

/-! ## Real numbers inside the extended reals -/

/-- An extended real that is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

/-- The inclusion of the reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of squares of real numbers is a nonnegative real number. -/
theorem sum_sq_real {ι : Type*} (s : Finset ι) (f : ι → EReal) (h : ∀ i ∈ s, IsReal (f i)) :
    ∃ r : ℝ, 0 ≤ r ∧ ∑ i ∈ s, f i * f i = (r : EReal) := by
  classical
  have hr : ∀ i : ι, ∃ r : ℝ, i ∈ s → f i = (r : EReal) := fun i => by
    by_cases hi : i ∈ s
    · obtain ⟨r, hr⟩ := h i hi; exact ⟨r, fun _ => hr⟩
    · exact ⟨0, fun hi' => absurd hi' hi⟩
  choose g hg using hr
  refine ⟨∑ i ∈ s, g i * g i, Finset.sum_nonneg fun i _ => mul_self_nonneg _, ?_⟩
  rw [coe_sum]
  exact Finset.sum_congr rfl fun i hi => by rw [hg i hi, EReal.coe_mul]

/-- The square root of a nonnegative real number is a nonnegative real number. -/
theorem sqrt_real {r : ℝ} (h : 0 ≤ r) : Ideal.sqrt (r : EReal) = ((Real.sqrt r : ℝ) : EReal) := by
  rw [Ideal.sqrt_coe, if_neg (not_lt.mpr h)]

/-- A real number divided by a nonzero real number is their real quotient. -/
theorem div_real (a : ℝ) {n : ℝ} (h : n ≠ 0) : Ideal.div (a : EReal) (n : EReal) = ((a / n : ℝ) : EReal) := by
  rw [Ideal.div_coe h, ← EReal.coe_mul, mul_one_div]

theorem IsReal.div {x y : EReal} (hx : IsReal x) (hy : IsReal y) (h0 : y ≠ 0) : IsReal (Ideal.div x y) := by
  obtain ⟨a, rfl⟩ := hx; obtain ⟨n, rfl⟩ := hy
  have hn : n ≠ 0 := fun h => h0 (by rw [h]; rfl)
  exact ⟨a / n, div_real a hn⟩

end Cert.Lib.RealsInEReal

end
-- ==== Proof.LseSpec.lean ====
/-
  What both programs compute, as two extended reals of the eight argument arrays; no program is mentioned.

  z = mu + sigma is a batch of 16 x 64 latent rows of width 256. A head (W, bias) gives row (b, s) the logits
  z[b,s]·W[v] + bias[v] over the 50000 words v, and their log-sum-exp. The likelihood is, over the English head, the sum
  over the rows of (the target word's logit − the row's log-sum-exp), plus, over the French head, the sum over (batch,
  target position) of the log of the mean over the 64 rows of the batch of exp(the target word's logit − the row's
  log-sum-exp). A target index is normalised as both programs do (a negative one wraps by the vocabulary size); an index
  out of range after that contributes −∞: there both programs fill with a NaN pattern, which reads −∞ on the
  extended reals and absorbs every sum it enters. The second result is the KL sum over the latent's entries.
-/
import Idealize.ShloMosaic.PureOps.Ideal.Laws
import Idealize.ShloMosaic.Lib.ValueIdx
import proofs.«121325_j12979391169156_2_alg».proof.Proof.LibRealsInEReal

noncomputable section

namespace Cert.LseSpec

open Idealize.ShloMosaic Idealize.ShloMosaic.ValueIdx Cert.Lib.RealsInEReal

abbrev Slat : Shape := ⟨3, ![16, 64, 256]⟩
abbrev Seng : Shape := ⟨2, ![16, 64]⟩
abbrev Sfr : Shape := ⟨2, ![16, 48]⟩
abbrev Sw : Shape := ⟨2, ![50000, 256]⟩
abbrev Sb : Shape := ⟨1, ![50000]⟩

/-- A target index as both programs normalise it: a negative one wraps by the vocabulary size (two's complement). -/
def wrap (i : BitVec 32) : BitVec 32 := if i.slt 0#32 then i + 50000#32 else i

/-- The normalised index names a word. -/
def InRange (i : BitVec 32) : Prop := 0 ≤ (wrap i).toInt ∧ (wrap i).toInt ≤ 49999

instance (i : BitVec 32) : Decidable (InRange i) := by unfold InRange; infer_instance

/-- The word a normalised index names (clamped into the vocabulary, as a gather clamps its start index). -/
def pos (i : BitVec 32) : Fin 50000 := ⟨min (wrap i).toInt.toNat 49999, by omega⟩

section
variable (mu sg : Slat.Idx → EReal) (eng : Seng.Idx → BitVec 32) (fr : Sfr.Idx → BitVec 32)
  (We : Sw.Idx → EReal) (be : Sb.Idx → EReal) (Wf : Sw.Idx → EReal) (bf : Sb.Idx → EReal)

/-- Every float argument holds real numbers (what the precondition says of them). -/
def Finite : Prop :=
  (∀ i, IsReal (mu i)) ∧ (∀ i, IsReal (sg i)) ∧ (∀ i, IsReal (We i)) ∧ (∀ i, IsReal (be i)) ∧ (∀ i, IsReal (Wf i)) ∧ (∀ i, IsReal (bf i))

/-- The latent row (b, s) at coordinate d. -/
def z (b : Fin 16) (s : Fin 64) (d : Fin 256) : EReal := mu (ix3 b s d) + sg (ix3 b s d)

/-- Word v's logit for row (b, s) under the head (W, bias). -/
def logit (W : Sw.Idx → EReal) (bias : Sb.Idx → EReal) (b : Fin 16) (s : Fin 64) (v : Fin 50000) : EReal :=
  (∑ d : Fin 256, z mu sg b s d * W (ix2 v d)) + bias (ix1 v)

/-- The log-sum-exp of row (b, s)'s 50000 logits under the head. -/
def lse (W : Sw.Idx → EReal) (bias : Sb.Idx → EReal) (b : Fin 16) (s : Fin 64) : EReal :=
  ((Real.log (∑ v : Fin 50000, Real.exp (logit mu sg W bias b s v).toReal) : ℝ) : EReal)

/-- Row (b, s)'s English log-probability of its target word. -/
def logProbE (b : Fin 16) (s : Fin 64) : EReal :=
  if InRange (eng (ix2 b s)) then logit mu sg We be b s (pos (eng (ix2 b s))) - lse mu sg We be b s else ⊥

def termE : EReal := 0 + ∑ i : Seng.Idx, logProbE mu sg eng We be (i 0) (i 1)

/-- Row (b, s)'s French probability of the word at target position f of its batch. -/
def probF (b : Fin 16) (s : Fin 64) (f : Fin 48) : EReal :=
  Ideal.exp (logit mu sg Wf bf b s (pos (fr (ix2 b f))) - lse mu sg Wf bf b s)

/-- The log of the mean of that probability over the 64 rows of batch b. -/
def logMeanF (b : Fin 16) (f : Fin 48) : EReal :=
  if InRange (fr (ix2 b f)) then
    Ideal.log (Ideal.div (0 + ∑ s : Fin 64, probF mu sg fr Wf bf b s f) (Ideal.ofBits .f32 0x42800000#32))
  else ⊥

def termF : EReal := 0 + ∑ j : Sfr.Idx, logMeanF mu sg fr Wf bf (j 0) (j 1)

/-- THE FIRST RESULT. -/
def likelihood : EReal := termE mu sg eng We be + termF mu sg fr Wf bf

/-- One entry of the KL sum: −log σ + ½(σ² + μ²) − ½, as both programs spell it. -/
def klEntry (i : Slat.Idx) : EReal :=
  (-(Ideal.log (sg i)) + Ideal.ofBits .f32 0x3F000000#32 * (sg i * sg i + mu i * mu i)) - Ideal.ofBits .f32 0x3F000000#32

/-- THE SECOND RESULT. -/
def kl : EReal := 0 + ∑ i : Slat.Idx, klEntry mu sg i

end

end Cert.LseSpec

end
-- ==== Proof.IdealReads.lean ====
/-
  Where a block sits. The region finds z = mu + sigma as a [1024, 256] array (row 64·b + s is latent row (b, s)), the two
  weight matrices as they were launched, and each bias as a [25, 1, 2000] array (entry (j, 0, u) is word 2000·j + u).
  At grid point t — row half t / 25, vocabulary block t mod 25 — the body is handed rows 512·(t / 25) … of z, weight
  rows 2000·(t mod 25) … of each head and the bias block t mod 25. So a block's logit of local row r and local word u
  is the logit of latent row 512·(t / 25) + r and word 2000·(t mod 25) + u.
-/
import proofs.«121325_j12979391169156_2_alg».proof.Proof.IdealBlock
import proofs.«121325_j12979391169156_2_alg».proof.Proof.IdealArgs
import proofs.«121325_j12979391169156_2_alg».proof.Proof.LseSpec
import Idealize.ShloMosaic.Lib.Pipeline.Value
import Idealize.ShloMosaic.Lib.StableHlo.Run

set_option maxRecDepth 16384

noncomputable section

namespace Cert.KernelIdeal.Lse

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)

variable (m : (ℓ : Loc nD τ sig) → Buf (Elt Ideal) ℓ)

/-- Every window's block index at a grid point, decided over the 50 points: the row half for z and the two results,
    the vocabulary block for the weights and biases. -/
theorem widx : ∀ t : Fin cfg0.N,
    (win0_0.index t 0 = t.val / 25 ∧ win0_0.index t 1 = 0)
    ∧ (win0_1.index t 0 = t.val % 25 ∧ win0_1.index t 1 = 0)
    ∧ (win0_2.index t 0 = t.val % 25 ∧ win0_2.index t 1 = 0 ∧ win0_2.index t 2 = 0)
    ∧ (win0_3.index t 0 = t.val % 25 ∧ win0_3.index t 1 = 0)
    ∧ (win0_4.index t 0 = t.val % 25 ∧ win0_4.index t 1 = 0 ∧ win0_4.index t 2 = 0)
    ∧ (win0_5.index t 0 = t.val / 25 ∧ win0_5.index t 1 = 0)
    ∧ (win0_6.index t 0 = t.val / 25 ∧ win0_6.index t 1 = 0) :=
  (by decide +kernel : ∀ t : Fin grid0.N, _)

/-! ## The blocks, read at an index -/

theorem iblk0_apply (c : Dev nD) (t : Fin cfg0.N) (r : Fin 512) (d : Fin 256) (k : S1024x256.Idx)
    (hk0 : (k 0).val = 512 * (t.val / 25) + r.val) (hk1 : (k 1).val = d.val) :
    (iblk m c 0 t : Vec Ideal S512x256 .f32) (ix2 r d) = (V m c main_v1 : S1024x256.Idx → Elt Ideal .f32) k := by
  have hi := (widx t).1
  unfold iblk
  rw [View.read_apply]
  show V m c main_v1 _ = V m c main_v1 _
  congr 1
  funext a
  apply Fin.ext
  match a with
  | ⟨0, _⟩ => show win0_0.index t 0 * 512 + 1 * r.val = (k 0).val; rw [hi.1, hk0]; omega
  | ⟨1, _⟩ => show win0_0.index t 1 * 256 + 1 * d.val = (k 1).val; rw [hi.2, hk1]; omega

theorem iblk1_apply (c : Dev nD) (t : Fin cfg0.N) (u : Fin 2000) (d : Fin 256) (k : S50000x256.Idx)
    (hk0 : (k 0).val = 2000 * (t.val % 25) + u.val) (hk1 : (k 1).val = d.val) :
    (iblk m c 1 t : Vec Ideal S2000x256 .f32) (ix2 u d) = (V m c main_arg4 : S50000x256.Idx → Elt Ideal .f32) k := by
  have hi := (widx t).2.1
  unfold iblk
  rw [View.read_apply]
  show V m c main_arg4 _ = V m c main_arg4 _
  congr 1
  funext a
  apply Fin.ext
  match a with
  | ⟨0, _⟩ => show win0_1.index t 0 * 2000 + 1 * u.val = (k 0).val; rw [hi.1, hk0]; omega
  | ⟨1, _⟩ => show win0_1.index t 1 * 256 + 1 * d.val = (k 1).val; rw [hi.2, hk1]; omega

theorem iblk3_apply (c : Dev nD) (t : Fin cfg0.N) (u : Fin 2000) (d : Fin 256) (k : S50000x256.Idx)
    (hk0 : (k 0).val = 2000 * (t.val % 25) + u.val) (hk1 : (k 1).val = d.val) :
    (iblk m c 3 t : Vec Ideal S2000x256 .f32) (ix2 u d) = (V m c main_arg6 : S50000x256.Idx → Elt Ideal .f32) k := by
  have hi := (widx t).2.2.2.1
  unfold iblk
  rw [View.read_apply]
  show V m c main_arg6 _ = V m c main_arg6 _
  congr 1
  funext a
  apply Fin.ext
  match a with
  | ⟨0, _⟩ => show win0_3.index t 0 * 2000 + 1 * u.val = (k 0).val; rw [hi.1, hk0]; omega
  | ⟨1, _⟩ => show win0_3.index t 1 * 256 + 1 * d.val = (k 1).val; rw [hi.2, hk1]; omega

theorem iblk2_apply (c : Dev nD) (t : Fin cfg0.N) (u : Fin 2000) (k : S25x1x2000.Idx)
    (hk0 : (k 0).val = t.val % 25) (hk1 : (k 1).val = 0) (hk2 : (k 2).val = u.val) :
    (iblk m c 2 t : Vec Ideal S1x1x2000 .f32) (ix3 (0 : Fin 1) (0 : Fin 1) u) = (V m c main_v2 : S25x1x2000.Idx → Elt Ideal .f32) k := by
  have hi := (widx t).2.2.1
  unfold iblk
  rw [View.read_apply]
  show V m c main_v2 _ = V m c main_v2 _
  congr 1
  funext a
  apply Fin.ext
  match a with
  | ⟨0, _⟩ => show win0_2.index t 0 * 1 + 1 * 0 = (k 0).val; rw [hi.1, hk0]; omega
  | ⟨1, _⟩ => show win0_2.index t 1 * 1 + 1 * 0 = (k 1).val; rw [hi.2.1, hk1]
  | ⟨2, _⟩ => show win0_2.index t 2 * 2000 + 1 * u.val = (k 2).val; rw [hi.2.2, hk2]; omega

theorem iblk4_apply (c : Dev nD) (t : Fin cfg0.N) (u : Fin 2000) (k : S25x1x2000.Idx)
    (hk0 : (k 0).val = t.val % 25) (hk1 : (k 1).val = 0) (hk2 : (k 2).val = u.val) :
    (iblk m c 4 t : Vec Ideal S1x1x2000 .f32) (ix3 (0 : Fin 1) (0 : Fin 1) u) = (V m c main_v3 : S25x1x2000.Idx → Elt Ideal .f32) k := by
  have hi := (widx t).2.2.2.2.1
  unfold iblk
  rw [View.read_apply]
  show V m c main_v3 _ = V m c main_v3 _
  congr 1
  funext a
  apply Fin.ext
  match a with
  | ⟨0, _⟩ => show win0_4.index t 0 * 1 + 1 * 0 = (k 0).val; rw [hi.1, hk0]; omega
  | ⟨1, _⟩ => show win0_4.index t 1 * 1 + 1 * 0 = (k 1).val; rw [hi.2.1, hk1]
  | ⟨2, _⟩ => show win0_4.index t 2 * 2000 + 1 * u.val = (k 2).val; rw [hi.2.2, hk2]; omega

/-! ## The arrays the region finds, from the launch memory -/

/-- z as the region finds it: mu + sigma, reshaped to [1024, 256]. -/
theorem V_z (c : Dev nD) : (V m c main_v1 : S1024x256.Idx → Elt Ideal .f32)
    = (shapeCast S1024x256 (addf (F := Ideal) (s := S16x64x256) (φ := .f32) ((m ((c : Thread nD τ).loc main_arg0)) : FVec Ideal S16x64x256 .f32) ((m ((c : Thread nD τ).loc main_arg1)) : FVec Ideal S16x64x256 .f32)) shapeCasts_S16x64x256_S1024x256 : S1024x256.Idx → Elt Ideal .f32) := by
  show StableHlo.after (List.flatten [hostOps0]) (fun b => m (c, b)) (Proc.devRef .tc main_v1) = _
  simp only [List.flatten_cons, List.flatten_nil, List.append_nil]
  after_results
  rfl

theorem V_be (c : Dev nD) : (V m c main_v2 : S25x1x2000.Idx → Elt Ideal .f32)
    = shapeCast S25x1x2000 (m ((c : Thread nD τ).loc main_arg5)) shapeCasts_S50000_S25x1x2000 := by
  show StableHlo.after (List.flatten [hostOps0]) (fun b => m (c, b)) (Proc.devRef .tc main_v2) = _
  simp only [List.flatten_cons, List.flatten_nil, List.append_nil]
  after_results
  rfl

theorem V_bf (c : Dev nD) : (V m c main_v3 : S25x1x2000.Idx → Elt Ideal .f32)
    = shapeCast S25x1x2000 (m ((c : Thread nD τ).loc main_arg7)) shapeCasts_S50000_S25x1x2000 := by
  show StableHlo.after (List.flatten [hostOps0]) (fun b => m (c, b)) (Proc.devRef .tc main_v3) = _
  simp only [List.flatten_cons, List.flatten_nil, List.append_nil]
  after_results
  rfl

/-- Row 64·b + s of the reshaped latent is latent row (b, s). -/
theorem z_row (x : S16x64x256.Idx → EReal) (b : Fin 16) (s : Fin 64) (d : Fin 256) (k : S1024x256.Idx)
    (hk0 : (k 0).val = 64 * b.val + s.val) (hk1 : (k 1).val = d.val) :
    shapeCast S1024x256 x shapeCasts_S16x64x256_S1024x256 k = x (ix3 b s d) :=
  shapeCast_apply x _ k (ix3 b s d) (by
    rw [Shape.rowMajor_val_three, Shape.rowMajor_val_two]
    show (b.val * 64 + s.val) * 256 + d.val = (k 0).val * 256 + (k 1).val
    rw [hk0, hk1]; ring)

/-- Entry (j, 0, u) of a reshaped bias is word 2000·j + u. -/
theorem bias_entry (x : S50000.Idx → EReal) (v : Fin 50000) (k : S25x1x2000.Idx)
    (hk : 2000 * (k 0).val + (k 2).val = v.val) (hk1 : (k 1).val = 0) :
    shapeCast S25x1x2000 x shapeCasts_S50000_S25x1x2000 k = x (ix1 v) :=
  shapeCast_apply x _ k (ix1 v) (by
    rw [Shape.rowMajor_val_one, Shape.rowMajor_val_three]
    show v.val = ((k 0).val * 1 + (k 1).val) * 2000 + (k 2).val
    rw [hk1, ← hk]; ring)

/-! ## A block's logits are the specification's -/

/-- The English head: local row r of row half t / 25 and local word u of vocabulary block t mod 25. -/
theorem blkLogitE (c : Dev nD) (t : Fin cfg0.N) (r : Fin 512) (u : Fin 2000) (b : Fin 16) (s : Fin 64) (v : Fin 50000)
    (hbs : 64 * b.val + s.val = 512 * (t.val / 25) + r.val) (hv : v.val = 2000 * (t.val % 25) + u.val) :
    blkLogit (iblk m c 0 t) (iblk m c 1 t) (iblk m c 2 t) r u
      = Cert.LseSpec.logit (m ((c : Thread nD τ).loc main_arg0)) (m ((c : Thread nD τ).loc main_arg1)) (m ((c : Thread nD τ).loc main_arg4)) (m ((c : Thread nD τ).loc main_arg5)) b s v := by
  unfold blkLogit Cert.LseSpec.logit Cert.LseSpec.z
  refine congrArg₂ (· + ·) (Finset.sum_congr rfl fun d _ => congrArg₂ (· * ·) ?_ ?_) ?_
  · rw [iblk0_apply m c t r d (ix2 ⟨64 * b.val + s.val, by omega⟩ d) hbs rfl, V_z,
      z_row _ b s d _ rfl rfl]
    rfl
  · rw [iblk1_apply m c t u d (ix2 v d) hv rfl, V_arg m c main_arg4 (by decide)]
  · have ht : t.val % 25 < 25 := Nat.mod_lt _ (by norm_num)
    rw [iblk2_apply m c t u (ix3 ⟨t.val % 25, ht⟩ (0 : Fin 1) u) rfl rfl rfl, V_be,
      bias_entry _ v _ (by show 2000 * (t.val % 25) + u.val = v.val; omega) rfl]

/-- The French head, the same. -/
theorem blkLogitF (c : Dev nD) (t : Fin cfg0.N) (r : Fin 512) (u : Fin 2000) (b : Fin 16) (s : Fin 64) (v : Fin 50000)
    (hbs : 64 * b.val + s.val = 512 * (t.val / 25) + r.val) (hv : v.val = 2000 * (t.val % 25) + u.val) :
    blkLogit (iblk m c 0 t) (iblk m c 3 t) (iblk m c 4 t) r u
      = Cert.LseSpec.logit (m ((c : Thread nD τ).loc main_arg0)) (m ((c : Thread nD τ).loc main_arg1)) (m ((c : Thread nD τ).loc main_arg6)) (m ((c : Thread nD τ).loc main_arg7)) b s v := by
  unfold blkLogit Cert.LseSpec.logit Cert.LseSpec.z
  refine congrArg₂ (· + ·) (Finset.sum_congr rfl fun d _ => congrArg₂ (· * ·) ?_ ?_) ?_
  · rw [iblk0_apply m c t r d (ix2 ⟨64 * b.val + s.val, by omega⟩ d) hbs rfl, V_z,
      z_row _ b s d _ rfl rfl]
    rfl
  · rw [iblk3_apply m c t u d (ix2 v d) hv rfl, V_arg m c main_arg6 (by decide)]
  · have ht : t.val % 25 < 25 := Nat.mod_lt _ (by norm_num)
    rw [iblk4_apply m c t u (ix3 ⟨t.val % 25, ht⟩ (0 : Fin 1) u) rfl rfl rfl, V_bf,
      bias_entry _ v _ (by show 2000 * (t.val % 25) + u.val = v.val; omega) rfl]

end Cert.KernelIdeal.Lse

end
-- ==== Proof.LseMath.lean ====
/-
  The mathematics of the kernel, free of any program: a log-sum-exp accumulated block by block.

  For real logits y over a finite set, a running pair (m, l) with m real and l = Σ_{seen} exp(y − m) is kept by folding
  one more block in — the new m is max(m, the block's maximum) and the old sum is rescaled by exp(m − m') — because
  exp(m − m')·exp(y − m) = exp(y − m'); no property of m beyond being real is used, so it need not be identified as a
  maximum. From such a pair over all the logits, m + log l = log Σ exp y, whatever m is. The reference's stabilised forms,
  (a − M) − log Σ exp(y − M) and exp(a − M) / Σ exp(y − M), are a − log Σ exp y and its exponential the same way.
  Everything is stated on the extended reals, over real numbers written as coercions.
-/
import Idealize.ShloMosaic.PureOps.Ideal.Laws
import proofs.«121325_j12979391169156_2_alg».proof.Proof.LibRealsInEReal

noncomputable section

namespace Cert.LseMath

open Idealize.ShloMosaic Cert.Lib.RealsInEReal

/-- The inclusion of the reals commutes with `max`. -/
theorem coe_max (a b : ℝ) : ((max a b : ℝ) : EReal) = max (a : EReal) (b : EReal) :=
  EReal.coe_strictMono.monotone.map_max

/-- The maximum, from −∞, of a nonempty finite family of real numbers is a real number. -/
theorem fold_max_bot_isReal {ι : Type*} (s : Finset ι) (f : ι → EReal) (hf : ∀ i ∈ s, IsReal (f i)) (hs : s.Nonempty) :
    IsReal (s.fold max ⊥ f) := by
  classical
  induction s using Finset.induction_on with
  | empty => exact absurd hs (by simp)
  | insert a s ha ih =>
    rw [Finset.fold_insert ha]
    rcases s.eq_empty_or_nonempty with rfl | hs'
    · rw [Finset.fold_empty, max_bot_right]; exact hf a (Finset.mem_insert_self a _)
    · exact (hf a (Finset.mem_insert_self a s)).max (ih (fun i hi => hf i (Finset.mem_insert_of_mem hi)) hs')

/-- THE FIRST BLOCK. From the reset pair (−∞, 0) and a block of real logits x with a real block maximum `cur`: the new
    running sum is Σ exp(x − cur) (the rescaling factor exp(−∞) is 0). -/
theorem first_block {κ : Type*} (blk : Finset κ) (x : κ → ℝ) (cur : ℝ) :
    Ideal.exp ((⊥ : EReal) - max ⊥ (cur : EReal)) * 0 + ∑ k ∈ blk, Ideal.exp ((x k : EReal) - max ⊥ (cur : EReal))
      = ((∑ k ∈ blk, Real.exp (x k - cur) : ℝ) : EReal) := by
  rw [max_bot_left, mul_zero, zero_add, coe_sum]
  exact Finset.sum_congr rfl fun k _ => by rw [← EReal.coe_sub, Ideal.exp_coe]

/-- A LATER BLOCK. From a pair (M, Σ_{seen} exp(y − M)) with M real and a block of real logits x with a real block
    maximum `cur`: with M' = max M cur the new running sum is Σ_{seen} exp(y − M') + Σ_{block} exp(x − M'). -/
theorem later_block {ι κ : Type*} (seen : Finset ι) (blk : Finset κ) (y : ι → ℝ) (x : κ → ℝ) (M cur : ℝ) :
    Ideal.exp ((M : EReal) - max (M : EReal) (cur : EReal)) * ((∑ i ∈ seen, Real.exp (y i - M) : ℝ) : EReal)
        + ∑ k ∈ blk, Ideal.exp ((x k : EReal) - max (M : EReal) (cur : EReal))
      = ((∑ i ∈ seen, Real.exp (y i - max M cur) + ∑ k ∈ blk, Real.exp (x k - max M cur) : ℝ) : EReal) := by
  rw [← coe_max, ← EReal.coe_sub, Ideal.exp_coe, ← EReal.coe_mul, EReal.coe_add, coe_sum blk]
  refine congrArg₂ (· + ·) ?_ ?_
  · congr 1
    rw [Finset.mul_sum]
    refine Finset.sum_congr rfl fun i _ => ?_
    rw [← Real.exp_add]; congr 1; ring
  · exact Finset.sum_congr rfl fun k _ => by rw [← EReal.coe_sub, Ideal.exp_coe]

/-- Σ exp(y − M) = exp(−M) · Σ exp y. -/
theorem sum_exp_sub {ι : Type*} (s : Finset ι) (y : ι → ℝ) (M : ℝ) :
    ∑ i ∈ s, Real.exp (y i - M) = Real.exp (-M) * ∑ i ∈ s, Real.exp (y i) := by
  rw [Finset.mul_sum]
  exact Finset.sum_congr rfl fun i _ => by rw [← Real.exp_add]; congr 1; ring

theorem sum_exp_pos {ι : Type*} (s : Finset ι) (hs : s.Nonempty) (y : ι → ℝ) : 0 < ∑ i ∈ s, Real.exp (y i) :=
  Finset.sum_pos (fun i _ => Real.exp_pos _) hs

/-- log Σ exp(y − M) = log Σ exp y − M. -/
theorem log_sum_exp_sub {ι : Type*} (s : Finset ι) (hs : s.Nonempty) (y : ι → ℝ) (M : ℝ) :
    Real.log (∑ i ∈ s, Real.exp (y i - M)) = Real.log (∑ i ∈ s, Real.exp (y i)) - M := by
  rw [sum_exp_sub, Real.log_mul (Real.exp_pos _).ne' (sum_exp_pos s hs y).ne', Real.log_exp]; ring

/-- THE KERNEL'S RESULT. A running pair over all the logits gives M + log l = log Σ exp y. -/
theorem max_add_log {ι : Type*} (s : Finset ι) (hs : s.Nonempty) (y : ι → ℝ) (M : ℝ) :
    (M : EReal) + Ideal.log ((∑ i ∈ s, Real.exp (y i - M) : ℝ) : EReal)
      = ((Real.log (∑ i ∈ s, Real.exp (y i)) : ℝ) : EReal) := by
  have hpos : 0 < ∑ i ∈ s, Real.exp (y i - M) := Finset.sum_pos (fun i _ => Real.exp_pos _) hs
  rw [Ideal.log_coe, if_neg (not_le.mpr hpos), ← EReal.coe_add, log_sum_exp_sub s hs]
  congr 1; ring

/-- THE REFERENCE'S LOG-PROBABILITY. (a − M) − log(0 + Σ exp(y − M)) = a − log Σ exp y. -/
theorem ref_log_prob {ι : Type*} (s : Finset ι) (hs : s.Nonempty) (y : ι → ℝ) (M a : ℝ) :
    ((a : EReal) - (M : EReal)) - Ideal.log (0 + ∑ i ∈ s, Ideal.exp ((y i : EReal) - (M : EReal)))
      = ((a - Real.log (∑ i ∈ s, Real.exp (y i)) : ℝ) : EReal) := by
  have hpos : 0 < ∑ i ∈ s, Real.exp (y i - M) := Finset.sum_pos (fun i _ => Real.exp_pos _) hs
  have hsum : ∑ i ∈ s, Ideal.exp ((y i : EReal) - (M : EReal)) = ((∑ i ∈ s, Real.exp (y i - M) : ℝ) : EReal) := by
    rw [coe_sum]; exact Finset.sum_congr rfl fun i _ => by rw [← EReal.coe_sub, Ideal.exp_coe]
  rw [zero_add, hsum, Ideal.log_coe, if_neg (not_le.mpr hpos), ← EReal.coe_sub, ← EReal.coe_sub, log_sum_exp_sub s hs]
  congr 1; ring

/-- THE REFERENCE'S PROBABILITY. exp(a − M) / (0 + Σ exp(y − M)) = exp(a − log Σ exp y). -/
theorem ref_prob {ι : Type*} (s : Finset ι) (hs : s.Nonempty) (y : ι → ℝ) (M a : ℝ) :
    Ideal.div (Ideal.exp ((a : EReal) - (M : EReal))) (0 + ∑ i ∈ s, Ideal.exp ((y i : EReal) - (M : EReal)))
      = ((Real.exp (a - Real.log (∑ i ∈ s, Real.exp (y i))) : ℝ) : EReal) := by
  have hpos : 0 < ∑ i ∈ s, Real.exp (y i - M) := Finset.sum_pos (fun i _ => Real.exp_pos _) hs
  have hsum : ∑ i ∈ s, Ideal.exp ((y i : EReal) - (M : EReal)) = ((∑ i ∈ s, Real.exp (y i - M) : ℝ) : EReal) := by
    rw [coe_sum]; exact Finset.sum_congr rfl fun i _ => by rw [← EReal.coe_sub, Ideal.exp_coe]
  rw [zero_add, hsum, ← EReal.coe_sub, Ideal.exp_coe, div_real _ hpos.ne']
  congr 1
  rw [sum_exp_sub, Real.exp_sub, Real.exp_sub, Real.exp_log (sum_exp_pos s hs y), Real.exp_neg]
  field_simp

/-- The kernel's log-probability, a − (M + log l), is the same real number. -/
theorem ker_log_prob {ι : Type*} (s : Finset ι) (hs : s.Nonempty) (y : ι → ℝ) (M a : ℝ) :
    (a : EReal) - ((M : EReal) + Ideal.log ((∑ i ∈ s, Real.exp (y i - M) : ℝ) : EReal))
      = ((a - Real.log (∑ i ∈ s, Real.exp (y i)) : ℝ) : EReal) := by
  rw [max_add_log s hs, ← EReal.coe_sub]

/-- The kernel's probability, exp(a − (M + log l)), is the same real number. -/
theorem ker_prob {ι : Type*} (s : Finset ι) (hs : s.Nonempty) (y : ι → ℝ) (M a : ℝ) :
    Ideal.exp ((a : EReal) - ((M : EReal) + Ideal.log ((∑ i ∈ s, Real.exp (y i - M) : ℝ) : EReal)))
      = ((Real.exp (a - Real.log (∑ i ∈ s, Real.exp (y i))) : ℝ) : EReal) := by
  rw [ker_log_prob s hs, Ideal.exp_coe]

end Cert.LseMath

end
-- ==== Proof.IdealInv.lean ====
/-
  The running pair of a head after every grid point.

  Fix a head. For latent row ρ write y ρ i for its logit of word i as a real number (0 beyond the vocabulary). After the
  body at grid point t — row half t / 25, vocabulary block k = t mod 25 — local row r of the head's two scratch buffers
  holds a real number M and the sum over the first 2000·(k + 1) words of exp(y ρ i − M), with ρ = 512·(t / 25) + r: the
  first block of a row half establishes this from the reset pair (−∞, 0), and every later block keeps it. No property of M
  is needed. At the last block, k = 24, all 50000 words are in, and M + log of the sum is the row's log-sum-exp.
-/
import proofs.«121325_j12979391169156_2_alg».proof.Proof.IdealReads
import proofs.«121325_j12979391169156_2_alg».proof.Proof.LseMath

set_option maxRecDepth 16384

noncomputable section

namespace Cert.KernelIdeal.Lse

open Cert.KernelIdeal Cert.KernelIdeal.Gen
open Idealize.ShloMosaic Idealize.ShloMosaic.TcCoe Idealize.ShloMosaic.ValueIdx
open Cert.Lib.RealsInEReal Cert.LseMath

/-! ## One block, for any head -/

section Step
variable (z : FVec Ideal S512x256 .f32) (w : FVec Ideal S2000x256 .f32) (bv : FVec Ideal S1x1x2000 .f32)
variable (y : Fin 512 → ℕ → ℝ)

theorem blkMax_real (k : ℕ) (hlog : ∀ r u, blkLogit z w bv r u = ((y r (2000 * k + u.val) : ℝ) : EReal)) (r : Fin 512) :
    IsReal (blkMax z w bv r) :=
  fold_max_bot_isReal Finset.univ _ (fun u _ => by rw [hlog]; exact isReal_coe _) Finset.univ_nonempty

/-- The first block of a row half: from (−∞, 0) to (the block maximum, Σ over the block's 2000 words). -/
theorem step_first (hlog : ∀ r u, blkLogit z w bv r u = ((y r (2000 * 0 + u.val) : ℝ) : EReal))
    (mo lo mx sx : FVec Ideal S512x1 .f32) (hmo : ∀ i, mo i = ⊥) (hlo : ∀ i, lo i = 0)
    (hmx : ∀ r : Fin 512, mx (ix2 r (0 : Fin 1)) = max (mo (ix2 r (0 : Fin 1))) (blkMax z w bv r))
    (hsx : ∀ r : Fin 512, sx (ix2 r (0 : Fin 1)) = Ideal.exp (mo (ix2 r (0 : Fin 1)) - max (mo (ix2 r (0 : Fin 1))) (blkMax z w bv r)) * lo (ix2 r (0 : Fin 1))
        + ∑ u : Fin 2000, Ideal.exp (blkLogit z w bv r u - max (mo (ix2 r (0 : Fin 1))) (blkMax z w bv r))) (r : Fin 512) :
    ∃ M : ℝ, mx (ix2 r (0 : Fin 1)) = (M : EReal)
      ∧ sx (ix2 r (0 : Fin 1)) = ((∑ i ∈ Finset.range (2000 * (0 + 1)), Real.exp (y r i - M) : ℝ) : EReal) := by
  obtain ⟨cur, hcur⟩ := blkMax_real z w bv y 0 hlog r
  refine ⟨cur, by rw [hmx, hmo, hcur, max_bot_left], ?_⟩
  rw [hsx, hmo, hlo, hcur]
  simp only [hlog]
  rw [first_block Finset.univ (fun u : Fin 2000 => y r (2000 * 0 + u.val)) cur]
  congr 1
  all_goals first
    | rfl
    | (rw [show 2000 * (0 + 1) = 2000 from rfl, Finset.sum_range])
    | (rw [show 2000 * (0 + 1) = 2000 from rfl])

/-- A later block: the pair over the first 2000·k words becomes the pair over the first 2000·(k + 1). -/
theorem step_later (k : ℕ) (hlog : ∀ r u, blkLogit z w bv r u = ((y r (2000 * k + u.val) : ℝ) : EReal))
    (mo lo mx sx : FVec Ideal S512x1 .f32)
    (hprev : ∀ r : Fin 512, ∃ M : ℝ, mo (ix2 r (0 : Fin 1)) = (M : EReal)
      ∧ lo (ix2 r (0 : Fin 1)) = ((∑ i ∈ Finset.range (2000 * k), Real.exp (y r i - M) : ℝ) : EReal))
    (hmx : ∀ r : Fin 512, mx (ix2 r (0 : Fin 1)) = max (mo (ix2 r (0 : Fin 1))) (blkMax z w bv r))
    (hsx : ∀ r : Fin 512, sx (ix2 r (0 : Fin 1)) = Ideal.exp (mo (ix2 r (0 : Fin 1)) - max (mo (ix2 r (0 : Fin 1))) (blkMax z w bv r)) * lo (ix2 r (0 : Fin 1))
        + ∑ u : Fin 2000, Ideal.exp (blkLogit z w bv r u - max (mo (ix2 r (0 : Fin 1))) (blkMax z w bv r))) (r : Fin 512) :
    ∃ M : ℝ, mx (ix2 r (0 : Fin 1)) = (M : EReal)
      ∧ sx (ix2 r (0 : Fin 1)) = ((∑ i ∈ Finset.range (2000 * (k + 1)), Real.exp (y r i - M) : ℝ) : EReal) := by
  obtain ⟨M, hM, hL⟩ := hprev r
  obtain ⟨cur, hcur⟩ := blkMax_real z w bv y k hlog r
  refine ⟨max M cur, by rw [hmx, hM, hcur, coe_max], ?_⟩
  rw [hsx, hM, hL, hcur]
  simp only [hlog]
  rw [later_block (Finset.range (2000 * k)) Finset.univ (y r) (fun u : Fin 2000 => y r (2000 * k + u.val)) M cur]
  congr 1
  rw [show 2000 * (k + 1) = 2000 * k + 2000 by ring, Finset.sum_range_add, Finset.sum_range (fun i => Real.exp (y r (2000 * k + i) - max M cur))]

end Step

/-! ## The logits as real numbers -/

/-- A logit of the specification is a real number when the arguments are. -/
theorem logit_isReal (mu sg : Cert.LseSpec.Slat.Idx → EReal) (W : Cert.LseSpec.Sw.Idx → EReal) (bias : Cert.LseSpec.Sb.Idx → EReal)
    (hmu : ∀ i, IsReal (mu i)) (hsg : ∀ i, IsReal (sg i)) (hW : ∀ i, IsReal (W i)) (hb : ∀ i, IsReal (bias i))
    (b : Fin 16) (s : Fin 64) (v : Fin 50000) : IsReal (Cert.LseSpec.logit mu sg W bias b s v) := by
  unfold Cert.LseSpec.logit Cert.LseSpec.z
  exact (isReal_sum _ _ fun d _ => ((hmu _).add (hsg _)).mul (hW _)).add (hb _)

/-- Latent row ρ's logit of word i as a real number; 0 outside the [1024] rows and the 50000 words. -/
def yN (mu sg : Cert.LseSpec.Slat.Idx → EReal) (W : Cert.LseSpec.Sw.Idx → EReal) (bias : Cert.LseSpec.Sb.Idx → EReal) (ρ i : ℕ) : ℝ :=
  if h : ρ < 1024 ∧ i < 50000 then
    (Cert.LseSpec.logit mu sg W bias ⟨ρ / 64, by omega⟩ ⟨ρ % 64, Nat.mod_lt _ (by norm_num)⟩ ⟨i, h.2⟩).toReal
  else 0

section Inv
variable (m : (ℓ : Loc nD τ sig) → Buf (Elt Ideal) ℓ) (c : Dev nD)

/-- The English head's logit of latent row ρ and word i read as a real number is its extended-real logit. -/
theorem hlogE (hfin : Cert.LseSpec.Finite (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)))
    (t : Fin cfg0.N) (r : Fin 512) (u : Fin 2000) :
    blkLogit (iblk m c 0 t) (iblk m c 1 t) (iblk m c 2 t) r u
      = ((yN (m ((c : Thread nD τ).loc main_arg0)) (m ((c : Thread nD τ).loc main_arg1)) (m ((c : Thread nD τ).loc main_arg4)) (m ((c : Thread nD τ).loc main_arg5)) (512 * (t.val / 25) + r.val) (2000 * (t.val % 25) + u.val) : ℝ) : EReal) := by
  have hN : t.val < 50 := lt_of_lt_of_eq t.isLt (show cfg0.N = 50 from N_0)
  have hρ : 512 * (t.val / 25) + r.val < 1024 := by have := r.isLt; omega
  have hi : 2000 * (t.val % 25) + u.val < 50000 := by have := u.isLt; omega
  rw [blkLogitE m c t r u ⟨(512 * (t.val / 25) + r.val) / 64, by omega⟩ ⟨(512 * (t.val / 25) + r.val) % 64, Nat.mod_lt _ (by norm_num)⟩
    ⟨2000 * (t.val % 25) + u.val, hi⟩ (by show 64 * ((512 * (t.val / 25) + r.val) / 64) + (512 * (t.val / 25) + r.val) % 64 = _; omega) rfl]
  unfold yN
  rw [dif_pos ⟨hρ, hi⟩]
  obtain ⟨x, hx⟩ := logit_isReal (m ((c : Thread nD τ).loc main_arg0)) (m ((c : Thread nD τ).loc main_arg1)) (m ((c : Thread nD τ).loc main_arg4)) (m ((c : Thread nD τ).loc main_arg5)) hfin.1 hfin.2.1 hfin.2.2.1 hfin.2.2.2.1 _ _ _
  rw [hx, EReal.toReal_coe]

/-- THE INVARIANT of the English head: after the body at position n, local row r of its two scratch buffers holds a real M and
    the sum over the first 2000·(n mod 25 + 1) words of exp(logit − M), for latent row 512·(n / 25) + r. -/
theorem invE (hfin : Cert.LseSpec.Finite (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)))
    (n : ℕ) (hn : n < cfg0.N) (r : Fin 512) :
    ∃ M : ℝ, (scAt m c n hn).1 (ix2 r (0 : Fin 1)) = (M : EReal)
      ∧ (scAt m c n hn).2.1 (ix2 r (0 : Fin 1))
          = ((∑ i ∈ Finset.range (2000 * (n % 25 + 1)), Real.exp (yN (m ((c : Thread nD τ).loc main_arg0)) (m ((c : Thread nD τ).loc main_arg1)) (m ((c : Thread nD τ).loc main_arg4)) (m ((c : Thread nD τ).loc main_arg5)) (512 * (n / 25) + r.val) i - M) : ℝ) : EReal) := by
  have hN : n < 50 := lt_of_lt_of_eq hn (show cfg0.N = 50 from N_0)
  induction n using Nat.strong_induction_on generalizing r with
  | _ n ih =>
    by_cases h0 : n % 25 = 0
    · have h1 : ¬n % 25 = 24 := by omega
      have hs := scAt_first m c ⟨n, hn⟩ h0 h1
      dsimp only at hs
      rw [hs]
      dsimp only
      rw [soutFirst0_eq, soutFirst1_eq, h0]
      exact step_first (iblk m c 0 ⟨n, hn⟩) (iblk m c 1 ⟨n, hn⟩) (iblk m c 2 ⟨n, hn⟩)
        (fun r i => yN (m ((c : Thread nD τ).loc main_arg0)) (m ((c : Thread nD τ).loc main_arg1)) (m ((c : Thread nD τ).loc main_arg4)) (m ((c : Thread nD τ).loc main_arg5)) (512 * (n / 25) + r.val) i)
        (fun r u => by have := hlogE m c hfin ⟨n, hn⟩ r u; dsimp only at this; rw [h0] at this; exact this)
        (k0_pay8 (F := Ideal)) (k0_pay9 (F := Ideal)) _ _ pay8_apply pay9_apply
        (fun r => stepMaxE_apply _ _ _ _ r) (fun r => stepSumE_apply _ _ _ _ _ r) r
    · have hpos : n ≠ 0 := fun h => h0 (by rw [h])
      have hprev := fun r => ih (n - 1) (by omega) (Nat.lt_of_le_of_lt (Nat.sub_le _ _) hn) r (by omega)
      have e1 : (n - 1) % 25 + 1 = n % 25 := by omega
      have e2 : (n - 1) / 25 = n / 25 := by omega
      simp only [e1, e2] at hprev
      by_cases h1 : n % 25 = 24
      · have hs := scAt_last m c ⟨n, hn⟩ h0 h1
        dsimp only at hs
        rw [hs]
        dsimp only
        rw [soutLast0_eq, soutLast1_eq]
        exact step_later (iblk m c 0 ⟨n, hn⟩) (iblk m c 1 ⟨n, hn⟩) (iblk m c 2 ⟨n, hn⟩)
          (fun r i => yN (m ((c : Thread nD τ).loc main_arg0)) (m ((c : Thread nD τ).loc main_arg1)) (m ((c : Thread nD τ).loc main_arg4)) (m ((c : Thread nD τ).loc main_arg5)) (512 * (n / 25) + r.val) i) (n % 25)
          (fun r u => hlogE m c hfin ⟨n, hn⟩ r u)
          _ _ _ _ hprev
          (fun r => stepMaxE_apply _ _ _ _ r) (fun r => stepSumE_apply _ _ _ _ _ r) r
      · have hs := scAt_middle m c ⟨n, hn⟩ h0 h1
        dsimp only at hs
        rw [hs]
        dsimp only
        rw [soutMiddle0_eq, soutMiddle1_eq]
        exact step_later (iblk m c 0 ⟨n, hn⟩) (iblk m c 1 ⟨n, hn⟩) (iblk m c 2 ⟨n, hn⟩)
          (fun r i => yN (m ((c : Thread nD τ).loc main_arg0)) (m ((c : Thread nD τ).loc main_arg1)) (m ((c : Thread nD τ).loc main_arg4)) (m ((c : Thread nD τ).loc main_arg5)) (512 * (n / 25) + r.val) i) (n % 25)
          (fun r u => hlogE m c hfin ⟨n, hn⟩ r u)
          _ _ _ _ hprev
          (fun r => stepMaxE_apply _ _ _ _ r) (fun r => stepSumE_apply _ _ _ _ _ r) r

/-- The French head's logit of latent row ρ and word i read as a real number is its extended-real logit. -/
theorem hlogF (hfin : Cert.LseSpec.Finite (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)))
    (t : Fin cfg0.N) (r : Fin 512) (u : Fin 2000) :
    blkLogit (iblk m c 0 t) (iblk m c 3 t) (iblk m c 4 t) r u
      = ((yN (m ((c : Thread nD τ).loc main_arg0)) (m ((c : Thread nD τ).loc main_arg1)) (m ((c : Thread nD τ).loc main_arg6)) (m ((c : Thread nD τ).loc main_arg7)) (512 * (t.val / 25) + r.val) (2000 * (t.val % 25) + u.val) : ℝ) : EReal) := by
  have hN : t.val < 50 := lt_of_lt_of_eq t.isLt (show cfg0.N = 50 from N_0)
  have hρ : 512 * (t.val / 25) + r.val < 1024 := by have := r.isLt; omega
  have hi : 2000 * (t.val % 25) + u.val < 50000 := by have := u.isLt; omega
  rw [blkLogitF m c t r u ⟨(512 * (t.val / 25) + r.val) / 64, by omega⟩ ⟨(512 * (t.val / 25) + r.val) % 64, Nat.mod_lt _ (by norm_num)⟩
    ⟨2000 * (t.val % 25) + u.val, hi⟩ (by show 64 * ((512 * (t.val / 25) + r.val) / 64) + (512 * (t.val / 25) + r.val) % 64 = _; omega) rfl]
  unfold yN
  rw [dif_pos ⟨hρ, hi⟩]
  obtain ⟨x, hx⟩ := logit_isReal (m ((c : Thread nD τ).loc main_arg0)) (m ((c : Thread nD τ).loc main_arg1)) (m ((c : Thread nD τ).loc main_arg6)) (m ((c : Thread nD τ).loc main_arg7)) hfin.1 hfin.2.1 hfin.2.2.2.2.1 hfin.2.2.2.2.2 _ _ _
  rw [hx, EReal.toReal_coe]

/-- THE INVARIANT of the French head: after the body at position n, local row r of its two scratch buffers holds a real M and
    the sum over the first 2000·(n mod 25 + 1) words of exp(logit − M), for latent row 512·(n / 25) + r. -/
theorem invF (hfin : Cert.LseSpec.Finite (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)))
    (n : ℕ) (hn : n < cfg0.N) (r : Fin 512) :
    ∃ M : ℝ, (scAt m c n hn).2.2.1 (ix2 r (0 : Fin 1)) = (M : EReal)
      ∧ (scAt m c n hn).2.2.2 (ix2 r (0 : Fin 1))
          = ((∑ i ∈ Finset.range (2000 * (n % 25 + 1)), Real.exp (yN (m ((c : Thread nD τ).loc main_arg0)) (m ((c : Thread nD τ).loc main_arg1)) (m ((c : Thread nD τ).loc main_arg6)) (m ((c : Thread nD τ).loc main_arg7)) (512 * (n / 25) + r.val) i - M) : ℝ) : EReal) := by
  have hN : n < 50 := lt_of_lt_of_eq hn (show cfg0.N = 50 from N_0)
  induction n using Nat.strong_induction_on generalizing r with
  | _ n ih =>
    by_cases h0 : n % 25 = 0
    · have h1 : ¬n % 25 = 24 := by omega
      have hs := scAt_first m c ⟨n, hn⟩ h0 h1
      dsimp only at hs
      rw [hs]
      dsimp only
      rw [soutFirst2_eq, soutFirst3_eq, h0]
      exact step_first (iblk m c 0 ⟨n, hn⟩) (iblk m c 3 ⟨n, hn⟩) (iblk m c 4 ⟨n, hn⟩)
        (fun r i => yN (m ((c : Thread nD τ).loc main_arg0)) (m ((c : Thread nD τ).loc main_arg1)) (m ((c : Thread nD τ).loc main_arg6)) (m ((c : Thread nD τ).loc main_arg7)) (512 * (n / 25) + r.val) i)
        (fun r u => by have := hlogF m c hfin ⟨n, hn⟩ r u; dsimp only at this; rw [h0] at this; exact this)
        (k0_pay10 (F := Ideal)) (k0_pay11 (F := Ideal)) _ _ pay10_apply pay11_apply
        (fun r => stepMaxF_apply _ _ _ _ r) (fun r => stepSumF_apply _ _ _ _ _ r) r
    · have hpos : n ≠ 0 := fun h => h0 (by rw [h])
      have hprev := fun r => ih (n - 1) (by omega) (Nat.lt_of_le_of_lt (Nat.sub_le _ _) hn) r (by omega)
      have e1 : (n - 1) % 25 + 1 = n % 25 := by omega
      have e2 : (n - 1) / 25 = n / 25 := by omega
      simp only [e1, e2] at hprev
      by_cases h1 : n % 25 = 24
      · have hs := scAt_last m c ⟨n, hn⟩ h0 h1
        dsimp only at hs
        rw [hs]
        dsimp only
        rw [soutLast2_eq, soutLast3_eq]
        exact step_later (iblk m c 0 ⟨n, hn⟩) (iblk m c 3 ⟨n, hn⟩) (iblk m c 4 ⟨n, hn⟩)
          (fun r i => yN (m ((c : Thread nD τ).loc main_arg0)) (m ((c : Thread nD τ).loc main_arg1)) (m ((c : Thread nD τ).loc main_arg6)) (m ((c : Thread nD τ).loc main_arg7)) (512 * (n / 25) + r.val) i) (n % 25)
          (fun r u => hlogF m c hfin ⟨n, hn⟩ r u)
          _ _ _ _ hprev
          (fun r => stepMaxF_apply _ _ _ _ r) (fun r => stepSumF_apply _ _ _ _ _ r) r
      · have hs := scAt_middle m c ⟨n, hn⟩ h0 h1
        dsimp only at hs
        rw [hs]
        dsimp only
        rw [soutMiddle2_eq, soutMiddle3_eq]
        exact step_later (iblk m c 0 ⟨n, hn⟩) (iblk m c 3 ⟨n, hn⟩) (iblk m c 4 ⟨n, hn⟩)
          (fun r i => yN (m ((c : Thread nD τ).loc main_arg0)) (m ((c : Thread nD τ).loc main_arg1)) (m ((c : Thread nD τ).loc main_arg6)) (m ((c : Thread nD τ).loc main_arg7)) (512 * (n / 25) + r.val) i) (n % 25)
          (fun r u => hlogF m c hfin ⟨n, hn⟩ r u)
          _ _ _ _ hprev
          (fun r => stepMaxF_apply _ _ _ _ r) (fun r => stepSumF_apply _ _ _ _ _ r) r

end Inv

end Cert.KernelIdeal.Lse

end
-- ==== Proof.IdealResult.lean ====
/-
  The two result arrays of the region.

  At the last vocabulary block of a row half the body stores, for local row r, the head's running maximum plus the log of
  its running sum; by then the pair runs over all 50000 words, so that is the log-sum-exp of latent row 512·(t / 25) + r.
  The two write-backs (one per row half) cover the [1024, 1] array, which therefore ends holding every row's log-sum-exp.
-/
import proofs.«121325_j12979391169156_2_alg».proof.Proof.IdealInv

set_option maxRecDepth 16384

noncomputable section

namespace Cert.KernelIdeal.Lse

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)
open Cert.Lib.RealsInEReal Cert.LseMath

/-- The batch and the position of latent row n = 64·b + s. -/
def rowB (n : ℕ) : Fin 16 := ⟨(n / 64) % 16, Nat.mod_lt _ (by norm_num)⟩
def rowS (n : ℕ) : Fin 64 := ⟨n % 64, Nat.mod_lt _ (by norm_num)⟩

theorem rowB_eq (b : Fin 16) (s : Fin 64) : rowB (64 * b.val + s.val) = b := Fin.ext (by show (64 * b.val + s.val) / 64 % 16 = b.val; have := b.isLt; have := s.isLt; omega)
theorem rowS_eq (b : Fin 16) (s : Fin 64) : rowS (64 * b.val + s.val) = s := Fin.ext (by show (64 * b.val + s.val) % 64 = s.val; have := s.isLt; omega)

/-- Over all 50000 words the ℕ-indexed sum is the sum over the vocabulary. -/
theorem sum_all (mu sg : Cert.LseSpec.Slat.Idx → EReal) (W : Cert.LseSpec.Sw.Idx → EReal) (bias : Cert.LseSpec.Sb.Idx → EReal) (ρ : ℕ) (hρ : ρ < 1024) :
    ∑ i ∈ Finset.range 50000, Real.exp (yN mu sg W bias ρ i)
      = ∑ v : Fin 50000, Real.exp (Cert.LseSpec.logit mu sg W bias (rowB ρ) (rowS ρ) v).toReal := by
  rw [Finset.sum_range]
  refine Finset.sum_congr rfl fun v _ => ?_
  unfold yN
  rw [dif_pos ⟨hρ, v.isLt⟩]
  have eb : (⟨ρ / 64, by omega⟩ : Fin 16) = rowB ρ := Fin.ext (by show ρ / 64 = ρ / 64 % 16; omega)
  rw [eb]
  rfl

/-- A head's log-sum-exp of every latent row, as a [1024, 1] array. -/
def lseArr (mu sg : Cert.LseSpec.Slat.Idx → EReal) (W : Cert.LseSpec.Sw.Idx → EReal) (bias : Cert.LseSpec.Sb.Idx → EReal) : S1024x1.Idx → EReal :=
  fun i => Cert.LseSpec.lse mu sg W bias (rowB (i 0).val) (rowS (i 0).val)

/-- The result windows' extents at every point: whole [512, 1] blocks. -/
theorem xs56 : ∀ t : Fin cfg0.N, (win0_5.xsize (grid0.coords t) 0 = 512 ∧ win0_5.xsize (grid0.coords t) 1 = 1)
    ∧ (win0_6.xsize (grid0.coords t) 0 = 512 ∧ win0_6.xsize (grid0.coords t) 1 = 1) :=
  (by decide +kernel : ∀ t : Fin grid0.N, _)

section
variable (m : (ℓ : Loc nD τ sig) → Buf (Elt Ideal) ℓ) (c : Dev nD)
variable (hfin : Cert.LseSpec.Finite (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)))
include hfin

/-- The first result at a last block: the English head's log-sum-exp of the row. -/
theorem resE (t : Fin cfg0.N) (h1 : t.val % 25 = 24) (r : Fin 512) :
    (outAt m c t).1 (ix2 r (0 : Fin 1))
      = Cert.LseSpec.lse (m ((c : Thread nD τ).loc main_arg0)) (m ((c : Thread nD τ).loc main_arg1)) (m ((c : Thread nD τ).loc main_arg4)) (m ((c : Thread nD τ).loc main_arg5)) (rowB (512 * (t.val / 25) + r.val)) (rowS (512 * (t.val / 25) + r.val)) := by
  have hN : t.val < 50 := lt_of_lt_of_eq t.isLt (show cfg0.N = 50 from N_0)
  have h0 : ¬t.val % 25 = 0 := by omega
  have hρ : 512 * (t.val / 25) + r.val < 1024 := by have := r.isLt; omega
  obtain ⟨M, hM, hL⟩ := invE m c hfin t.val t.isLt r
  rw [scAt_last m c t h0 h1] at hM hL
  dsimp only at hM hL
  rw [soutLast0_eq] at hM
  rw [soutLast1_eq] at hL
  rw [outAt_last m c t h0 h1]
  dsimp only
  rw [out5_eq, pay6_apply, hM, hL, h1, show 2000 * (24 + 1) = 50000 from rfl,
    max_add_log (Finset.range 50000) ⟨0, by simp⟩, sum_all _ _ _ _ _ hρ]
  rfl

/-- The second result: the French head's. -/
theorem resF (t : Fin cfg0.N) (h1 : t.val % 25 = 24) (r : Fin 512) :
    (outAt m c t).2 (ix2 r (0 : Fin 1))
      = Cert.LseSpec.lse (m ((c : Thread nD τ).loc main_arg0)) (m ((c : Thread nD τ).loc main_arg1)) (m ((c : Thread nD τ).loc main_arg6)) (m ((c : Thread nD τ).loc main_arg7)) (rowB (512 * (t.val / 25) + r.val)) (rowS (512 * (t.val / 25) + r.val)) := by
  have hN : t.val < 50 := lt_of_lt_of_eq t.isLt (show cfg0.N = 50 from N_0)
  have h0 : ¬t.val % 25 = 0 := by omega
  have hρ : 512 * (t.val / 25) + r.val < 1024 := by have := r.isLt; omega
  obtain ⟨M, hM, hL⟩ := invF m c hfin t.val t.isLt r
  rw [scAt_last m c t h0 h1] at hM hL
  dsimp only at hM hL
  rw [soutLast2_eq] at hM
  rw [soutLast3_eq] at hL
  rw [outAt_last m c t h0 h1]
  dsimp only
  rw [out6_eq, pay7_apply, hM, hL, h1, show 2000 * (24 + 1) = 50000 from rfl,
    max_add_log (Finset.range 50000) ⟨0, by simp⟩, sum_all _ _ _ _ _ hρ]
  rfl

/-- What a write-back of the first result window writes is the block of the log-sum-exp array. -/
theorem flushed5 (t : Fin cfg0.N) (hf : (cfg0.win 5).flush t = true) :
    (dats m 0 c).flushed 5 t = ((cfg0.win 5).blk t).view.read (Elt Ideal) (lseArr (m ((c : Thread nD τ).loc main_arg0)) (m ((c : Thread nD τ).loc main_arg1)) (m ((c : Thread nD τ).loc main_arg4)) (m ((c : Thread nD τ).loc main_arg5))) := by
  have h1 := (flush0_5 t).mp hf
  show (dats m 0 c).after 5 t = _
  rw [after5]
  funext y
  rw [View.read_apply]
  obtain ⟨r, u, rfl⟩ : ∃ (r : Fin 512) (u : Fin 1), y = ix2 r u := ⟨y 0, y 1, eq_ix2 y⟩
  obtain rfl : u = 0 := Subsingleton.elim _ _
  rw [resE m c hfin t h1 r]
  unfold lseArr
  have e : ((((cfg0.win 5).blk t).view.emb (ix2 r (0 : Fin 1))) 0).val = 512 * (t.val / 25) + r.val := by
    show win0_5.index t 0 * 512 + 1 * r.val = _
    rw [(widx t).2.2.2.2.2.1.1]; omega
  rw [e]
  first | rfl | exact (cast_eq _ _).symm

theorem flushed6 (t : Fin cfg0.N) (hf : (cfg0.win 6).flush t = true) :
    (dats m 0 c).flushed 6 t = ((cfg0.win 6).blk t).view.read (Elt Ideal) (lseArr (m ((c : Thread nD τ).loc main_arg0)) (m ((c : Thread nD τ).loc main_arg1)) (m ((c : Thread nD τ).loc main_arg6)) (m ((c : Thread nD τ).loc main_arg7))) := by
  have h1 := (flush0_6 t).mp hf
  show (dats m 0 c).after 6 t = _
  rw [after6]
  funext y
  rw [View.read_apply]
  obtain ⟨r, u, rfl⟩ : ∃ (r : Fin 512) (u : Fin 1), y = ix2 r u := ⟨y 0, y 1, eq_ix2 y⟩
  obtain rfl : u = 0 := Subsingleton.elim _ _
  rw [resF m c hfin t h1 r]
  unfold lseArr
  have e : ((((cfg0.win 6).blk t).view.emb (ix2 r (0 : Fin 1))) 0).val = 512 * (t.val / 25) + r.val := by
    show win0_6.index t 0 * 512 + 1 * r.val = _
    rw [(widx t).2.2.2.2.2.2.1]; omega
  rw [e]
  first | rfl | exact (cast_eq _ _).symm

omit hfin in
/-- Every entry of a result array lies in the block written back at the last point of its row half. -/
theorem arrCover5 (i : ((cfg0.win 5).arr.view.loc (c.tc : Thread nD τ)).2.ty.Idx) : ∃ t : Fin cfg0.N, (cfg0.win 5).flush t = true ∧ i ∈ ((cfg0.win 5).blk t).view.set := by
  have h0 : (i 0 : ℕ) < 1024 := (i 0).isLt
  have h1 : (i 1 : ℕ) < 1 := (i 1).isLt
  have hT : 25 * ((i 0).val / 512) + 24 < cfg0.N := by rw [show cfg0.N = 50 from N_0]; omega
  refine ⟨⟨25 * ((i 0).val / 512) + 24, hT⟩, (flush0_5 _).mpr (by show (25 * ((i 0).val / 512) + 24) % 25 = 24; omega), ?_⟩
  show i ∈ ((View.whole main_v4_0).slice (win0_5.rect (⟨25 * ((i 0).val / 512) + 24, hT⟩ : Fin cfg0.N))).set
  rw [View.set_slice_whole, Rect.mem_set_unit]
  intro a
  have hi := (widx ⟨25 * ((i 0).val / 512) + 24, hT⟩).2.2.2.2.2.1
  have hx := (xs56 ⟨25 * ((i 0).val / 512) + 24, hT⟩).1
  match a with
  | ⟨0, _⟩ =>
    show win0_5.index _ 0 * 512 ≤ (i 0 : ℕ) ∧ (i 0 : ℕ) < win0_5.index _ 0 * 512 + win0_5.xsize _ 0
    rw [hi.1, hx.1]; show (25 * ((i 0).val / 512) + 24) / 25 * 512 ≤ _ ∧ _ < (25 * ((i 0).val / 512) + 24) / 25 * 512 + 512; omega
  | ⟨1, _⟩ =>
    show win0_5.index _ 1 * 1 ≤ (i 1 : ℕ) ∧ (i 1 : ℕ) < win0_5.index _ 1 * 1 + win0_5.xsize _ 1
    rw [hi.2, hx.2]; omega

omit hfin in
theorem arrCover6 (i : ((cfg0.win 6).arr.view.loc (c.tc : Thread nD τ)).2.ty.Idx) : ∃ t : Fin cfg0.N, (cfg0.win 6).flush t = true ∧ i ∈ ((cfg0.win 6).blk t).view.set := by
  have h0 : (i 0 : ℕ) < 1024 := (i 0).isLt
  have h1 : (i 1 : ℕ) < 1 := (i 1).isLt
  have hT : 25 * ((i 0).val / 512) + 24 < cfg0.N := by rw [show cfg0.N = 50 from N_0]; omega
  refine ⟨⟨25 * ((i 0).val / 512) + 24, hT⟩, (flush0_6 _).mpr (by show (25 * ((i 0).val / 512) + 24) % 25 = 24; omega), ?_⟩
  show i ∈ ((View.whole main_v4_1).slice (win0_6.rect (⟨25 * ((i 0).val / 512) + 24, hT⟩ : Fin cfg0.N))).set
  rw [View.set_slice_whole, Rect.mem_set_unit]
  intro a
  have hi := (widx ⟨25 * ((i 0).val / 512) + 24, hT⟩).2.2.2.2.2.2
  have hx := (xs56 ⟨25 * ((i 0).val / 512) + 24, hT⟩).2
  match a with
  | ⟨0, _⟩ =>
    show win0_6.index _ 0 * 512 ≤ (i 0 : ℕ) ∧ (i 0 : ℕ) < win0_6.index _ 0 * 512 + win0_6.xsize _ 0
    rw [hi.1, hx.1]; show (25 * ((i 0).val / 512) + 24) / 25 * 512 ≤ _ ∧ _ < (25 * ((i 0).val / 512) + 24) / 25 * 512 + 512; omega
  | ⟨1, _⟩ =>
    show win0_6.index _ 1 * 1 ≤ (i 1 : ℕ) ∧ (i 1 : ℕ) < win0_6.index _ 1 * 1 + win0_6.xsize _ 1
    rw [hi.2, hx.2]; omega

/-- THE REGION'S RESULTS: the two arrays end holding every latent row's log-sum-exp under the English and the French head. -/
theorem final5 : (dats m 0 c).arrAt 5 cfg0.N = lseArr (m ((c : Thread nD τ).loc main_arg0)) (m ((c : Thread nD τ).loc main_arg1)) (m ((c : Thread nD τ).loc main_arg4)) (m ((c : Thread nD τ).loc main_arg5)) :=
  (dats m 0 c).arrAt_eq_of_cover 5 _ (flushed5 m c hfin) (arrCover5 c)

theorem final6 : (dats m 0 c).arrAt 6 cfg0.N = lseArr (m ((c : Thread nD τ).loc main_arg0)) (m ((c : Thread nD τ).loc main_arg1)) (m ((c : Thread nD τ).loc main_arg6)) (m ((c : Thread nD τ).loc main_arg7)) :=
  (dats m 0 c).arrAt_eq_of_cover 6 _ (flushed6 m c hfin) (arrCover6 c)

end

end Cert.KernelIdeal.Lse

end
-- ==== Proof.IdealValue.lean ====
/-
  What the 138 host operations after the region start from: every argument as launched, z = mu + sigma, and the two
  [1024, 1] arrays of the region holding every latent row's log-sum-exp under the two heads; and that the run's post
  gives every other buffer as those operations leave it from there.
-/
import proofs.«121325_j12979391169156_2_alg».proof.Proof.IdealResult

set_option maxRecDepth 16384

noncomputable section

namespace Cert.KernelIdeal.Lse

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)

variable (m : (ℓ : Loc nD τ sig) → Buf (Elt Ideal) ℓ) (c : Dev nD)

/-- The buffers when the region is left: as it was entered, with the arrays it stages at their final contents. -/
def Wtail : Valuation τ sig (Elt Ideal) :=
  Pipeline.withArrays spec0 c (V0 m c) (fun w => (dats m 0 c).arrAt w cfg0.N)

/-- The run's post at a buffer no window stages: what the operations after the region leave there. -/
theorem afterTail_eq (b : Ref sig .tc) :
    Pipeline.afterTail₀ cfgs (dats m) 0 (V0 m) tail c b = StableHlo.after (tail (F := Ideal)).flatten (Wtail m c) (Proc.devRef .tc b) := rfl

/-- An argument no window stages is as launched. -/
theorem W_rest (b : Ref sig .tc) (hb : b.idx.val < 8) (hne : ∀ w, Pipeline.arrRef spec0 w ≠ b) :
    Wtail m c (Proc.devRef .tc b) = m ((c : Thread nD τ).loc b) := by
  unfold Wtail
  rw [Pipeline.withArrays_of_ne _ _ _ _ b hne]
  exact V_arg m c b hb

/-- The English weights (an input window's array) are as launched, -/
theorem W_We : Wtail m c (Proc.devRef .tc main_arg4) = (m ((c : Thread nD τ).loc main_arg4)) := by
  unfold Wtail
  exact (Pipeline.withArrays_arr spec0 launch0.win.arr_inj c _ _ 1).trans
    (((dats m 0 c).arrAt_in 1 rfl _).trans ((A_eq m c 1).trans (V_arg m c main_arg4 (by decide))))

/-- and the French. -/
theorem W_Wf : Wtail m c (Proc.devRef .tc main_arg6) = (m ((c : Thread nD τ).loc main_arg6)) := by
  unfold Wtail
  exact (Pipeline.withArrays_arr spec0 launch0.win.arr_inj c _ _ 3).trans
    (((dats m 0 c).arrAt_in 3 rfl _).trans ((A_eq m c 3).trans (V_arg m c main_arg6 (by decide))))

/-- z = mu + sigma. -/
theorem W_z : Wtail m c (Proc.devRef .tc main_v0)
    = (addf (F := Ideal) (s := S16x64x256) (φ := .f32) (m ((c : Thread nD τ).loc main_arg0)) (m ((c : Thread nD τ).loc main_arg1)) : S16x64x256.Idx → Elt Ideal .f32) := by
  unfold Wtail
  rw [Pipeline.withArrays_of_ne _ _ _ _ main_v0 (by decide)]
  show StableHlo.after (List.flatten [hostOps0]) (fun b => m (c, b)) (Proc.devRef .tc main_v0) = _
  simp only [List.flatten_cons, List.flatten_nil, List.append_nil]
  after_results

section
variable (hfin : Cert.LseSpec.Finite (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)))
include hfin

/-- The first region result holds row (b, s)'s English log-sum-exp at row 64·b + s, -/
theorem W_lseE (b : Fin 16) (s : Fin 64) :
    (Wtail m c (Proc.devRef .tc main_v4_0) : S1024x1.Idx → Elt Ideal .f32) (ix2 ⟨64 * b.val + s.val, by omega⟩ (0 : Fin 1))
      = Cert.LseSpec.lse (m ((c : Thread nD τ).loc main_arg0)) (m ((c : Thread nD τ).loc main_arg1)) (m ((c : Thread nD τ).loc main_arg4)) (m ((c : Thread nD τ).loc main_arg5)) b s := by
  unfold Wtail
  rw [Pipeline.withArrays_arr spec0 launch0.win.arr_inj c _ _ 5, final5 m c hfin]
  unfold lseArr
  show Cert.LseSpec.lse _ _ _ _ (rowB (64 * b.val + s.val)) (rowS (64 * b.val + s.val)) = _
  rw [rowB_eq, rowS_eq]

/-- and the second its French one. -/
theorem W_lseF (b : Fin 16) (s : Fin 64) :
    (Wtail m c (Proc.devRef .tc main_v4_1) : S1024x1.Idx → Elt Ideal .f32) (ix2 ⟨64 * b.val + s.val, by omega⟩ (0 : Fin 1))
      = Cert.LseSpec.lse (m ((c : Thread nD τ).loc main_arg0)) (m ((c : Thread nD τ).loc main_arg1)) (m ((c : Thread nD τ).loc main_arg6)) (m ((c : Thread nD τ).loc main_arg7)) b s := by
  unfold Wtail
  rw [Pipeline.withArrays_arr spec0 launch0.win.arr_inj c _ _ 6, final6 m c hfin]
  unfold lseArr
  show Cert.LseSpec.lse _ _ _ _ (rowB (64 * b.val + s.val)) (rowS (64 * b.val + s.val)) = _
  rw [rowB_eq, rowS_eq]

end

/-- The eight arguments at the end of a run satisfying the run's post. -/
theorem args_of_post (r : PUnit × MemSt nD τ sig (Elt Ideal))
    (h : Pipeline.FramePost cfgs (dats m) 0 (Pipeline.afterTail₀ cfgs (dats m) 0 (V0 m) tail) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of _ (by decide) (by decide))).trans (tail_arg m c main_arg0 (by decide) (by decide)),
   ((h c).2 main_arg1 (Pipeline.mem_restRefs_of _ (by decide) (by decide))).trans (tail_arg m c main_arg1 (by decide) (by decide)),
   ((h c).2 main_arg2 (Pipeline.mem_restRefs_of _ (by decide) (by decide))).trans (tail_arg m c main_arg2 (by decide) (by decide)),
   ((h c).2 main_arg3 (Pipeline.mem_restRefs_of _ (by decide) (by decide))).trans (tail_arg m c main_arg3 (by decide) (by decide)),
   ((h c).1 1).trans (((dats m 0 c).arrAt_in 1 rfl _).trans ((A_eq m c 1).trans (V_arg m c main_arg4 (by decide)))),
   ((h c).2 main_arg5 (Pipeline.mem_restRefs_of _ (by decide) (by decide))).trans (tail_arg m c main_arg5 (by decide) (by decide)),
   ((h c).1 3).trans (((dats m 0 c).arrAt_in 3 rfl _).trans ((A_eq m c 3).trans (V_arg m c main_arg6 (by decide)))),
   ((h c).2 main_arg7 (Pipeline.mem_restRefs_of _ (by decide) (by decide))).trans (tail_arg m c main_arg7 (by decide) (by decide))⟩

end Cert.KernelIdeal.Lse

end
-- ==== Proof.TailSide.lean ====
/-
  The host operations after the kernel region compute the specification: the target-word log-probabilities summed
  over the English head, the log of the mean target-word probability summed over the French head, and the KL sum.
-/
import proofs.«121325_j12979391169156_2_alg».proof.Proof.IdealAround
import proofs.«121325_j12979391169156_2_alg».proof.Proof.LseSpec
import proofs.«121325_j12979391169156_2_alg».proof.Proof.LibRealsInEReal
import proofs.«121325_j12979391169156_2_alg».proof.Proof.LibKeepdims
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.TailSide

open Cert.KernelIdeal Cert.KernelIdeal.Gen Cert.KernelIdeal.Lse
open Idealize.ShloMosaic Idealize.ShloMosaic.TcCoe Idealize.ShloMosaic.ValueIdx

/-! ## Which references a stretch leaves alone

The references are numbered in program order, so each stretch writes one interval of them. -/

theorem ne_of_range {b y : Ref sig .tc} {lo hi : Nat} (hb : b.idx.val < lo ∨ hi < b.idx.val)
    (hy : lo ≤ y.idx.val ∧ y.idx.val ≤ hi) : b ≠ y := fun h => by subst h; omega

/-- The stretch hostOps1 writes only references 14 to 19. -/
theorem keep1 (V : Valuation τ sig (Elt Ideal)) (b : Ref sig .tc) (hb : b.idx.val < 14 ∨ 19 < b.idx.val) :
    StableHlo.after (hostOps1 (F := Ideal)) V (Proc.devRef .tc b) = V (Proc.devRef .tc b) := by
  refine StableHlo.after_of_forall_not_mem _ _ fun op hop => ?_
  simp only [hostOps1, List.mem_cons, List.mem_nil_iff, or_false] at hop
  rcases hop with rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_range hb (by decide))

/-- The stretch hostOps1_1 writes only references 20 to 42. -/
theorem keep1_1 (V : Valuation τ sig (Elt Ideal)) (b : Ref sig .tc) (hb : b.idx.val < 20 ∨ 42 < b.idx.val) :
    StableHlo.after (hostOps1_1 (F := Ideal)) V (Proc.devRef .tc b) = V (Proc.devRef .tc b) := by
  refine StableHlo.after_of_forall_not_mem _ _ fun op hop => ?_
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_range hb (by decide))

/-- The stretch hostOps1_2 writes only references 43 to 47. -/
theorem keep1_2 (V : Valuation τ sig (Elt Ideal)) (b : Ref sig .tc) (hb : b.idx.val < 43 ∨ 47 < b.idx.val) :
    StableHlo.after (hostOps1_2 (F := Ideal)) V (Proc.devRef .tc b) = V (Proc.devRef .tc b) := by
  refine StableHlo.after_of_forall_not_mem _ _ fun op hop => ?_
  simp only [hostOps1_2, List.mem_cons, List.mem_nil_iff, or_false] at hop
  rcases hop with rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_range hb (by decide))

/-- The stretch hostOps1_3 writes only references 48 to 69. -/
theorem keep1_3 (V : Valuation τ sig (Elt Ideal)) (b : Ref sig .tc) (hb : b.idx.val < 48 ∨ 69 < b.idx.val) :
    StableHlo.after (hostOps1_3 (F := Ideal)) V (Proc.devRef .tc b) = V (Proc.devRef .tc b) := by
  refine StableHlo.after_of_forall_not_mem _ _ fun op hop => ?_
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_range hb (by decide))

/-- The stretch hostOps1_4 writes only references 70 to 73. -/
theorem keep1_4 (V : Valuation τ sig (Elt Ideal)) (b : Ref sig .tc) (hb : b.idx.val < 70 ∨ 73 < b.idx.val) :
    StableHlo.after (hostOps1_4 (F := Ideal)) V (Proc.devRef .tc b) = V (Proc.devRef .tc b) := by
  refine StableHlo.after_of_forall_not_mem _ _ fun op hop => ?_
  simp only [hostOps1_4, List.mem_cons, List.mem_nil_iff, or_false] at hop
  rcases hop with rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_range hb (by decide))

/-- The stretch hostOps1_5 writes only references 74 to 96. -/
theorem keep1_5 (V : Valuation τ sig (Elt Ideal)) (b : Ref sig .tc) (hb : b.idx.val < 74 ∨ 96 < b.idx.val) :
    StableHlo.after (hostOps1_5 (F := Ideal)) V (Proc.devRef .tc b) = V (Proc.devRef .tc b) := by
  refine StableHlo.after_of_forall_not_mem _ _ fun op hop => ?_
  simp only [hostOps1_5, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_range hb (by decide))

/-- The stretch hostOps1_6 writes only references 97 to 98. -/
theorem keep1_6 (V : Valuation τ sig (Elt Ideal)) (b : Ref sig .tc) (hb : b.idx.val < 97 ∨ 98 < b.idx.val) :
    StableHlo.after (hostOps1_6 (F := Ideal)) V (Proc.devRef .tc b) = V (Proc.devRef .tc b) := by
  refine StableHlo.after_of_forall_not_mem _ _ fun op hop => ?_
  simp only [hostOps1_6, List.mem_cons, List.mem_nil_iff, or_false] at hop
  rcases hop with rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_range hb (by decide))

/-- The stretch hostOps1_7 writes only references 99 to 120. -/
theorem keep1_7 (V : Valuation τ sig (Elt Ideal)) (b : Ref sig .tc) (hb : b.idx.val < 99 ∨ 120 < b.idx.val) :
    StableHlo.after (hostOps1_7 (F := Ideal)) V (Proc.devRef .tc b) = V (Proc.devRef .tc b) := by
  refine StableHlo.after_of_forall_not_mem _ _ fun op hop => ?_
  simp only [hostOps1_7, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    exact StableHlo.devRef_ne_of_ne (ne_of_range hb (by decide))

/-! ## An indexed read (take) at an index

An index array is normalised (a negative index wraps by the vocabulary size), tested for naming a word, and used,
clamped, as a gather's start index; where the test fails the result is the NaN word, which reads −∞. -/

section Take
open Cert.LseSpec (wrap InRange pos)

/-- The NaN word reads −∞. -/
theorem ofBits_nan : Ideal.ofBits .f32 0x7FC00000#32 = ⊥ := by
  simp [Ideal.ofBits, Ideal.ieee]

theorem select_ofBool {β : Type} (t : Bool) (a b : β) : Scalar.select (BitVec.ofBool t) a b = if t then a else b := by
  cases t
  · exact select_zero a b
  · exact select_one a b

/-- The normalised index, at an index. -/
theorem wrap_read {R C : Nat} (h0 : (⟨0, ![]⟩ : Shape).BroadcastsInDim ⟨2, ![R, C]⟩ ![]) (idx : IVec ⟨2, ![R, C]⟩ 32)
    (i : (⟨2, ![R, C]⟩ : Shape).Idx) :
    select (cmpi .slt idx (broadcastInDim ⟨2, ![R, C]⟩ ![] h0 (constantI ⟨0, ![]⟩ 32 0#32)))
      (addi idx (broadcastInDim ⟨2, ![R, C]⟩ ![] h0 (constantI ⟨0, ![]⟩ 32 50000#32))) idx i = wrap (idx i) := by
  show Scalar.select (BitVec.ofBool ((idx i).slt 0#32)) ((idx i) + 50000#32) (idx i) = _
  rw [select_ofBool]; rfl

/-- The two range tests and the reduction's initial bit, as one word. -/
theorem mask_word (w : BitVec 32) :
    IntOp.andi (IntOp.andi (IntOp.cmpi .sge w 0#32) (IntOp.cmpi .sle w 49999#32)) 1#1
      = if 0 ≤ w.toInt ∧ w.toInt ≤ 49999 then 1#1 else 0#1 := by
  have z0 : (0#32 : BitVec 32).toInt = 0 := by decide
  have z1 : (49999#32 : BitVec 32).toInt = 49999 := by decide
  have e1 : IntOp.cmpi .sge w 0#32 = BitVec.ofBool (decide (0 ≤ w.toInt)) := by
    show BitVec.ofBool (decide ((0#32 : BitVec 32).toInt ≤ w.toInt)) = _
    rw [z0]
  have e2 : IntOp.cmpi .sle w 49999#32 = BitVec.ofBool (decide (w.toInt ≤ 49999)) := by
    show BitVec.ofBool (decide (w.toInt ≤ (49999#32 : BitVec 32).toInt)) = _
    rw [z1]
  rw [e1, e2]
  by_cases h1 : 0 ≤ w.toInt <;> by_cases h2 : w.toInt ≤ 49999 <;> simp [h1, h2, IntOp.andi]

/-- A [R, C] array broadcast along a new last axis reads, at (r, c, e), the array at (r, c). -/
theorem bcast_last {R C D : Nat} {β : Type} (h : (⟨2, ![R, C]⟩ : Shape).BroadcastsInDim ⟨3, ![R, C, D]⟩ ![0, 1])
    (x : (⟨2, ![R, C]⟩ : Shape).Idx → β) (r : Fin R) (c : Fin C) (e : Fin D) :
    broadcastInDim ⟨3, ![R, C, D]⟩ ![0, 1] h x (ix3 r c e) = x (ix2 r c) := by
  refine broadcastInDim_apply _ h x (ix3 r c e) (ix2 r c) fun a => ?_
  match a with
  | ⟨0, _⟩ =>
    show r.val = if R = 1 then 0 else r.val
    split
    · have := r.isLt; omega
    · rfl
  | ⟨1, _⟩ =>
    show c.val = if C = 1 then 0 else c.val
    split
    · have := c.isLt; omega
    · rfl

/-- An and-reduction over a unit last axis reads the one element and the initial bit. -/
theorem reduce_unit {R C : Nat} (h' : (⟨3, ![R, C, 1]⟩ : Shape).ReducesTo [2] ⟨2, ![R, C]⟩)
    (h : (⟨3, ![R, C, 1]⟩ : Shape).Reduces [2] ⟨2, ![R, C]⟩) {u : Shape} (hu : 0 < u.numel)
    (x : IVec ⟨3, ![R, C, 1]⟩ 1) (init : IVec u 1) (r : Fin R) (c : Fin C) :
    Host.reduce IntOp.andi x init h' hu (ix2 r c) = IntOp.andi (x (ix3 r c 0)) (init (Shape.Idx.first hu)) := by
  rw [Host.reduce_eq_fold_single IntOp.andi x init h' h hu (ix2 r c)]
  have key : ∀ (f : Fin 1 → BitVec 1) (b : BitVec 1),
      (Finset.univ : Finset (Fin 1)).fold IntOp.andi b f = IntOp.andi (f 0) b := by
    intro f b; rw [show (Finset.univ : Finset (Fin 1)) = {0} from rfl, Finset.fold_singleton]
  refine (key (x ∘ h.lift (ix2 r c)) _).trans ?_
  show IntOp.andi (x (h.lift (ix2 r c) (0 : Fin 1))) _ = _
  congr 2
  funext a
  refine Fin.ext ?_
  match a with
  | ⟨0, _⟩ => rfl
  | ⟨1, _⟩ => rfl
  | ⟨2, _⟩ => rfl

end Take

section Gather
variable {α : Type}

/-- The dimension numbers of a gather of whole ROWS of an [N, D] operand at an [R, C, 1] array of start indices. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The gather of rows read at (r, c, e): the operand's row at the start index idx[r, c, 0], read signed and clamped
    into [0, N − 1], at column e. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (e : Fin D) :
    Host.gather (rowsDims N D R C wf) x idx (ix3 r c e)
      = x (ix2 ⟨min (idx (ix3 r c 0)).toInt.toNat (N - 1), by omega⟩ e) := by
  unfold Host.gather
  congr 1
  funext a
  refine Fin.ext ?_
  show (rowsDims N D R C wf).start (ix3 r c e) idx a + (rowsDims N D R C wf).batchCoord (ix3 r c e) a
      + (rowsDims N D R C wf).offCoord (ix3 r c e) a = _
  rw [GatherDims.batchCoord_eq_zero _ _ _ List.not_mem_nil, Nat.add_zero]
  have ha : a = (0 : Fin 2) ∨ a = (1 : Fin 2) := by
    rcases a with ⟨v, hv⟩
    have hv2 : v < 2 := hv
    interval_cases v
    · left; rfl
    · right; rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowsDims N D R C wf).startIndexMap from List.mem_singleton.mpr rfl)]
    have hsi : (rowsDims N D R C wf).siIdx (ix3 r c e) ⟨List.idxOf (0 : Fin 2) (rowsDims N D R C wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl
  · have hnm : ¬ (1 : Fin 2) ∈ (rowsDims N D R C wf).startIndexMap := by
      show ¬ (1 : Fin 2) ∈ [(0 : Fin 2)]
      decide
    have hs : (rowsDims N D R C wf).start (ix3 r c e) idx (1 : Fin 2) = 0 := by
      unfold GatherDims.start
      rw [dif_neg hnm]
    rw [hs, Nat.zero_add]
    have hk : (1 : Fin 2) ∈ (rowsDims N D R C wf).sKept :=
      (GatherDims.mem_sKept _ _).mpr ⟨by show ¬ (1 : Fin 2) ∈ [(0 : Fin 2)]; decide, List.not_mem_nil⟩
    unfold GatherDims.offCoord
    rw [dif_pos hk]
    rfl

end Gather

section TakeRead
open Cert.LseSpec (wrap InRange pos)

/-- The mask of the indexed read at (r, c): the normalised index names a word. -/
theorem mask_read {R C : Nat} (hB : (⟨2, ![R, C]⟩ : Shape).BroadcastsInDim ⟨3, ![R, C, 1]⟩ ![0, 1])
    (hZ : (⟨0, ![]⟩ : Shape).BroadcastsInDim ⟨3, ![R, C, 1]⟩ ![])
    (hK : (⟨3, ![1, 1, 1]⟩ : Shape).BroadcastsInDim ⟨3, ![R, C, 1]⟩ ![0, 1, 2])
    (hK' : (⟨1, ![1]⟩ : Shape).BroadcastsInDim ⟨3, ![1, 1, 1]⟩ ![2])
    (hR' : (⟨3, ![R, C, 1]⟩ : Shape).ReducesTo [2] ⟨2, ![R, C]⟩) (hR : (⟨3, ![R, C, 1]⟩ : Shape).Reduces [2] ⟨2, ![R, C]⟩)
    (hu : 0 < (⟨0, ![]⟩ : Shape).numel) (wv : IVec ⟨2, ![R, C]⟩ 32) (r : Fin R) (c : Fin C) :
    Host.reduce IntOp.andi
        (andi (cmpi .sge (broadcastInDim ⟨3, ![R, C, 1]⟩ ![0, 1] hB wv) (broadcastInDim ⟨3, ![R, C, 1]⟩ ![] hZ (constantI ⟨0, ![]⟩ 32 0#32)))
          (cmpi .sle (broadcastInDim ⟨3, ![R, C, 1]⟩ ![0, 1] hB wv)
            (broadcastInDim ⟨3, ![R, C, 1]⟩ ![0, 1, 2] hK (broadcastInDim ⟨3, ![1, 1, 1]⟩ ![2] hK' (constantI ⟨1, ![1]⟩ 32 49999#32)))))
        (constantI ⟨0, ![]⟩ 1 1#1) hR' hu (ix2 r c)
      = if 0 ≤ (wv (ix2 r c)).toInt ∧ (wv (ix2 r c)).toInt ≤ 49999 then 1#1 else 0#1 := by
  rw [reduce_unit hR' hR hu]
  show IntOp.andi (IntOp.andi (IntOp.cmpi .sge (broadcastInDim ⟨3, ![R, C, 1]⟩ ![0, 1] hB wv (ix3 r c 0)) 0#32)
      (IntOp.cmpi .sle (broadcastInDim ⟨3, ![R, C, 1]⟩ ![0, 1] hB wv (ix3 r c 0)) 49999#32)) 1#1 = _
  rw [bcast_last hB wv r c 0, mask_word]

/-- The indexed read of a flat array at (r, c): the entry the normalised index names, or −∞ when it names none. -/
theorem take_bias_read {R C : Nat} (hB : (⟨2, ![R, C]⟩ : Shape).BroadcastsInDim ⟨3, ![R, C, 1]⟩ ![0, 1])
    (hZ : (⟨0, ![]⟩ : Shape).BroadcastsInDim ⟨3, ![R, C, 1]⟩ ![])
    (hK : (⟨3, ![1, 1, 1]⟩ : Shape).BroadcastsInDim ⟨3, ![R, C, 1]⟩ ![0, 1, 2])
    (hK' : (⟨1, ![1]⟩ : Shape).BroadcastsInDim ⟨3, ![1, 1, 1]⟩ ![2])
    (hR' : (⟨3, ![R, C, 1]⟩ : Shape).ReducesTo [2] ⟨2, ![R, C]⟩) (hR : (⟨3, ![R, C, 1]⟩ : Shape).Reduces [2] ⟨2, ![R, C]⟩)
    (hu : 0 < (⟨0, ![]⟩ : Shape).numel) (h0 : (⟨0, ![]⟩ : Shape).BroadcastsInDim ⟨2, ![R, C]⟩ ![])
    (wf : GatherDims.WF ⟨1, ![50000]⟩ ⟨3, ![R, C, 1]⟩ ⟨2, ![R, C]⟩ [] [0] [] [0] [] 2 ![1])
    (x : (⟨1, ![50000]⟩ : Shape).Idx → EReal) (idx wv : IVec ⟨2, ![R, C]⟩ 32) (hw : ∀ i, wv i = wrap (idx i))
    (r : Fin R) (c : Fin C) :
    select
        (Host.reduce IntOp.andi
          (andi (cmpi .sge (broadcastInDim ⟨3, ![R, C, 1]⟩ ![0, 1] hB wv) (broadcastInDim ⟨3, ![R, C, 1]⟩ ![] hZ (constantI ⟨0, ![]⟩ 32 0#32)))
            (cmpi .sle (broadcastInDim ⟨3, ![R, C, 1]⟩ ![0, 1] hB wv)
              (broadcastInDim ⟨3, ![R, C, 1]⟩ ![0, 1, 2] hK (broadcastInDim ⟨3, ![1, 1, 1]⟩ ![2] hK' (constantI ⟨1, ![1]⟩ 32 49999#32)))))
          (constantI ⟨0, ![]⟩ 1 1#1) hR' hu)
        (Host.gather (takeDims 50000 R C wf) x (broadcastInDim ⟨3, ![R, C, 1]⟩ ![0, 1] hB wv))
        (broadcastInDim ⟨2, ![R, C]⟩ ![] h0 (constant (F := Ideal) ⟨0, ![]⟩ .f32 0x7FC00000#32)) (ix2 r c)
      = if InRange (idx (ix2 r c)) then x (ix1 (pos (idx (ix2 r c)))) else ⊥ := by
  show Scalar.select (Host.reduce IntOp.andi _ _ hR' hu (ix2 r c))
      (Host.gather (takeDims 50000 R C wf) x (broadcastInDim ⟨3, ![R, C, 1]⟩ ![0, 1] hB wv) (ix2 r c)) (Ideal.ofBits .f32 0x7FC00000#32) = _
  rw [mask_read hB hZ hK hK' hR' hR hu wv r c, gather_take_apply (by decide) wf x _ (ix2 r c), ofBits_nan]
  have e : (broadcastInDim ⟨3, ![R, C, 1]⟩ ![0, 1] hB wv) (takeIdx (ix2 r c)) = wv (ix2 r c) := by
    have ht : takeIdx (ix2 r c) = ix3 r c (0 : Fin 1) := by
      funext a
      match a with
      | ⟨0, _⟩ => rfl
      | ⟨1, _⟩ => rfl
      | ⟨2, _⟩ => rfl
    rw [ht]; exact bcast_last hB wv r c 0
  by_cases h : InRange (idx (ix2 r c))
  · have h' : 0 ≤ (wv (ix2 r c)).toInt ∧ (wv (ix2 r c)).toInt ≤ 49999 := by rw [hw]; exact h
    rw [if_pos h', if_pos h, select_one]
    refine congrArg x (congrArg (ix1 (n := 50000)) (Fin.ext ?_))
    show min ((broadcastInDim ⟨3, ![R, C, 1]⟩ ![0, 1] hB wv) (takeIdx (ix2 r c))).toInt.toNat (50000 - 1)
        = min (wrap (idx (ix2 r c))).toInt.toNat 49999
    rw [e, hw]
  · have h' : ¬ (0 ≤ (wv (ix2 r c)).toInt ∧ (wv (ix2 r c)).toInt ≤ 49999) := by rw [hw]; exact h
    rw [if_neg h', if_neg h, select_zero]

/-- The indexed read of rows of a matrix at (r, c, e): the row the normalised index names at column e, or −∞. -/
theorem take_rows_read {R C : Nat} (hB : (⟨2, ![R, C]⟩ : Shape).BroadcastsInDim ⟨3, ![R, C, 1]⟩ ![0, 1])
    (hZ : (⟨0, ![]⟩ : Shape).BroadcastsInDim ⟨3, ![R, C, 1]⟩ ![])
    (hK : (⟨3, ![1, 1, 1]⟩ : Shape).BroadcastsInDim ⟨3, ![R, C, 1]⟩ ![0, 1, 2])
    (hK' : (⟨1, ![1]⟩ : Shape).BroadcastsInDim ⟨3, ![1, 1, 1]⟩ ![2])
    (hR' : (⟨3, ![R, C, 1]⟩ : Shape).ReducesTo [2] ⟨2, ![R, C]⟩) (hR : (⟨3, ![R, C, 1]⟩ : Shape).Reduces [2] ⟨2, ![R, C]⟩)
    (hu : 0 < (⟨0, ![]⟩ : Shape).numel) (h0 : (⟨0, ![]⟩ : Shape).BroadcastsInDim ⟨3, ![R, C, 256]⟩ ![])
    (hM : (⟨2, ![R, C]⟩ : Shape).BroadcastsInDim ⟨3, ![R, C, 256]⟩ ![0, 1])
    (wf : GatherDims.WF ⟨2, ![50000, 256]⟩ ⟨3, ![R, C, 1]⟩ ⟨3, ![R, C, 256]⟩ [2] [0] [] [0] [] 2 ![1, 256])
    (x : (⟨2, ![50000, 256]⟩ : Shape).Idx → EReal) (idx wv : IVec ⟨2, ![R, C]⟩ 32) (hw : ∀ i, wv i = wrap (idx i))
    (r : Fin R) (c : Fin C) (e : Fin 256) :
    select
        (broadcastInDim ⟨3, ![R, C, 256]⟩ ![0, 1] hM (Host.reduce IntOp.andi
          (andi (cmpi .sge (broadcastInDim ⟨3, ![R, C, 1]⟩ ![0, 1] hB wv) (broadcastInDim ⟨3, ![R, C, 1]⟩ ![] hZ (constantI ⟨0, ![]⟩ 32 0#32)))
            (cmpi .sle (broadcastInDim ⟨3, ![R, C, 1]⟩ ![0, 1] hB wv)
              (broadcastInDim ⟨3, ![R, C, 1]⟩ ![0, 1, 2] hK (broadcastInDim ⟨3, ![1, 1, 1]⟩ ![2] hK' (constantI ⟨1, ![1]⟩ 32 49999#32)))))
          (constantI ⟨0, ![]⟩ 1 1#1) hR' hu))
        (Host.gather (rowsDims 50000 256 R C wf) x (broadcastInDim ⟨3, ![R, C, 1]⟩ ![0, 1] hB wv))
        (broadcastInDim ⟨3, ![R, C, 256]⟩ ![] h0 (constant (F := Ideal) ⟨0, ![]⟩ .f32 0x7FC00000#32)) (ix3 r c e)
      = if InRange (idx (ix2 r c)) then x (ix2 (pos (idx (ix2 r c))) e) else ⊥ := by
  show Scalar.select (broadcastInDim ⟨3, ![R, C, 256]⟩ ![0, 1] hM (Host.reduce IntOp.andi _ _ hR' hu) (ix3 r c e))
      (Host.gather (rowsDims 50000 256 R C wf) x (broadcastInDim ⟨3, ![R, C, 1]⟩ ![0, 1] hB wv) (ix3 r c e)) (Ideal.ofBits .f32 0x7FC00000#32) = _
  rw [bcast_last hM _ r c e, mask_read hB hZ hK hK' hR' hR hu wv r c, gather_rows_apply (by decide) wf x _ r c e, ofBits_nan]
  have e1 : (broadcastInDim ⟨3, ![R, C, 1]⟩ ![0, 1] hB wv) (ix3 r c 0) = wv (ix2 r c) := bcast_last hB wv r c 0
  by_cases h : InRange (idx (ix2 r c))
  · have h' : 0 ≤ (wv (ix2 r c)).toInt ∧ (wv (ix2 r c)).toInt ≤ 49999 := by rw [hw]; exact h
    rw [if_pos h', if_pos h, select_one]
    refine congrArg x (congrArg (fun p : Fin 50000 => ix2 p e) (Fin.ext ?_))
    show min ((broadcastInDim ⟨3, ![R, C, 1]⟩ ![0, 1] hB wv) (ix3 r c 0)).toInt.toNat (50000 - 1)
        = min (wrap (idx (ix2 r c))).toInt.toNat 49999
    rw [e1, hw]
  · have h' : ¬ (0 ≤ (wv (ix2 r c)).toInt ∧ (wv (ix2 r c)).toInt ≤ 49999) := by rw [hw]; exact h
    rw [if_neg h', if_neg h, select_zero]

end TakeRead

/-! ## The stretches, one by one, from any contents -/

section Stages
open Cert.LseSpec

/-- The first region result, reshaped to [16, 64]. -/
theorem stage1_v6 (V : Valuation τ sig (Elt Ideal)) (b : Fin 16) (s : Fin 64) :
    StableHlo.after (hostOps1 (F := Ideal)) V (Proc.devRef .tc main_v6) (ix2 b s)
      = V (Proc.devRef .tc main_v4_0) (ix2 (⟨64 * b.val + s.val, by omega⟩ : Fin 1024) (0 : Fin 1)) := by
  after_results_simp
  refine (shapeCast_apply _ shapeCasts_S1024_S16x64 (ix2 b s) (ix1 (⟨64 * b.val + s.val, by omega⟩ : Fin 1024)) ?_).trans ?_
  · rw [Shape.rowMajor_val_one, Shape.rowMajor_val_two]
    show 64 * b.val + s.val = b.val * 64 + s.val
    omega
  refine shapeCast_apply _ shapeCasts_S1024x1_S1024 _ (ix2 (⟨64 * b.val + s.val, by omega⟩ : Fin 1024) (0 : Fin 1)) ?_
  rw [Shape.rowMajor_val_two, Shape.rowMajor_val_one]
  show (64 * b.val + s.val) * 1 + 0 = 64 * b.val + s.val
  omega

/-- The second region result, reshaped to [16, 64]. -/
theorem stage1_v8 (V : Valuation τ sig (Elt Ideal)) (b : Fin 16) (s : Fin 64) :
    StableHlo.after (hostOps1 (F := Ideal)) V (Proc.devRef .tc main_v8) (ix2 b s)
      = V (Proc.devRef .tc main_v4_1) (ix2 (⟨64 * b.val + s.val, by omega⟩ : Fin 1024) (0 : Fin 1)) := by
  after_results_simp
  refine (shapeCast_apply _ shapeCasts_S1024_S16x64 (ix2 b s) (ix1 (⟨64 * b.val + s.val, by omega⟩ : Fin 1024)) ?_).trans ?_
  · rw [Shape.rowMajor_val_one, Shape.rowMajor_val_two]
    show 64 * b.val + s.val = b.val * 64 + s.val
    omega
  refine shapeCast_apply _ shapeCasts_S1024x1_S1024 _ (ix2 (⟨64 * b.val + s.val, by omega⟩ : Fin 1024) (0 : Fin 1)) ?_
  rw [Shape.rowMajor_val_two, Shape.rowMajor_val_one]
  show (64 * b.val + s.val) * 1 + 0 = 64 * b.val + s.val
  omega

/-- The latent through the two format changes: itself. -/
theorem stage1_v10 (V : Valuation τ sig (Elt Ideal)) :
    StableHlo.after (hostOps1 (F := Ideal)) V (Proc.devRef .tc main_v10) = V (Proc.devRef .tc main_v0) := by
  after_results_simp
  rfl

/-- The English head's gathered rows. -/
theorem stage1_1 (V : Valuation τ sig (Elt Ideal)) (eng : Seng.Idx → BitVec 32) (We : Sw.Idx → EReal)
    (h2 : V (Proc.devRef .tc main_arg2) = eng) (h4 : V (Proc.devRef .tc main_arg4) = We) (b : Fin 16) (s : Fin 64) (d : Fin 256) :
    StableHlo.after (hostOps1_1 (F := Ideal)) V (Proc.devRef .tc main_v11) (ix3 b s d)
      = if InRange (eng (ix2 b s)) then We (ix2 (pos (eng (ix2 b s))) d) else ⊥ := by
  subst h2 h4
  after_results_simp
  simp only [cast_eq]
  exact take_rows_read (R := 16) (C := 64) bcast_S16x64_S16x64x1_0_1 bcast_S_S16x64x1 bcast_S1x1x1_S16x64x1_0_1_2 bcast_S1_S1x1x1_2
    reducesTo_S16x64x1_S16x64_d2 (by decide) h_S_ bcast_S_S16x64x256 bcast_S16x64_S16x64x256_0_1
    gather_S50000x256_S16x64x1_S16x64x256_2_0_n_n_0_2_1256_wf (V (Proc.devRef .tc main_arg4)) (V (Proc.devRef .tc main_arg2)) _
    (fun i => wrap_read bcast_S_S16x64 (V (Proc.devRef .tc main_arg2)) i) b s d

/-- The English head's gathered bias. -/
theorem stage1_3 (V : Valuation τ sig (Elt Ideal)) (eng : Seng.Idx → BitVec 32) (be : Sb.Idx → EReal)
    (h2 : V (Proc.devRef .tc main_arg2) = eng) (h5 : V (Proc.devRef .tc main_arg5) = be) (b : Fin 16) (s : Fin 64) :
    StableHlo.after (hostOps1_3 (F := Ideal)) V (Proc.devRef .tc main_v16) (ix2 b s)
      = if InRange (eng (ix2 b s)) then be (ix1 (pos (eng (ix2 b s)))) else ⊥ := by
  subst h2 h5
  after_results_simp
  simp only [cast_eq]
  exact take_bias_read (R := 16) (C := 64) bcast_S16x64_S16x64x1_0_1 bcast_S_S16x64x1 bcast_S1x1x1_S16x64x1_0_1_2 bcast_S1_S1x1x1_2
    reducesTo_S16x64x1_S16x64_d2 (by decide) h_S_ bcast_S_S16x64
    gather_S50000_S16x64x1_S16x64_n_0_n_n_0_2_1_wf (V (Proc.devRef .tc main_arg5)) (V (Proc.devRef .tc main_arg2)) _
    (fun i => wrap_read bcast_S_S16x64 (V (Proc.devRef .tc main_arg2)) i) b s

/-- The French head's gathered rows. -/
theorem stage1_5 (V : Valuation τ sig (Elt Ideal)) (fr : Sfr.Idx → BitVec 32) (Wf : Sw.Idx → EReal)
    (h3 : V (Proc.devRef .tc main_arg3) = fr) (h6 : V (Proc.devRef .tc main_arg6) = Wf) (b : Fin 16) (f : Fin 48) (d : Fin 256) :
    StableHlo.after (hostOps1_5 (F := Ideal)) V (Proc.devRef .tc main_v20) (ix3 b f d)
      = if InRange (fr (ix2 b f)) then Wf (ix2 (pos (fr (ix2 b f))) d) else ⊥ := by
  subst h3 h6
  after_results_simp
  simp only [cast_eq]
  exact take_rows_read (R := 16) (C := 48) bcast_S16x48_S16x48x1_0_1 bcast_S_S16x48x1 bcast_S1x1x1_S16x48x1_0_1_2 bcast_S1_S1x1x1_2
    reducesTo_S16x48x1_S16x48_d2 (by decide) h_S_ bcast_S_S16x48x256 bcast_S16x48_S16x48x256_0_1
    gather_S50000x256_S16x48x1_S16x48x256_2_0_n_n_0_2_1256_wf (V (Proc.devRef .tc main_arg6)) (V (Proc.devRef .tc main_arg3)) _
    (fun i => wrap_read bcast_S_S16x48 (V (Proc.devRef .tc main_arg3)) i) b f d

/-- The French head's gathered bias. -/
theorem stage1_7 (V : Valuation τ sig (Elt Ideal)) (fr : Sfr.Idx → BitVec 32) (bf : Sb.Idx → EReal)
    (h3 : V (Proc.devRef .tc main_arg3) = fr) (h7 : V (Proc.devRef .tc main_arg7) = bf) (b : Fin 16) (f : Fin 48) :
    StableHlo.after (hostOps1_7 (F := Ideal)) V (Proc.devRef .tc main_v23) (ix2 b f)
      = if InRange (fr (ix2 b f)) then bf (ix1 (pos (fr (ix2 b f)))) else ⊥ := by
  subst h3 h7
  after_results_simp
  simp only [cast_eq]
  exact take_bias_read (R := 16) (C := 48) bcast_S16x48_S16x48x1_0_1 bcast_S_S16x48x1 bcast_S1x1x1_S16x48x1_0_1_2 bcast_S1_S1x1x1_2
    reducesTo_S16x48x1_S16x48_d2 (by decide) h_S_ bcast_S_S16x48
    gather_S50000_S16x48x1_S16x48_n_0_n_n_0_2_1_wf (V (Proc.devRef .tc main_arg7)) (V (Proc.devRef .tc main_arg3)) _
    (fun i => wrap_read bcast_S_S16x48 (V (Proc.devRef .tc main_arg3)) i) b f

end Stages

section Stages2
open Cert.LseSpec

/-- The English logit's sum over the latent coordinate. -/
theorem stage1_2 (V : Valuation τ sig (Elt Ideal)) (z rows : Slat.Idx → EReal)
    (h10 : V (Proc.devRef .tc main_v10) = z) (h11 : V (Proc.devRef .tc main_v11) = rows) (b : Fin 16) (s : Fin 64) :
    StableHlo.after (hostOps1_2 (F := Ideal)) V (Proc.devRef .tc main_v15) (ix2 b s)
      = 0 + ∑ d : Fin 256, z (ix3 b s d) * rows (ix3 b s d) := by
  subst h10 h11
  after_results_simp
  have hR : S16x64x256.Reduces [2] S16x64 := by decide
  have hl : ∀ d : Fin 256, hR.lift (ix2 b s) d = ix3 b s d := fun d => by
    funext a; refine Fin.ext ?_
    match a with
    | ⟨0, _⟩ => rfl
    | ⟨1, _⟩ => rfl
    | ⟨2, _⟩ => rfl
  rw [hostReduceAdd_apply]
  refine (Ideal.hostReduceAdd_single reducesTo_S16x64x256_S16x64_d2 hR _ _ (ix2 b s)).trans ?_
  show Ideal.ofBits .f32 0x00000000#32 + ∑ d : Fin 256, (mulf (V (Proc.devRef .tc main_v10))
      (extf .f32 (truncf .bf16 (V (Proc.devRef .tc main_v11)) bitsLt_bf16_f32) bitsLt_bf16_f32)) (hR.lift (ix2 b s) d) = _
  rw [Ideal.ofBits_zero_f32]
  refine congrArg (0 + ·) (Finset.sum_congr rfl fun d _ => ?_)
  rw [hl d]; rfl

/-- The English term: the sum over the rows of logit + bias − log-sum-exp. -/
theorem stage1_4 (V : Valuation τ sig (Elt Ideal)) (a15 a16 a6 : Seng.Idx → EReal)
    (h15 : V (Proc.devRef .tc main_v15) = a15) (h16 : V (Proc.devRef .tc main_v16) = a16) (h6 : V (Proc.devRef .tc main_v6) = a6) :
    StableHlo.after (hostOps1_4 (F := Ideal)) V (Proc.devRef .tc main_v19)
      = fun _ => 0 + ∑ i : Seng.Idx, ((a15 i + a16 i) - a6 i) := by
  subst h15 h16 h6
  after_results_simp
  funext j
  rw [hostReduceAdd_apply, Ideal.hostReduceAdd_total _ (fun b => b.elim0)]
  show Ideal.ofBits .f32 0x00000000#32 + _ = _
  rw [Ideal.ofBits_zero_f32]
  rfl

/-- The French rows through the two format changes: themselves. -/
theorem stage1_6 (V : Valuation τ sig (Elt Ideal)) :
    StableHlo.after (hostOps1_6 (F := Ideal)) V (Proc.devRef .tc main_v22) = V (Proc.devRef .tc main_v20) := by
  after_results_simp
  rfl

/-- The batched product of the latent rows with the gathered French rows, at (b, s, f). -/
theorem dot_read (l : FVec Ideal S16x64x256 .f32) (r : FVec Ideal S16x48x256 .f32) (b : Fin 16) (s : Fin 64) (f : Fin 48) :
    Host.dotGeneral (F := Ideal) dot_S16x64x256_S16x48x256_S16x64x48_2_2_1_1_0_0 none l r (ix3 b s f)
      = ∑ d : Fin 256, l (ix3 b s d) * r (ix3 b f d) := by
  show FloatOps.dotGeneral dot_S16x64x256_S16x48x256_S16x64x48_2_2_1_1_0_0 none .single l r (ix3 b s f) = _
  rw [Ideal.dotGeneral_apply, ← Equiv.sum_comp (contrEquiv1 dot_S16x64x256_S16x48x256_S16x64x48_2_2_1_1_0_0 256 rfl rfl).symm]
  refine Finset.sum_congr rfl fun c _ => ?_
  have c2 := contrEquiv1_symm_val dot_S16x64x256_S16x48x256_S16x64x48_2_2_1_1_0_0 256 rfl rfl c
  have l2 : dot_S16x64x256_S16x48x256_S16x64x48_2_2_1_1_0_0.lhsIdx (ix3 b s f) ((contrEquiv1 _ 256 rfl rfl).symm c) = ix3 b s c := by
    funext ax; apply Fin.ext
    match ax with
    | ⟨0, _⟩ => simp [DotDims.lhsIdx, dot_S16x64x256_S16x48x256_S16x64x48_2_2_1_1_0_0]; rfl
    | ⟨1, _⟩ => simp [DotDims.lhsIdx, dot_S16x64x256_S16x48x256_S16x64x48_2_2_1_1_0_0]; rfl
    | ⟨2, _⟩ => simp [DotDims.lhsIdx, dot_S16x64x256_S16x48x256_S16x64x48_2_2_1_1_0_0]; exact c2
  have r2 : dot_S16x64x256_S16x48x256_S16x64x48_2_2_1_1_0_0.rhsIdx (ix3 b s f) ((contrEquiv1 _ 256 rfl rfl).symm c) = ix3 b f c := by
    funext ax; apply Fin.ext
    match ax with
    | ⟨0, _⟩ => simp [DotDims.rhsIdx, dot_S16x64x256_S16x48x256_S16x64x48_2_2_1_1_0_0]; rfl
    | ⟨1, _⟩ => simp [DotDims.rhsIdx, dot_S16x64x256_S16x48x256_S16x64x48_2_2_1_1_0_0]; rfl
    | ⟨2, _⟩ => simp [DotDims.rhsIdx, dot_S16x64x256_S16x48x256_S16x64x48_2_2_1_1_0_0]; exact c2
  rw [l2, r2]

end Stages2

section Stages3
open Cert.LseSpec

/-- The word 0x42800000 is the number 64. -/
theorem ofBits_64 : Ideal.ofBits .f32 0x42800000#32 = ((64 : ℝ) : EReal) := by
  simp [Ideal.ofBits, Ideal.ieee]
  rw [← EReal.coe_mul]
  norm_num

/-- A [16, 48] array broadcast over the rows of each batch reads, at (b, s, f), the array at (b, f). -/
theorem bcast_bf (h1 : S16x1x48.BroadcastsInDim S16x64x48 ![0, 1, 2]) (h2 : S16x48.BroadcastsInDim S16x1x48 ![0, 2])
    (x : S16x48.Idx → EReal) (b : Fin 16) (s : Fin 64) (f : Fin 48) :
    broadcastInDim S16x64x48 ![0, 1, 2] h1 (broadcastInDim S16x1x48 ![0, 2] h2 x) (ix3 b s f) = x (ix2 b f) := by
  refine (broadcastInDim_apply _ h1 _ (ix3 b s f) (ix3 b (0 : Fin 1) f) fun a => ?_).trans ?_
  · match a with
    | ⟨0, _⟩ => rfl
    | ⟨1, _⟩ => rfl
    | ⟨2, _⟩ => rfl
  refine broadcastInDim_apply _ h2 x (ix3 b (0 : Fin 1) f) (ix2 b f) fun a => ?_
  match a with
  | ⟨0, _⟩ => rfl
  | ⟨1, _⟩ => rfl

/-- A [16, 64] array broadcast over the target positions reads, at (b, s, f), the array at (b, s). -/
theorem bcast_bs (h1 : S16x64x1.BroadcastsInDim S16x64x48 ![0, 1, 2]) (h2 : S16x64.BroadcastsInDim S16x64x1 ![0, 1])
    (x : S16x64.Idx → EReal) (b : Fin 16) (s : Fin 64) (f : Fin 48) :
    broadcastInDim S16x64x48 ![0, 1, 2] h1 (broadcastInDim S16x64x1 ![0, 1] h2 x) (ix3 b s f) = x (ix2 b s) := by
  refine (broadcastInDim_apply _ h1 _ (ix3 b s f) (ix3 b s (0 : Fin 1)) fun a => ?_).trans (bcast_last h2 x b s 0)
  match a with
  | ⟨0, _⟩ => rfl
  | ⟨1, _⟩ => rfl
  | ⟨2, _⟩ => rfl

end Stages3

section Stages4
open Cert.LseSpec

/-- One French entry: the log of the mean, over the rows of the batch, of exp(logit − log-sum-exp). -/
theorem inner_read (v10 : FVec Ideal S16x64x256 .f32) (v22 : FVec Ideal S16x48x256 .f32) (v23 : FVec Ideal S16x48 .f32)
    (v8 : FVec Ideal S16x64 .f32) (b : Fin 16) (f : Fin 48) :
    Host.log (Host.divf
        (Host.reduceAdd
          (Host.exp (subf (addf (Host.dotGeneral dot_S16x64x256_S16x48x256_S16x64x48_2_2_1_1_0_0 none v10 v22)
              (broadcastInDim S16x64x48 ![0, 1, 2] bcast_S16x1x48_S16x64x48_0_1_2
                (broadcastInDim S16x1x48 ![0, 2] bcast_S16x48_S16x1x48_0_2 v23)))
            (broadcastInDim S16x64x48 ![0, 1, 2] bcast_S16x64x1_S16x64x48_0_1_2
              (broadcastInDim S16x64x1 ![0, 1] bcast_S16x64_S16x64x1_0_1 v8))))
          (constant S_ .f32 0x00000000#32) reducesTo_S16x64x48_S16x48_d1 h_S_)
        (broadcastInDim S16x48 ![] bcast_S_S16x48 (constant S_ .f32 0x42800000#32))) (ix2 b f)
      = Ideal.log (Ideal.div
          (0 + ∑ s : Fin 64, Ideal.exp (((∑ d : Fin 256, v10 (ix3 b s d) * v22 (ix3 b f d)) + v23 (ix2 b f)) - v8 (ix2 b s)))
          (Ideal.ofBits .f32 0x42800000#32)) := by
  have hR : S16x64x48.Reduces [1] S16x48 := by decide
  have hl : ∀ s : Fin 64, hR.lift (ix2 b f) s = ix3 b s f := fun s => by
    funext a; refine Fin.ext ?_
    match a with
    | ⟨0, _⟩ => rfl
    | ⟨1, _⟩ => rfl
    | ⟨2, _⟩ => rfl
  have key : ∀ s : Fin 64,
      (Host.exp (subf (addf (Host.dotGeneral dot_S16x64x256_S16x48x256_S16x64x48_2_2_1_1_0_0 none v10 v22)
              (broadcastInDim S16x64x48 ![0, 1, 2] bcast_S16x1x48_S16x64x48_0_1_2
                (broadcastInDim S16x1x48 ![0, 2] bcast_S16x48_S16x1x48_0_2 v23)))
            (broadcastInDim S16x64x48 ![0, 1, 2] bcast_S16x64x1_S16x64x48_0_1_2
              (broadcastInDim S16x64x1 ![0, 1] bcast_S16x64_S16x64x1_0_1 v8)))) (hR.lift (ix2 b f) s)
        = Ideal.exp (((∑ d : Fin 256, v10 (ix3 b s d) * v22 (ix3 b f d)) + v23 (ix2 b f)) - v8 (ix2 b s)) := fun s => by
    rw [hl s]
    show Ideal.exp ((Host.dotGeneral dot_S16x64x256_S16x48x256_S16x64x48_2_2_1_1_0_0 none v10 v22 (ix3 b s f)
        + broadcastInDim S16x64x48 ![0, 1, 2] bcast_S16x1x48_S16x64x48_0_1_2
            (broadcastInDim S16x1x48 ![0, 2] bcast_S16x48_S16x1x48_0_2 v23) (ix3 b s f))
        - broadcastInDim S16x64x48 ![0, 1, 2] bcast_S16x64x1_S16x64x48_0_1_2
            (broadcastInDim S16x64x1 ![0, 1] bcast_S16x64_S16x64x1_0_1 v8) (ix3 b s f)) = _
    rw [dot_read, bcast_bf, bcast_bs]
  refine congrArg (fun t => Ideal.log (Ideal.div t (Ideal.ofBits .f32 0x42800000#32))) ?_
  rw [hostReduceAdd_apply]
  refine (Ideal.hostReduceAdd_single reducesTo_S16x64x48_S16x48_d1 hR _ _ (ix2 b f)).trans ?_
  exact congrArg₂ (· + ·) Ideal.ofBits_zero_f32 (Finset.sum_congr rfl fun s _ => key s)

/-- The French term, and the first result: the English term plus the French term. -/
theorem stage1_8_v37 (V : Valuation τ sig (Elt Ideal)) (a19 : S_.Idx → EReal) (v10 : Slat.Idx → EReal)
    (v22 : S16x48x256.Idx → EReal) (v23 : Sfr.Idx → EReal) (v8 : Seng.Idx → EReal)
    (h19 : V (Proc.devRef .tc main_v19) = a19) (h10 : V (Proc.devRef .tc main_v10) = v10)
    (h22 : V (Proc.devRef .tc main_v22) = v22) (h23 : V (Proc.devRef .tc main_v23) = v23) (h8 : V (Proc.devRef .tc main_v8) = v8) :
    StableHlo.after (hostOps1_8 (F := Ideal)) V (Proc.devRef .tc main_v37)
      = fun _ => a19 ix0 + (0 + ∑ j : Sfr.Idx, Ideal.log (Ideal.div
          (0 + ∑ s : Fin 64, Ideal.exp (((∑ d : Fin 256, v10 (ix3 (j 0) s d) * v22 (ix3 (j 0) (j 1) d)) + v23 (ix2 (j 0) (j 1))) - v8 (ix2 (j 0) s)))
          (Ideal.ofBits .f32 0x42800000#32))) := by
  subst h19 h10 h22 h23 h8
  after_results_simp
  funext j0
  refine congrArg₂ (· + ·) (congrArg _ (eq_ix0 j0)) ?_
  rw [hostReduceAdd_apply, Ideal.hostReduceAdd_total _ (fun b => b.elim0)]
  refine congrArg₂ (· + ·) Ideal.ofBits_zero_f32 (Finset.sum_congr rfl fun j _ => ?_)
  obtain ⟨b, f, rfl⟩ : ∃ (b : Fin 16) (f : Fin 48), j = ix2 b f := ⟨j 0, j 1, eq_ix2 j⟩
  exact inner_read _ _ _ _ b f

end Stages4

section Entries
open Cert.LseSpec

/-- One English entry: logit + bias − log-sum-exp is the target word's log-probability, −∞ when the index names no word. -/
theorem eng_entry (mu sg : Slat.Idx → EReal) (eng : Seng.Idx → BitVec 32) (We : Sw.Idx → EReal) (be : Sb.Idx → EReal)
    (b : Fin 16) (s : Fin 64) (x15 x16 x6 : EReal)
    (h15 : x15 = 0 + ∑ d : Fin 256, (mu (ix3 b s d) + sg (ix3 b s d))
        * (if InRange (eng (ix2 b s)) then We (ix2 (pos (eng (ix2 b s))) d) else ⊥))
    (h16 : x16 = if InRange (eng (ix2 b s)) then be (ix1 (pos (eng (ix2 b s)))) else ⊥)
    (h6 : x6 = lse mu sg We be b s) :
    (x15 + x16) - x6 = logProbE mu sg eng We be b s := by
  subst h15 h16 h6
  unfold logProbE
  by_cases h : InRange (eng (ix2 b s))
  · simp only [if_pos h]
    rw [zero_add]
    rfl
  · simp only [if_neg h]
    rw [EReal.add_bot, sub_eq_add_neg, EReal.bot_add]

/-- One French entry: the log of the mean target-word probability, −∞ when the index names no word. -/
theorem fr_entry (mu sg : Slat.Idx → EReal) (fr : Sfr.Idx → BitVec 32) (Wf : Sw.Idx → EReal) (bf : Sb.Idx → EReal)
    (b : Fin 16) (f : Fin 48) (rows : Fin 256 → EReal) (bias : EReal) (l8 : Fin 64 → EReal)
    (hrows : ∀ d, rows d = if InRange (fr (ix2 b f)) then Wf (ix2 (pos (fr (ix2 b f))) d) else ⊥)
    (hbias : bias = if InRange (fr (ix2 b f)) then bf (ix1 (pos (fr (ix2 b f)))) else ⊥)
    (h8 : ∀ s, l8 s = lse mu sg Wf bf b s) :
    Ideal.log (Ideal.div
        (0 + ∑ s : Fin 64, Ideal.exp (((∑ d : Fin 256, (mu (ix3 b s d) + sg (ix3 b s d)) * rows d) + bias) - l8 s))
        (Ideal.ofBits .f32 0x42800000#32))
      = logMeanF mu sg fr Wf bf b f := by
  unfold logMeanF
  by_cases h : InRange (fr (ix2 b f))
  · rw [if_pos h]
    refine congrArg (fun t => Ideal.log (Ideal.div (0 + t) (Ideal.ofBits .f32 0x42800000#32))) (Finset.sum_congr rfl fun s _ => ?_)
    rw [hbias, if_pos h, h8 s]
    refine congrArg (fun t => Ideal.exp ((t + bf (ix1 (pos (fr (ix2 b f))))) - lse mu sg Wf bf b s)) (Finset.sum_congr rfl fun d _ => ?_)
    rw [hrows d, if_pos h]
    rfl
  · rw [if_neg h]
    have hs : ∀ s : Fin 64,
        Ideal.exp (((∑ d : Fin 256, (mu (ix3 b s d) + sg (ix3 b s d)) * rows d) + bias) - l8 s) = 0 := fun s => by
      rw [hbias, if_neg h, EReal.add_bot, sub_eq_add_neg, EReal.bot_add, Ideal.exp_bot]
    rw [Finset.sum_congr rfl fun s _ => hs s, Finset.sum_const_zero, add_zero, ofBits_64]
    show Ideal.log (Ideal.div ((0 : ℝ) : EReal) ((64 : ℝ) : EReal)) = ⊥
    rw [Ideal.div_coe (by norm_num : (64 : ℝ) ≠ 0), ← EReal.coe_mul, Ideal.log_coe, if_pos (by norm_num)]

end Entries

/-! ## The nine stretches together -/

section Final
open Cert.LseSpec

/-- The KL sum, from the two latent arguments. -/
theorem kl_stage (V : Valuation τ sig (Elt Ideal)) (mu sg : Slat.Idx → EReal)
    (h0 : V (Proc.devRef .tc main_arg0) = mu) (h1 : V (Proc.devRef .tc main_arg1) = sg) :
    StableHlo.after (hostOps1_8 (F := Ideal)) V (Proc.devRef .tc main_v48) = fun _ => kl mu sg := by
  subst h0 h1
  after_results_simp
  funext j
  rw [hostReduceAdd_apply, Ideal.hostReduceAdd_total _ (fun b => b.elim0)]
  show Ideal.ofBits .f32 0x00000000#32 + _ = _
  rw [Ideal.ofBits_zero_f32]
  rfl

theorem tail_flatten : (tail (F := Ideal)).flatten
    = hostOps1 ++ (hostOps1_1 ++ (hostOps1_2 ++ (hostOps1_3 ++ (hostOps1_4 ++ (hostOps1_5 ++ (hostOps1_6 ++ (hostOps1_7 ++ (hostOps1_8 ++ [])))))))) := rfl

/-- The nine stretches run one after the other. -/
theorem after_tail (W : Valuation τ sig (Elt Ideal)) :
    StableHlo.after (tail (F := Ideal)).flatten W
      = StableHlo.after hostOps1_8 (StableHlo.after hostOps1_7 (StableHlo.after hostOps1_6 (StableHlo.after hostOps1_5
          (StableHlo.after hostOps1_4 (StableHlo.after hostOps1_3 (StableHlo.after hostOps1_2 (StableHlo.after hostOps1_1
            (StableHlo.after hostOps1 W)))))))) := by
  rw [tail_flatten]
  simp only [StableHlo.after_append, StableHlo.after_nil]

/-- The eight arguments' contents. -/
structure Args (V : Valuation τ sig (Elt Ideal)) (mu sg : Slat.Idx → EReal) (eng : Seng.Idx → BitVec 32)
    (fr : Sfr.Idx → BitVec 32) (We Wf : Sw.Idx → EReal) (be bf : Sb.Idx → EReal) : Prop where
  a0 : V (Proc.devRef .tc main_arg0) = mu
  a1 : V (Proc.devRef .tc main_arg1) = sg
  a2 : V (Proc.devRef .tc main_arg2) = eng
  a3 : V (Proc.devRef .tc main_arg3) = fr
  a4 : V (Proc.devRef .tc main_arg4) = We
  a5 : V (Proc.devRef .tc main_arg5) = be
  a6 : V (Proc.devRef .tc main_arg6) = Wf
  a7 : V (Proc.devRef .tc main_arg7) = bf

theorem Args.keep {V V' : Valuation τ sig (Elt Ideal)} {mu sg : Slat.Idx → EReal} {eng : Seng.Idx → BitVec 32}
    {fr : Sfr.Idx → BitVec 32} {We Wf : Sw.Idx → EReal} {be bf : Sb.Idx → EReal}
    (h : Args V mu sg eng fr We Wf be bf)
    (hk : ∀ b : Ref sig .tc, b.idx.val < 14 → V' (Proc.devRef .tc b) = V (Proc.devRef .tc b)) :
    Args V' mu sg eng fr We Wf be bf :=
  ⟨(hk main_arg0 (by decide)).trans h.a0, (hk main_arg1 (by decide)).trans h.a1, (hk main_arg2 (by decide)).trans h.a2,
   (hk main_arg3 (by decide)).trans h.a3, (hk main_arg4 (by decide)).trans h.a4, (hk main_arg5 (by decide)).trans h.a5,
   (hk main_arg6 (by decide)).trans h.a6, (hk main_arg7 (by decide)).trans h.a7⟩

/-- THE HOST OPERATIONS AFTER THE REGION COMPUTE THE SPECIFICATION. -/
theorem tail_results (W : Valuation τ sig (Elt Ideal))
    (mu sg : Slat.Idx → EReal) (eng : Seng.Idx → BitVec 32) (fr : Sfr.Idx → BitVec 32)
    (We Wf : Sw.Idx → EReal) (be bf : Sb.Idx → EReal)
    (h0 : W (Proc.devRef .tc main_arg0) = mu) (h1 : W (Proc.devRef .tc main_arg1) = sg)
    (h2 : W (Proc.devRef .tc main_arg2) = eng) (h3 : W (Proc.devRef .tc main_arg3) = fr)
    (h4 : W (Proc.devRef .tc main_arg4) = We) (h5 : W (Proc.devRef .tc main_arg5) = be)
    (h6 : W (Proc.devRef .tc main_arg6) = Wf) (h7 : W (Proc.devRef .tc main_arg7) = bf)
    (hz : W (Proc.devRef .tc main_v0) = addf (F := Ideal) (s := S16x64x256) (φ := .f32) mu sg)
    (hE : ∀ (b : Fin 16) (s : Fin 64),
      (W (Proc.devRef .tc main_v4_0) : S1024x1.Idx → EReal) (ix2 (⟨64 * b.val + s.val, by omega⟩ : Fin 1024) (0 : Fin 1))
        = lse mu sg We be b s)
    (hF : ∀ (b : Fin 16) (s : Fin 64),
      (W (Proc.devRef .tc main_v4_1) : S1024x1.Idx → EReal) (ix2 (⟨64 * b.val + s.val, by omega⟩ : Fin 1024) (0 : Fin 1))
        = lse mu sg Wf bf b s)
    (hfin : Finite mu sg We be Wf bf) :
    StableHlo.after (tail (F := Ideal)).flatten W (Proc.devRef .tc main_v37)
        = (fun _ => likelihood mu sg eng fr We be Wf bf)
      ∧ StableHlo.after (tail (F := Ideal)).flatten W (Proc.devRef .tc main_v48) = (fun _ => kl mu sg) := by
  have A0 : Args W mu sg eng fr We Wf be bf := ⟨h0, h1, h2, h3, h4, h5, h6, h7⟩
  rw [after_tail]
  obtain ⟨W1, e1⟩ : ∃ W1, W1 = StableHlo.after (hostOps1 (F := Ideal)) W := ⟨_, rfl⟩
  obtain ⟨W2, e2⟩ : ∃ W2, W2 = StableHlo.after (hostOps1_1 (F := Ideal)) W1 := ⟨_, rfl⟩
  obtain ⟨W3, e3⟩ : ∃ W3, W3 = StableHlo.after (hostOps1_2 (F := Ideal)) W2 := ⟨_, rfl⟩
  obtain ⟨W4, e4⟩ : ∃ W4, W4 = StableHlo.after (hostOps1_3 (F := Ideal)) W3 := ⟨_, rfl⟩
  obtain ⟨W5, e5⟩ : ∃ W5, W5 = StableHlo.after (hostOps1_4 (F := Ideal)) W4 := ⟨_, rfl⟩
  obtain ⟨W6, e6⟩ : ∃ W6, W6 = StableHlo.after (hostOps1_5 (F := Ideal)) W5 := ⟨_, rfl⟩
  obtain ⟨W7, e7⟩ : ∃ W7, W7 = StableHlo.after (hostOps1_6 (F := Ideal)) W6 := ⟨_, rfl⟩
  obtain ⟨W8, e8⟩ : ∃ W8, W8 = StableHlo.after (hostOps1_7 (F := Ideal)) W7 := ⟨_, rfl⟩
  rw [← e1, ← e2, ← e3, ← e4, ← e5, ← e6, ← e7, ← e8]
  -- the arguments, through the stretches
  have A1 : Args W1 mu sg eng fr We Wf be bf := A0.keep fun b hb => by rw [e1]; exact keep1 W b (Or.inl hb)
  have A2 : Args W2 mu sg eng fr We Wf be bf := A1.keep fun b hb => by rw [e2]; exact keep1_1 W1 b (Or.inl (by omega))
  have A3 : Args W3 mu sg eng fr We Wf be bf := A2.keep fun b hb => by rw [e3]; exact keep1_2 W2 b (Or.inl (by omega))
  have A4 : Args W4 mu sg eng fr We Wf be bf := A3.keep fun b hb => by rw [e4]; exact keep1_3 W3 b (Or.inl (by omega))
  have A5 : Args W5 mu sg eng fr We Wf be bf := A4.keep fun b hb => by rw [e5]; exact keep1_4 W4 b (Or.inl (by omega))
  have A6 : Args W6 mu sg eng fr We Wf be bf := A5.keep fun b hb => by rw [e6]; exact keep1_5 W5 b (Or.inl (by omega))
  have A7 : Args W7 mu sg eng fr We Wf be bf := A6.keep fun b hb => by rw [e7]; exact keep1_6 W6 b (Or.inl (by omega))
  have A8 : Args W8 mu sg eng fr We Wf be bf := A7.keep fun b hb => by rw [e8]; exact keep1_7 W7 b (Or.inl (by omega))
  -- the first stretch: the two log-sum-exp arrays and the latent
  have f6_1 : ∀ (b : Fin 16) (s : Fin 64), (W1 (Proc.devRef .tc main_v6) : Seng.Idx → EReal) (ix2 b s) = lse mu sg We be b s := fun b s => by
    rw [e1, stage1_v6]; exact hE b s
  have f8_1 : ∀ (b : Fin 16) (s : Fin 64), (W1 (Proc.devRef .tc main_v8) : Seng.Idx → EReal) (ix2 b s) = lse mu sg Wf bf b s := fun b s => by
    rw [e1, stage1_v8]; exact hF b s
  have f10_1 : W1 (Proc.devRef .tc main_v10) = addf (F := Ideal) (s := S16x64x256) (φ := .f32) mu sg := by
    rw [e1, stage1_v10]; exact hz
  -- what later stretches keep
  have k6 : W4 (Proc.devRef .tc main_v6) = W1 (Proc.devRef .tc main_v6) := by
    rw [e4, keep1_3 W3 main_v6 (Or.inl (by decide)), e3, keep1_2 W2 main_v6 (Or.inl (by decide)), e2,
      keep1_1 W1 main_v6 (Or.inl (by decide))]
  have k10_2 : W2 (Proc.devRef .tc main_v10) = W1 (Proc.devRef .tc main_v10) := by
    rw [e2, keep1_1 W1 main_v10 (Or.inl (by decide))]
  have k15 : W4 (Proc.devRef .tc main_v15) = W3 (Proc.devRef .tc main_v15) := by
    rw [e4, keep1_3 W3 main_v15 (Or.inl (by decide))]
  have k8 : W8 (Proc.devRef .tc main_v8) = W1 (Proc.devRef .tc main_v8) := by
    rw [e8, keep1_7 W7 main_v8 (Or.inl (by decide)), e7, keep1_6 W6 main_v8 (Or.inl (by decide)), e6,
      keep1_5 W5 main_v8 (Or.inl (by decide)), e5, keep1_4 W4 main_v8 (Or.inl (by decide)), e4,
      keep1_3 W3 main_v8 (Or.inl (by decide)), e3, keep1_2 W2 main_v8 (Or.inl (by decide)), e2,
      keep1_1 W1 main_v8 (Or.inl (by decide))]
  have k10_8 : W8 (Proc.devRef .tc main_v10) = W2 (Proc.devRef .tc main_v10) := by
    rw [e8, keep1_7 W7 main_v10 (Or.inl (by decide)), e7, keep1_6 W6 main_v10 (Or.inl (by decide)), e6,
      keep1_5 W5 main_v10 (Or.inl (by decide)), e5, keep1_4 W4 main_v10 (Or.inl (by decide)), e4,
      keep1_3 W3 main_v10 (Or.inl (by decide)), e3, keep1_2 W2 main_v10 (Or.inl (by decide))]
  have k19 : W8 (Proc.devRef .tc main_v19) = W5 (Proc.devRef .tc main_v19) := by
    rw [e8, keep1_7 W7 main_v19 (Or.inl (by decide)), e7, keep1_6 W6 main_v19 (Or.inl (by decide)), e6,
      keep1_5 W5 main_v19 (Or.inl (by decide))]
  have k22 : W8 (Proc.devRef .tc main_v22) = W7 (Proc.devRef .tc main_v22) := by
    rw [e8, keep1_7 W7 main_v22 (Or.inl (by decide))]
  -- the English half
  obtain ⟨z10, hz10⟩ : ∃ x : Slat.Idx → EReal, W2 (Proc.devRef .tc main_v10) = x := ⟨_, rfl⟩
  obtain ⟨r11, hr11⟩ : ∃ x : Slat.Idx → EReal, W2 (Proc.devRef .tc main_v11) = x := ⟨_, rfl⟩
  have hz10' : z10 = addf (F := Ideal) (s := S16x64x256) (φ := .f32) mu sg := by rw [← hz10, k10_2, f10_1]
  have p11 : ∀ (b : Fin 16) (s : Fin 64) (d : Fin 256), r11 (ix3 b s d)
      = if InRange (eng (ix2 b s)) then We (ix2 (pos (eng (ix2 b s))) d) else ⊥ := fun b s d => by
    rw [← hr11, e2]; exact stage1_1 W1 eng We A1.a2 A1.a4 b s d
  have p15 : ∀ (b : Fin 16) (s : Fin 64), (W3 (Proc.devRef .tc main_v15) : Seng.Idx → EReal) (ix2 b s)
      = 0 + ∑ d : Fin 256, z10 (ix3 b s d) * r11 (ix3 b s d) :=
    fun b s => by rw [e3]; exact stage1_2 W2 z10 r11 hz10 hr11 b s
  obtain ⟨a15, h15⟩ : ∃ x : Seng.Idx → EReal, W4 (Proc.devRef .tc main_v15) = x := ⟨_, rfl⟩
  obtain ⟨a16, h16⟩ : ∃ x : Seng.Idx → EReal, W4 (Proc.devRef .tc main_v16) = x := ⟨_, rfl⟩
  obtain ⟨a6, h6'⟩ : ∃ x : Seng.Idx → EReal, W4 (Proc.devRef .tc main_v6) = x := ⟨_, rfl⟩
  have p16 : ∀ (b : Fin 16) (s : Fin 64), a16 (ix2 b s)
      = if InRange (eng (ix2 b s)) then be (ix1 (pos (eng (ix2 b s)))) else ⊥ := fun b s => by
    rw [← h16, e4]; exact stage1_3 W3 eng be A3.a2 A3.a5 b s
  have p19 : W5 (Proc.devRef .tc main_v19) = fun _ => 0 + ∑ i : Seng.Idx, ((a15 i + a16 i) - a6 i) := by
    rw [e5]; exact stage1_4 W4 a15 a16 a6 h15 h16 h6'
  have t19 : W5 (Proc.devRef .tc main_v19) = fun _ => termE mu sg eng We be := by
    rw [p19]
    funext _
    unfold termE
    refine congrArg (0 + ·) (Finset.sum_congr rfl fun i _ => ?_)
    obtain ⟨b, s, rfl⟩ : ∃ (b : Fin 16) (s : Fin 64), i = ix2 b s := ⟨i 0, i 1, eq_ix2 i⟩
    refine eng_entry mu sg eng We be b s _ _ _ ?_ (p16 b s) ?_
    · rw [← h15, k15, p15 b s, hz10']
      refine congrArg (0 + ·) (Finset.sum_congr rfl fun d _ => ?_)
      rw [p11 b s d]
      rfl
    · rw [← h6', k6]; exact f6_1 b s
  -- the French half
  have p20 : ∀ (b : Fin 16) (f : Fin 48) (d : Fin 256), (W6 (Proc.devRef .tc main_v20) : S16x48x256.Idx → EReal) (ix3 b f d)
      = if InRange (fr (ix2 b f)) then Wf (ix2 (pos (fr (ix2 b f))) d) else ⊥ := fun b f d => by
    rw [e6]; exact stage1_5 W5 fr Wf A5.a3 A5.a6 b f d
  have p22 : W7 (Proc.devRef .tc main_v22) = W6 (Proc.devRef .tc main_v20) := by rw [e7]; exact stage1_6 W6
  obtain ⟨c19, hc19⟩ : ∃ x : S_.Idx → EReal, W8 (Proc.devRef .tc main_v19) = x := ⟨_, rfl⟩
  obtain ⟨c10, hc10⟩ : ∃ x : Slat.Idx → EReal, W8 (Proc.devRef .tc main_v10) = x := ⟨_, rfl⟩
  obtain ⟨c22, hc22⟩ : ∃ x : S16x48x256.Idx → EReal, W8 (Proc.devRef .tc main_v22) = x := ⟨_, rfl⟩
  obtain ⟨c23, hc23⟩ : ∃ x : Sfr.Idx → EReal, W8 (Proc.devRef .tc main_v23) = x := ⟨_, rfl⟩
  obtain ⟨c8, hc8⟩ : ∃ x : Seng.Idx → EReal, W8 (Proc.devRef .tc main_v8) = x := ⟨_, rfl⟩
  have hc10' : c10 = addf (F := Ideal) (s := S16x64x256) (φ := .f32) mu sg := by rw [← hc10, k10_8, k10_2, f10_1]
  have q22 : ∀ (b : Fin 16) (f : Fin 48) (d : Fin 256), c22 (ix3 b f d)
      = if InRange (fr (ix2 b f)) then Wf (ix2 (pos (fr (ix2 b f))) d) else ⊥ := fun b f d => by
    rw [← hc22, k22, p22]; exact p20 b f d
  have q23 : ∀ (b : Fin 16) (f : Fin 48), c23 (ix2 b f)
      = if InRange (fr (ix2 b f)) then bf (ix1 (pos (fr (ix2 b f)))) else ⊥ := fun b f => by
    rw [← hc23, e8]; exact stage1_7 W7 fr bf A7.a3 A7.a7 b f
  have q8 : ∀ (b : Fin 16) (s : Fin 64), c8 (ix2 b s) = lse mu sg Wf bf b s := fun b s => by
    rw [← hc8, k8]; exact f8_1 b s
  have q19 : c19 = fun _ => termE mu sg eng We be := hc19.symm.trans (k19.trans t19)
  refine ⟨?_, kl_stage W8 mu sg A8.a0 A8.a1⟩
  rw [stage1_8_v37 W8 c19 c10 c22 c23 c8 hc19 hc10 hc22 hc23 hc8]
  funext _
  unfold likelihood
  refine congrArg₂ (· + ·) ?_ ?_
  · rw [q19]
  · unfold termF
    refine congrArg (0 + ·) (Finset.sum_congr rfl fun j _ => ?_)
    obtain ⟨b, f, rfl⟩ : ∃ (b : Fin 16) (f : Fin 48), j = ix2 b f := ⟨j 0, j 1, eq_ix2 j⟩
    rw [hc10']
    exact fr_entry mu sg fr Wf bf b f (fun d => c22 (ix3 b f d)) (c23 (ix2 b f)) (fun s => c8 (ix2 b s))
      (q22 b f) (q23 b f) (q8 b)

end Final

end Cert.KernelIdeal.TailSide

end
-- ==== Proof.IdealRun.lean ====
/-
  The idealized kernel program's run, read: from any memory whose float arguments hold real numbers, every weakly fair
  execution terminates with the first result at the specification's likelihood and the second at its KL sum of the
  arguments, and the arguments as they were — the region leaves every latent row's log-sum-exp under each head, and the
  host operations after it compute the two results from those.
-/
import proofs.«121325_j12979391169156_2_alg».proof.Proof.IdealValue
import proofs.«121325_j12979391169156_2_alg».proof.Proof.TailSide

set_option maxRecDepth 16384

noncomputable section

namespace Cert.KernelIdeal.Lse

open Cert.KernelIdeal Cert.KernelIdeal.Gen
open Idealize.ShloMosaic Idealize.ShloMosaic.TcCoe
open Idealize.SL Idealize.SL.Sem

theorem kernel_run (m : (ℓ : Loc nD τ sig) → Buf (Elt Ideal) ℓ) (ρ : Dev nD → PrngReg)
    (hfin : ∀ c : Dev nD, Cert.LseSpec.Finite (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :
    θ_run defs (onTc (τ := τ) (main (F := Ideal))) ⟨m, fun _ => 0, ρ⟩ fun r => ∀ c : Dev nD,
      r.2.mem ((c.tc : Thread nD τ).loc main_v37) = (fun _ => Cert.LseSpec.likelihood (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_v48) = (fun _ => Cert.LseSpec.kl (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run_main m ρ)
  obtain ⟨t37, t48⟩ := Cert.KernelIdeal.TailSide.tail_results (Wtail m c) _ _ _ _ _ _ _ _
    (W_rest m c main_arg0 (by decide) (by decide)) (W_rest m c main_arg1 (by decide) (by decide))
    (W_rest m c main_arg2 (by decide) (by decide)) (W_rest m c main_arg3 (by decide) (by decide))
    (W_We m c) (W_rest m c main_arg5 (by decide) (by decide)) (W_Wf m c) (W_rest m c main_arg7 (by decide) (by decide))
    (W_z m c) (W_lseE m c (hfin c)) (W_lseF m c (hfin c)) (hfin c)
  exact ⟨((h c).2 main_v37 (Pipeline.mem_restRefs_of _ (by decide) (by decide))).trans ((afterTail_eq m c _).trans t37),
    ((h c).2 main_v48 (Pipeline.mem_restRefs_of _ (by decide) (by decide))).trans ((afterTail_eq m c _).trans t48),
    args_of_post m c r h⟩

end Cert.KernelIdeal.Lse

end
-- ==== Proof.PreReal.lean ====
/-
  The precondition says every float argument holds real numbers: it is the conjunction, over the six float arguments,
  of "every entry's absolute value is below +∞", and an extended real whose absolute value is below +∞ is neither
  infinity.
-/
import proofs.«121325_j12979391169156_2_alg».proof.Defs
import proofs.«121325_j12979391169156_2_alg».proof.Proof.LseSpec
import proofs.«121325_j12979391169156_2_alg».proof.Proof.Gen.Pre_finite_inputs
import Idealize.ShloMosaic.Lib.ReduceAll
import Idealize.ShloMosaic.Lib.Affine
import Idealize.ShloMosaic.Lib.ValueIdx

set_option maxRecDepth 16384

noncomputable section

namespace Cert.PreReal

open Idealize.ShloMosaic Idealize.ShloMosaic.ValueIdx Cert.Lib.RealsInEReal

instance : Subsingleton (⟨0, ![]⟩ : Shape).Idx := ⟨fun a b => funext fun d => d.elim0⟩

theorem pos_inf_word : Ideal.ofBits .f32 0x7F800000#32 = ⊤ := by simp [Ideal.ofBits, Ideal.ieee]

/-- An extended real whose absolute value tests below +∞ is a real number. -/
theorem real_of_abs_lt (x : EReal) (h : Ideal.cmp .olt (max x (-x)) (Ideal.ofBits .f32 0x7F800000#32) = 1#1) : IsReal x := by
  rw [pos_inf_word] at h
  have hlt : max x (-x) < ⊤ := by
    unfold Ideal.cmp at h
    by_contra hn
    simp [hn] at h
  induction x using EReal.rec with
  | bot => simp at hlt
  | coe r => exact ⟨r, rfl⟩
  | top => simp at hlt

/-- One of the six tests, decoded: if the reduction of "|x| < +∞" over all of an array is true, every entry is real. -/
theorem all_real {s : Shape} {axes : List (Fin s.rank)} (x : FVec Ideal s .f32) (inf : FVec Ideal s .f32)
    (hinf : ∀ i, inf i = Ideal.ofBits .f32 0x7F800000#32)
    (init : IVec ⟨0, ![]⟩ 1) (h : s.ReducesTo axes ⟨0, ![]⟩) (hu : 0 < (⟨0, ![]⟩ : Shape).numel)
    (e : Host.reduce IntOp.andi (cmpf .olt (Host.absf x) inf) init h hu ix0 = 1#1) (i : s.Idx) : IsReal (x i) := by
  have hi := Host.reduce_andi_all (cmpf .olt (Host.absf x) inf) init h hu ix0 e i
  refine real_of_abs_lt (x i) ?_
  rw [← hinf i]
  exact hi

open Cert.Pre_finite_inputs in
/-- THE PRECONDITION, DECODED. -/
theorem finite_of_pre (a0 a1 : FVec Ideal S16x64x256 .f32) (a2 : IVec S16x64 32) (a3 : IVec S16x48 32)
    (a4 : FVec Ideal S50000x256 .f32) (a5 : FVec Ideal S50000 .f32) (a6 : FVec Ideal S50000x256 .f32) (a7 : FVec Ideal S50000 .f32)
    (h : Cert.Pre_finite_inputs.fn (F := Ideal) a0 a1 a2 a3 a4 a5 a6 a7 = fun _ => 1#1) :
    Cert.LseSpec.Finite a0 a1 a4 a5 a6 a7 := by
  have h0 := congrFun h ix0
  dsimp only [Cert.Pre_finite_inputs.fn, Cert.Pre_finite_inputs.fn_part1] at h0
  obtain ⟨h', e7⟩ := IntOp.andi_eq_one.mp h0
  obtain ⟨h', e6⟩ := IntOp.andi_eq_one.mp h'
  obtain ⟨h', e5⟩ := IntOp.andi_eq_one.mp h'
  obtain ⟨h', e4⟩ := IntOp.andi_eq_one.mp h'
  obtain ⟨e0, e1⟩ := IntOp.andi_eq_one.mp h'
  exact ⟨all_real a0 _ (fun _ => rfl) _ _ _ e0, all_real a1 _ (fun _ => rfl) _ _ _ e1, all_real a4 _ (fun _ => rfl) _ _ _ e4,
    all_real a5 _ (fun _ => rfl) _ _ _ e5, all_real a6 _ (fun _ => rfl) _ _ _ e6, all_real a7 _ (fun _ => rfl) _ _ _ e7⟩

end Cert.PreReal

end
-- ==== Proof.RefSideStages.lean ====
/-
  The reference's first result as ONE pure function of its eight arguments.

  The reference is a straight line of 111 host operations. The line is cut into ten stages; each stage's result
  buffer is read back as a pure function of the buffers the stage reads (a head's logits, a row-wise log-softmax or
  softmax, a gather at normalised target indices under a range mask, the final sums), and every buffer a stage does
  not write is unchanged by it. The operations of a called function carry their operands at the type of the tensor value;
  they are read through a typed reference ("rd"), for which each operation's result is its function of the typed
  operands, with no transport left. Composing the stages gives the first result as
  total (takeE (logSoftmax (logits …)) english) (takeF (softmax (logits …)) french).
-/
import proofs.«121325_j12979391169156_2_alg».proof.Proof.RefRunPatched
import Idealize.ShloMosaic.Lib.StableHlo.Run

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-! ## Reading a buffer at its value's type -/

section Read
variable {Val : EltTy → Type} {T Tx Ta Tb Tc Ty Tz : BufTy}

/-- The contents a valuation gives a typed reference's buffer, at the value's own type. -/
def rd (W : Valuation τ sig Val) (x : TRef sig T) : T.Contents Val := x.ofBuf (W (Proc.devRef .tc x.ref))

theorem ofBuf_toBuf (x : TRef sig T) (v : T.Contents Val) : x.ofBuf (x.toBuf v) = v := by
  unfold TRef.ofBuf TRef.toBuf; rw [cast_cast, cast_eq]

theorem rd_nullary (y : TRef sig Ty) (v : Ty.Contents Val) (W : Valuation τ sig Val) :
    rd ((TRef.nullary (τ := τ) y v).result W) y = v := by
  unfold rd; rw [nullary_result, ofBuf_toBuf]

theorem rd_unary (x : TRef sig Tx) (y : TRef sig Ty) (f : Tx.Contents Val → Ty.Contents Val) (W : Valuation τ sig Val) :
    rd ((TRef.unary (τ := τ) x y f).result W) y = f (rd W x) := by
  unfold rd; rw [unary_result, ofBuf_toBuf]

theorem rd_binary (a : TRef sig Ta) (b : TRef sig Tb) (y : TRef sig Ty) (f : Ta.Contents Val → Tb.Contents Val → Ty.Contents Val)
    (W : Valuation τ sig Val) : rd ((TRef.binary (τ := τ) a b y f).result W) y = f (rd W a) (rd W b) := by
  unfold rd; rw [binary_result, ofBuf_toBuf]

theorem rd_ternary (c : TRef sig Tc) (a : TRef sig Ta) (b : TRef sig Tb) (y : TRef sig Ty)
    (f : Tc.Contents Val → Ta.Contents Val → Tb.Contents Val → Ty.Contents Val) (W : Valuation τ sig Val) :
    rd ((TRef.ternary (τ := τ) c a b y f).result W) y = f (rd W c) (rd W a) (rd W b) := by
  unfold rd; rw [ternary_result, ofBuf_toBuf]

theorem rd_nullary_ne (y : TRef sig Ty) (v : Ty.Contents Val) (W : Valuation τ sig Val) (z : TRef sig Tz) (h : z.ref ≠ y.ref) :
    rd ((TRef.nullary (τ := τ) y v).result W) z = rd W z := by
  unfold rd; rw [nullary_result_ne _ _ _ _ h]

theorem rd_unary_ne (x : TRef sig Tx) (y : TRef sig Ty) (f : Tx.Contents Val → Ty.Contents Val) (W : Valuation τ sig Val)
    (z : TRef sig Tz) (h : z.ref ≠ y.ref) : rd ((TRef.unary (τ := τ) x y f).result W) z = rd W z := by
  unfold rd; rw [unary_result_ne _ _ _ _ _ _ h]

theorem rd_binary_ne (a : TRef sig Ta) (b : TRef sig Tb) (y : TRef sig Ty) (f : Ta.Contents Val → Tb.Contents Val → Ty.Contents Val)
    (W : Valuation τ sig Val) (z : TRef sig Tz) (h : z.ref ≠ y.ref) : rd ((TRef.binary (τ := τ) a b y f).result W) z = rd W z := by
  unfold rd; rw [binary_result_ne _ _ _ _ _ _ _ _ h]

theorem rd_ternary_ne (c : TRef sig Tc) (a : TRef sig Ta) (b : TRef sig Tb) (y : TRef sig Ty)
    (f : Tc.Contents Val → Ta.Contents Val → Tb.Contents Val → Ty.Contents Val) (W : Valuation τ sig Val)
    (z : TRef sig Tz) (h : z.ref ≠ y.ref) : rd ((TRef.ternary (τ := τ) c a b y f).result W) z = rd W z := by
  unfold rd; rw [ternary_result_ne _ _ _ _ _ _ _ _ _ _ h]

theorem rd_reshape (x : TRef sig Tx) (y : TRef sig Ty) (he : Tx.elt = Ty.elt) (hn : Tx.shape.ShapeCasts Ty.shape)
    (W : Valuation τ sig Val) :
    rd ((TRef.reshape (τ := τ) (Val := Val) x y he hn).result W) y = fun i => he ▸ shapeCast Ty.shape (rd W x) hn i := by
  obtain ⟨xr, hx, hx1, hx2⟩ := x
  obtain ⟨yr, hy, hy1, hy2⟩ := y
  subst hx hy
  unfold rd TRef.ofBuf
  simp only [cast_eq]
  rw [reshape_result]

theorem rd_reshape_ne (x : TRef sig Tx) (y : TRef sig Ty) (he : Tx.elt = Ty.elt) (hn : Tx.shape.ShapeCasts Ty.shape)
    (W : Valuation τ sig Val) (z : TRef sig Tz) (h : z.ref ≠ y.ref) :
    rd ((TRef.reshape (τ := τ) (Val := Val) x y he hn).result W) z = rd W z := by
  unfold rd; rw [reshape_result_ne _ _ _ _ _ _ _ h]

end Read

/-- Reading through a typed reference, one simp pass over a line of a called function's operations. -/
macro "rd_results_simp" : tactic =>
  `(tactic| (simp (disch := decide) only [after_cons, after_nil, rd_nullary, rd_unary, rd_binary, rd_ternary, rd_reshape,
      rd_nullary_ne, rd_unary_ne, rd_binary_ne, rd_ternary_ne, rd_reshape_ne]))

/-! ## The operations, stage by stage -/

def s1 : List (HloOp τ sig (Elt F)) :=
  [ binary main_arg0 main_arg1 main_v0 (addf : (⟨S16x64x256, .f32⟩ : BufTy).Contents (Elt F) → (⟨S16x64x256, .f32⟩ : BufTy).Contents (Elt F) → (⟨S16x64x256, .f32⟩ : BufTy).Contents (Elt F)),
    binary main_v0 main_arg4 main_v1 ((fun l r => Host.dotGeneral dot_S16x64x256_S50000x256_S16x64x50000_2_1_01_0_n_n none l r) : (⟨S16x64x256, .f32⟩ : BufTy).Contents (Elt F) → (⟨S50000x256, .f32⟩ : BufTy).Contents (Elt F) → (⟨S16x64x50000, .f32⟩ : BufTy).Contents (Elt F)),
    unary main_arg5 main_v2 (broadcastInDim S1x1x50000 ![2] bcast_S50000_S1x1x50000_2 : (⟨S50000, .f32⟩ : BufTy).Contents (Elt F) → (⟨S1x1x50000, .f32⟩ : BufTy).Contents (Elt F)),
    unary main_v2 main_v3 (broadcastInDim S16x64x50000 ![0, 1, 2] bcast_S1x1x50000_S16x64x50000_0_1_2 : (⟨S1x1x50000, .f32⟩ : BufTy).Contents (Elt F) → (⟨S16x64x50000, .f32⟩ : BufTy).Contents (Elt F)),
    binary main_v1 main_v3 main_v4 (addf : (⟨S16x64x50000, .f32⟩ : BufTy).Contents (Elt F) → (⟨S16x64x50000, .f32⟩ : BufTy).Contents (Elt F) → (⟨S16x64x50000, .f32⟩ : BufTy).Contents (Elt F)) ]

def s2 : List (HloOp τ sig (Elt F)) :=
  [ TRef.nullary (TRef.of (T := ⟨S_, .f32⟩) main_call0_cst) (constant S_ .f32 0xFF800000#32),
    TRef.binary (TRef.of (T := ⟨S16x64x50000, .f32⟩) main_v4) (TRef.of (T := ⟨S_, .f32⟩) main_call0_cst) (TRef.of (T := ⟨S16x64, .f32⟩) main_call0_v0) (fun x v => Host.reduce FloatOps.maximumf x v reducesTo_S16x64x50000_S16x64_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S16x64, .f32⟩) main_call0_v1) (broadcastInDim S16x64 ![] bcast_S_S16x64),
    TRef.binary (TRef.of (T := ⟨S16x64, .f32⟩) main_call0_v1) (TRef.of (T := ⟨S16x64, .f32⟩) main_call0_v0) (TRef.of (T := ⟨S16x64, .f32⟩) main_call0_v2) maximumf,
    TRef.unary (TRef.of (T := ⟨S16x64, .f32⟩) main_call0_v2) (TRef.of (T := ⟨S16x64x1, .f32⟩) main_call0_v3) (broadcastInDim S16x64x1 ![0, 1] bcast_S16x64_S16x64x1_0_1),
    TRef.unary (TRef.of (T := ⟨S16x64x1, .f32⟩) main_call0_v3) (TRef.of (T := ⟨S16x64x50000, .f32⟩) main_call0_v4) (broadcastInDim S16x64x50000 ![0, 1, 2] bcast_S16x64x1_S16x64x50000_0_1_2),
    TRef.binary (TRef.of (T := ⟨S16x64x50000, .f32⟩) main_v4) (TRef.of (T := ⟨S16x64x50000, .f32⟩) main_call0_v4) (TRef.of (T := ⟨S16x64x50000, .f32⟩) main_call0_v5) subf,
    TRef.unary (TRef.of (T := ⟨S16x64x50000, .f32⟩) main_call0_v5) (TRef.of (T := ⟨S16x64x50000, .f32⟩) main_call0_v6) Host.exp,
    TRef.nullary (TRef.of (T := ⟨S_, .f32⟩) main_call0_cst_1) (constant S_ .f32 0x00000000#32),
    TRef.binary (TRef.of (T := ⟨S16x64x50000, .f32⟩) main_call0_v6) (TRef.of (T := ⟨S_, .f32⟩) main_call0_cst_1) (TRef.of (T := ⟨S16x64, .f32⟩) main_call0_v7) (fun x v => Host.reduceAdd x v reducesTo_S16x64x50000_S16x64_d2 h_S_),
    TRef.unary (TRef.of (T := ⟨S16x64, .f32⟩) main_call0_v7) (TRef.of (T := ⟨S16x64x1, .f32⟩) main_call0_v8) (broadcastInDim S16x64x1 ![0, 1] bcast_S16x64_S16x64x1_0_1),
    TRef.unary (TRef.of (T := ⟨S16x64x1, .f32⟩) main_call0_v8) (TRef.of (T := ⟨S16x64x1, .f32⟩) main_call0_v9) Host.log,
    TRef.unary (TRef.of (T := ⟨S16x64x1, .f32⟩) main_call0_v9) (TRef.of (T := ⟨S16x64x50000, .f32⟩) main_call0_v10) (broadcastInDim S16x64x50000 ![0, 1, 2] bcast_S16x64x1_S16x64x50000_0_1_2),
    TRef.binary (TRef.of (T := ⟨S16x64x50000, .f32⟩) main_call0_v5) (TRef.of (T := ⟨S16x64x50000, .f32⟩) main_call0_v10) (TRef.of (T := ⟨S16x64x50000, .f32⟩) main_v5) subf ]

def s3a : List (HloOp τ sig (Elt F)) :=
  [ unary main_arg2 main_v6 (broadcastInDim S16x64x1 ![0, 1] bcast_S16x64_S16x64x1_0_1 : (⟨S16x64, .i32⟩ : BufTy).Contents (Elt F) → (⟨S16x64x1, .i32⟩ : BufTy).Contents (Elt F)) ]

def s3b : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S16x64x1, .i32⟩) main_call1_v0) (broadcastInDim S16x64x1 ![] bcast_S_S16x64x1),
    TRef.binary (TRef.of (T := ⟨S16x64x1, .i32⟩) main_v6) (TRef.of (T := ⟨S16x64x1, .i32⟩) main_call1_v0) (TRef.of (T := ⟨S16x64x1, .i1⟩) main_call1_v1) (cmpi .slt),
    TRef.nullary (TRef.of (T := ⟨S_, .i32⟩) main_call1_c_0) (constantI S_ 32 50000#32),
    TRef.unary (TRef.of (T := ⟨S_, .i32⟩) main_call1_c_0) (TRef.of (T := ⟨S16x64x1, .i32⟩) main_call1_v2) (broadcastInDim S16x64x1 ![] bcast_S_S16x64x1),
    TRef.binary (TRef.of (T := ⟨S16x64x1, .i32⟩) main_v6) (TRef.of (T := ⟨S16x64x1, .i32⟩) main_call1_v2) (TRef.of (T := ⟨S16x64x1, .i32⟩) main_call1_v3) addi,
    TRef.ternary (TRef.of (T := ⟨S16x64x1, .i1⟩) main_call1_v1) (TRef.of (T := ⟨S16x64x1, .i32⟩) main_call1_v3) (TRef.of (T := ⟨S16x64x1, .i32⟩) main_v6) (TRef.of (T := ⟨S16x64x1, .i32⟩) main_call1_v4) select,
    TRef.reshape (TRef.of (T := ⟨S16x64x1, .i32⟩) main_call1_v4) (TRef.of (T := ⟨S16x64x1x1, .i32⟩) main_call1_v5) rfl shapeCasts_S16x64x1_S16x64x1x1,
    TRef.nullary (TRef.of (T := ⟨S1, .i32⟩) main_call1_c_1) (constantI S1 32 49999#32),
    TRef.nullary (TRef.of (T := ⟨S_, .i32⟩) main_call1_c_2) (constantI S_ 32 0#32),
    TRef.unary (TRef.of (T := ⟨S_, .i32⟩) main_call1_c_2) (TRef.of (T := ⟨S16x64x1x1, .i32⟩) main_call1_v6) (broadcastInDim S16x64x1x1 ![] bcast_S_S16x64x1x1),
    TRef.binary (TRef.of (T := ⟨S16x64x1x1, .i32⟩) main_call1_v5) (TRef.of (T := ⟨S16x64x1x1, .i32⟩) main_call1_v6) (TRef.of (T := ⟨S16x64x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S16x64x1x1, .i32⟩) main_call1_v9) (broadcastInDim S16x64x1x1 ![0, 1, 2, 3] bcast_S1x1x1x1_S16x64x1x1_0_1_2_3),
    TRef.binary (TRef.of (T := ⟨S16x64x1x1, .i32⟩) main_call1_v5) (TRef.of (T := ⟨S16x64x1x1, .i32⟩) main_call1_v9) (TRef.of (T := ⟨S16x64x1x1, .i1⟩) main_call1_v10) (cmpi .sle),
    TRef.binary (TRef.of (T := ⟨S16x64x1x1, .i1⟩) main_call1_v7) (TRef.of (T := ⟨S16x64x1x1, .i1⟩) main_call1_v10) (TRef.of (T := ⟨S16x64x1x1, .i1⟩) main_call1_v11) andi,
    TRef.nullary (TRef.of (T := ⟨S_, .i1⟩) main_call1_c_3) (constantI S_ 1 1#1),
    TRef.binary (TRef.of (T := ⟨S16x64x1x1, .i1⟩) main_call1_v11) (TRef.of (T := ⟨S_, .i1⟩) main_call1_c_3) (TRef.of (T := ⟨S16x64x1, .i1⟩) main_call1_v12) (fun x v => Host.reduce IntOp.andi x v reducesTo_S16x64x1x1_S16x64x1_d3 h_S_),
    TRef.binary (TRef.of (T := ⟨S16x64x50000, .f32⟩) main_v5) (TRef.of (T := ⟨S16x64x1x1, .i32⟩) main_call1_v5) (TRef.of (T := ⟨S16x64x1, .f32⟩) main_call1_v13) (fun x i => Host.gather gather_S16x64x50000_S16x64x1x1_S16x64x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S16x64x1, .f32⟩) main_call1_v14) (broadcastInDim S16x64x1 ![] bcast_S_S16x64x1),
    TRef.ternary (TRef.of (T := ⟨S16x64x1, .i1⟩) main_call1_v12) (TRef.of (T := ⟨S16x64x1, .f32⟩) main_call1_v13) (TRef.of (T := ⟨S16x64x1, .f32⟩) main_call1_v14) (TRef.of (T := ⟨S16x64x1, .f32⟩) main_v7) select ]

def s3c : List (HloOp τ sig (Elt F)) :=
  [ reshape main_v7 main_v8 rfl shapeCasts_S16x64x1_S16x64 ]

def s4 : List (HloOp τ sig (Elt F)) :=
  [ binary main_v0 main_arg6 main_v9 ((fun l r => Host.dotGeneral dot_S16x64x256_S50000x256_S16x64x50000_2_1_01_0_n_n none l r) : (⟨S16x64x256, .f32⟩ : BufTy).Contents (Elt F) → (⟨S50000x256, .f32⟩ : BufTy).Contents (Elt F) → (⟨S16x64x50000, .f32⟩ : BufTy).Contents (Elt F)),
    unary main_arg7 main_v10 (broadcastInDim S1x1x50000 ![2] bcast_S50000_S1x1x50000_2 : (⟨S50000, .f32⟩ : BufTy).Contents (Elt F) → (⟨S1x1x50000, .f32⟩ : BufTy).Contents (Elt F)),
    unary main_v10 main_v11 (broadcastInDim S16x64x50000 ![0, 1, 2] bcast_S1x1x50000_S16x64x50000_0_1_2 : (⟨S1x1x50000, .f32⟩ : BufTy).Contents (Elt F) → (⟨S16x64x50000, .f32⟩ : BufTy).Contents (Elt F)),
    binary main_v9 main_v11 main_v12 (addf : (⟨S16x64x50000, .f32⟩ : BufTy).Contents (Elt F) → (⟨S16x64x50000, .f32⟩ : BufTy).Contents (Elt F) → (⟨S16x64x50000, .f32⟩ : BufTy).Contents (Elt F)),
    nullary main_cst (constant S_ .f32 0xFF800000#32),
    binary main_v12 main_cst main_v13 ((fun x v => Host.reduce FloatOps.maximumf x v reducesTo_S16x64x50000_S16x64_d2 h_S_) : (⟨S16x64x50000, .f32⟩ : BufTy).Contents (Elt F) → (⟨S_, .f32⟩ : BufTy).Contents (Elt F) → (⟨S16x64, .f32⟩ : BufTy).Contents (Elt F)),
    nullary main_cst_0 (constant S_ .f32 0xFF800000#32),
    unary main_cst_0 main_v14 (broadcastInDim S16x64 ![] bcast_S_S16x64 : (⟨S_, .f32⟩ : BufTy).Contents (Elt F) → (⟨S16x64, .f32⟩ : BufTy).Contents (Elt F)),
    binary main_v14 main_v13 main_v15 (maximumf : (⟨S16x64, .f32⟩ : BufTy).Contents (Elt F) → (⟨S16x64, .f32⟩ : BufTy).Contents (Elt F) → (⟨S16x64, .f32⟩ : BufTy).Contents (Elt F)),
    unary main_v15 main_v16 (broadcastInDim S16x64x1 ![0, 1] bcast_S16x64_S16x64x1_0_1 : (⟨S16x64, .f32⟩ : BufTy).Contents (Elt F) → (⟨S16x64x1, .f32⟩ : BufTy).Contents (Elt F)),
    unary main_v16 main_v17 (broadcastInDim S16x64x50000 ![0, 1, 2] bcast_S16x64x1_S16x64x50000_0_1_2 : (⟨S16x64x1, .f32⟩ : BufTy).Contents (Elt F) → (⟨S16x64x50000, .f32⟩ : BufTy).Contents (Elt F)),
    binary main_v12 main_v17 main_v18 (subf : (⟨S16x64x50000, .f32⟩ : BufTy).Contents (Elt F) → (⟨S16x64x50000, .f32⟩ : BufTy).Contents (Elt F) → (⟨S16x64x50000, .f32⟩ : BufTy).Contents (Elt F)),
    unary main_v18 main_v19 (Host.exp : (⟨S16x64x50000, .f32⟩ : BufTy).Contents (Elt F) → (⟨S16x64x50000, .f32⟩ : BufTy).Contents (Elt F)),
    nullary main_cst_1 (constant S_ .f32 0x00000000#32),
    binary main_v19 main_cst_1 main_v20 ((fun x v => Host.reduceAdd x v reducesTo_S16x64x50000_S16x64_d2 h_S_) : (⟨S16x64x50000, .f32⟩ : BufTy).Contents (Elt F) → (⟨S_, .f32⟩ : BufTy).Contents (Elt F) → (⟨S16x64, .f32⟩ : BufTy).Contents (Elt F)),
    unary main_v20 main_v21 (broadcastInDim S16x64x1 ![0, 1] bcast_S16x64_S16x64x1_0_1 : (⟨S16x64, .f32⟩ : BufTy).Contents (Elt F) → (⟨S16x64x1, .f32⟩ : BufTy).Contents (Elt F)),
    unary main_v21 main_v22 (broadcastInDim S16x64x50000 ![0, 1, 2] bcast_S16x64x1_S16x64x50000_0_1_2 : (⟨S16x64x1, .f32⟩ : BufTy).Contents (Elt F) → (⟨S16x64x50000, .f32⟩ : BufTy).Contents (Elt F)),
    binary main_v19 main_v22 main_v23 (Host.divf : (⟨S16x64x50000, .f32⟩ : BufTy).Contents (Elt F) → (⟨S16x64x50000, .f32⟩ : BufTy).Contents (Elt F) → (⟨S16x64x50000, .f32⟩ : BufTy).Contents (Elt F)) ]

def s5a : List (HloOp τ sig (Elt F)) :=
  [ unary main_arg3 main_v24 (broadcastInDim S16x1x48 ![0, 2] bcast_S16x48_S16x1x48_0_2 : (⟨S16x48, .i32⟩ : BufTy).Contents (Elt F) → (⟨S16x1x48, .i32⟩ : BufTy).Contents (Elt F)) ]

def s5b : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S16x1x48, .i32⟩) main_call2_v0) (broadcastInDim S16x1x48 ![] bcast_S_S16x1x48),
    TRef.binary (TRef.of (T := ⟨S16x1x48, .i32⟩) main_v24) (TRef.of (T := ⟨S16x1x48, .i32⟩) main_call2_v0) (TRef.of (T := ⟨S16x1x48, .i1⟩) main_call2_v1) (cmpi .slt),
    TRef.nullary (TRef.of (T := ⟨S_, .i32⟩) main_call2_c_0) (constantI S_ 32 50000#32),
    TRef.unary (TRef.of (T := ⟨S_, .i32⟩) main_call2_c_0) (TRef.of (T := ⟨S16x1x48, .i32⟩) main_call2_v2) (broadcastInDim S16x1x48 ![] bcast_S_S16x1x48),
    TRef.binary (TRef.of (T := ⟨S16x1x48, .i32⟩) main_v24) (TRef.of (T := ⟨S16x1x48, .i32⟩) main_call2_v2) (TRef.of (T := ⟨S16x1x48, .i32⟩) main_call2_v3) addi,
    TRef.ternary (TRef.of (T := ⟨S16x1x48, .i1⟩) main_call2_v1) (TRef.of (T := ⟨S16x1x48, .i32⟩) main_call2_v3) (TRef.of (T := ⟨S16x1x48, .i32⟩) main_v24) (TRef.of (T := ⟨S16x1x48, .i32⟩) main_call2_v4) select,
    TRef.reshape (TRef.of (T := ⟨S16x1x48, .i32⟩) main_call2_v4) (TRef.of (T := ⟨S16x48x1, .i32⟩) main_call2_v5) rfl shapeCasts_S16x1x48_S16x48x1,
    TRef.nullary (TRef.of (T := ⟨S1, .i32⟩) main_call2_c_1) (constantI S1 32 49999#32),
    TRef.nullary (TRef.of (T := ⟨S_, .i32⟩) main_call2_c_2) (constantI S_ 32 0#32),
    TRef.unary (TRef.of (T := ⟨S_, .i32⟩) main_call2_c_2) (TRef.of (T := ⟨S16x48x1, .i32⟩) main_call2_v6) (broadcastInDim S16x48x1 ![] bcast_S_S16x48x1),
    TRef.binary (TRef.of (T := ⟨S16x48x1, .i32⟩) main_call2_v5) (TRef.of (T := ⟨S16x48x1, .i32⟩) main_call2_v6) (TRef.of (T := ⟨S16x48x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S16x48x1, .i32⟩) main_call2_v9) (broadcastInDim S16x48x1 ![0, 1, 2] bcast_S1x1x1_S16x48x1_0_1_2),
    TRef.binary (TRef.of (T := ⟨S16x48x1, .i32⟩) main_call2_v5) (TRef.of (T := ⟨S16x48x1, .i32⟩) main_call2_v9) (TRef.of (T := ⟨S16x48x1, .i1⟩) main_call2_v10) (cmpi .sle),
    TRef.binary (TRef.of (T := ⟨S16x48x1, .i1⟩) main_call2_v7) (TRef.of (T := ⟨S16x48x1, .i1⟩) main_call2_v10) (TRef.of (T := ⟨S16x48x1, .i1⟩) main_call2_v11) andi,
    TRef.nullary (TRef.of (T := ⟨S_, .i1⟩) main_call2_c_3) (constantI S_ 1 1#1),
    TRef.binary (TRef.of (T := ⟨S16x48x1, .i1⟩) main_call2_v11) (TRef.of (T := ⟨S_, .i1⟩) main_call2_c_3) (TRef.of (T := ⟨S16x48, .i1⟩) main_call2_v12) (fun x v => Host.reduce IntOp.andi x v reducesTo_S16x48x1_S16x48_d2 h_S_),
    TRef.binary (TRef.of (T := ⟨S16x64x50000, .f32⟩) main_v23) (TRef.of (T := ⟨S16x48x1, .i32⟩) main_call2_v5) (TRef.of (T := ⟨S16x64x48, .f32⟩) main_call2_v13) (fun x i => Host.gather gather_S16x64x50000_S16x48x1_S16x64x48_1_2_0_0_2_2_1641 x i),
    TRef.unary (TRef.of (T := ⟨S16x48, .i1⟩) main_call2_v12) (TRef.of (T := ⟨S16x64x48, .i1⟩) main_call2_v14) (broadcastInDim S16x64x48 ![0, 2] bcast_S16x48_S16x64x48_0_2),
    TRef.nullary (TRef.of (T := ⟨S_, .f32⟩) main_call2_cst) (constant S_ .f32 0x7FC00000#32),
    TRef.unary (TRef.of (T := ⟨S_, .f32⟩) main_call2_cst) (TRef.of (T := ⟨S16x64x48, .f32⟩) main_call2_v15) (broadcastInDim S16x64x48 ![] bcast_S_S16x64x48),
    TRef.ternary (TRef.of (T := ⟨S16x64x48, .i1⟩) main_call2_v14) (TRef.of (T := ⟨S16x64x48, .f32⟩) main_call2_v13) (TRef.of (T := ⟨S16x64x48, .f32⟩) main_call2_v15) (TRef.of (T := ⟨S16x64x48, .f32⟩) main_v25) select ]

def s6 : List (HloOp τ sig (Elt F)) :=
  [ nullary main_cst_2 (constant S_ .f32 0x00000000#32),
    binary main_v25 main_cst_2 main_v26 ((fun x v => Host.reduceAdd x v reducesTo_S16x64x48_S16x48_d1 h_S_) : (⟨S16x64x48, .f32⟩ : BufTy).Contents (Elt F) → (⟨S_, .f32⟩ : BufTy).Contents (Elt F) → (⟨S16x48, .f32⟩ : BufTy).Contents (Elt F)),
    nullary main_cst_3 (constant S_ .f32 0x42800000#32),
    unary main_cst_3 main_v27 (broadcastInDim S16x48 ![] bcast_S_S16x48 : (⟨S_, .f32⟩ : BufTy).Contents (Elt F) → (⟨S16x48, .f32⟩ : BufTy).Contents (Elt F)),
    binary main_v26 main_v27 main_v28 (Host.divf : (⟨S16x48, .f32⟩ : BufTy).Contents (Elt F) → (⟨S16x48, .f32⟩ : BufTy).Contents (Elt F) → (⟨S16x48, .f32⟩ : BufTy).Contents (Elt F)),
    nullary main_cst_4 (constant S_ .f32 0x00000000#32),
    binary main_v8 main_cst_4 main_v29 ((fun x v => Host.reduceAdd x v reducesTo_S16x64_S_d0_1 h_S_) : (⟨S16x64, .f32⟩ : BufTy).Contents (Elt F) → (⟨S_, .f32⟩ : BufTy).Contents (Elt F) → (⟨S_, .f32⟩ : BufTy).Contents (Elt F)),
    unary main_v28 main_v30 (Host.log : (⟨S16x48, .f32⟩ : BufTy).Contents (Elt F) → (⟨S16x48, .f32⟩ : BufTy).Contents (Elt F)),
    nullary main_cst_5 (constant S_ .f32 0x00000000#32),
    binary main_v30 main_cst_5 main_v31 ((fun x v => Host.reduceAdd x v reducesTo_S16x48_S_d0_1 h_S_) : (⟨S16x48, .f32⟩ : BufTy).Contents (Elt F) → (⟨S_, .f32⟩ : BufTy).Contents (Elt F) → (⟨S_, .f32⟩ : BufTy).Contents (Elt F)),
    binary main_v29 main_v31 main_v32 (addf : (⟨S_, .f32⟩ : BufTy).Contents (Elt F) → (⟨S_, .f32⟩ : BufTy).Contents (Elt F) → (⟨S_, .f32⟩ : BufTy).Contents (Elt F)) ]

def s7 : List (HloOp τ sig (Elt F)) :=
  [ unary main_arg1 main_v33 (Host.log : (⟨S16x64x256, .f32⟩ : BufTy).Contents (Elt F) → (⟨S16x64x256, .f32⟩ : BufTy).Contents (Elt F)),
    unary main_v33 main_v34 (Host.negf : (⟨S16x64x256, .f32⟩ : BufTy).Contents (Elt F) → (⟨S16x64x256, .f32⟩ : BufTy).Contents (Elt F)),
    binary main_arg1 main_arg1 main_v35 (mulf : (⟨S16x64x256, .f32⟩ : BufTy).Contents (Elt F) → (⟨S16x64x256, .f32⟩ : BufTy).Contents (Elt F) → (⟨S16x64x256, .f32⟩ : BufTy).Contents (Elt F)),
    binary main_arg0 main_arg0 main_v36 (mulf : (⟨S16x64x256, .f32⟩ : BufTy).Contents (Elt F) → (⟨S16x64x256, .f32⟩ : BufTy).Contents (Elt F) → (⟨S16x64x256, .f32⟩ : BufTy).Contents (Elt F)),
    binary main_v35 main_v36 main_v37 (addf : (⟨S16x64x256, .f32⟩ : BufTy).Contents (Elt F) → (⟨S16x64x256, .f32⟩ : BufTy).Contents (Elt F) → (⟨S16x64x256, .f32⟩ : BufTy).Contents (Elt F)),
    nullary main_cst_6 (constant S_ .f32 0x3F000000#32),
    unary main_cst_6 main_v38 (broadcastInDim S16x64x256 ![] bcast_S_S16x64x256 : (⟨S_, .f32⟩ : BufTy).Contents (Elt F) → (⟨S16x64x256, .f32⟩ : BufTy).Contents (Elt F)),
    binary main_v38 main_v37 main_v39 (mulf : (⟨S16x64x256, .f32⟩ : BufTy).Contents (Elt F) → (⟨S16x64x256, .f32⟩ : BufTy).Contents (Elt F) → (⟨S16x64x256, .f32⟩ : BufTy).Contents (Elt F)),
    binary main_v34 main_v39 main_v40 (addf : (⟨S16x64x256, .f32⟩ : BufTy).Contents (Elt F) → (⟨S16x64x256, .f32⟩ : BufTy).Contents (Elt F) → (⟨S16x64x256, .f32⟩ : BufTy).Contents (Elt F)),
    nullary main_cst_7 (constant S_ .f32 0x3F000000#32),
    unary main_cst_7 main_v41 (broadcastInDim S16x64x256 ![] bcast_S_S16x64x256 : (⟨S_, .f32⟩ : BufTy).Contents (Elt F) → (⟨S16x64x256, .f32⟩ : BufTy).Contents (Elt F)),
    binary main_v40 main_v41 main_v42 (subf : (⟨S16x64x256, .f32⟩ : BufTy).Contents (Elt F) → (⟨S16x64x256, .f32⟩ : BufTy).Contents (Elt F) → (⟨S16x64x256, .f32⟩ : BufTy).Contents (Elt F)),
    nullary main_cst_8 (constant S_ .f32 0x00000000#32),
    binary main_v42 main_cst_8 main_v43 ((fun x v => Host.reduceAdd x v reducesTo_S16x64x256_S_d0_1_2 h_S_) : (⟨S16x64x256, .f32⟩ : BufTy).Contents (Elt F) → (⟨S_, .f32⟩ : BufTy).Contents (Elt F) → (⟨S_, .f32⟩ : BufTy).Contents (Elt F)) ]

theorem ops_eq : (ValueP.ops (F := F)) = s1 ++ (s2 ++ (s3a ++ (s3b ++ (s3c ++ (s4 ++ (s5a ++ (s5b ++ (s6 ++ s7)))))))) := rfl

theorem after_append' (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The reference's functions, as pure functions of their operands -/

/-- A head's logits: the latent rows against the head's rows, plus the bias spread over the rows. -/
def logits (z : (⟨S16x64x256, .f32⟩ : BufTy).Contents (Elt F)) (Wm : (⟨S50000x256, .f32⟩ : BufTy).Contents (Elt F)) (bias : (⟨S50000, .f32⟩ : BufTy).Contents (Elt F)) : (⟨S16x64x50000, .f32⟩ : BufTy).Contents (Elt F) :=
  addf (Host.dotGeneral dot_S16x64x256_S50000x256_S16x64x50000_2_1_01_0_n_n none z Wm)
    (broadcastInDim S16x64x50000 ![0, 1, 2] bcast_S1x1x50000_S16x64x50000_0_1_2 (broadcastInDim S1x1x50000 ![2] bcast_S50000_S1x1x50000_2 bias))

/-- The running maximum of each row from −∞, kept as a column and spread over the row. -/
def rowMax (x : (⟨S16x64x50000, .f32⟩ : BufTy).Contents (Elt F)) : (⟨S16x64x50000, .f32⟩ : BufTy).Contents (Elt F) :=
  broadcastInDim S16x64x50000 ![0, 1, 2] bcast_S16x64x1_S16x64x50000_0_1_2
    (broadcastInDim S16x64x1 ![0, 1] bcast_S16x64_S16x64x1_0_1
      (maximumf (broadcastInDim S16x64 ![] bcast_S_S16x64 (constant S_ .f32 0xFF800000#32))
        (Host.reduce FloatOps.maximumf x (constant S_ .f32 0xFF800000#32) reducesTo_S16x64x50000_S16x64_d2 h_S_)))

/-- The row sums, from zero, kept as a column. -/
def rowSum (e : (⟨S16x64x50000, .f32⟩ : BufTy).Contents (Elt F)) : (⟨S16x64x1, .f32⟩ : BufTy).Contents (Elt F) :=
  broadcastInDim S16x64x1 ![0, 1] bcast_S16x64_S16x64x1_0_1
    (Host.reduceAdd e (constant S_ .f32 0x00000000#32) reducesTo_S16x64x50000_S16x64_d2 h_S_)

/-- The log-softmax of each row, as the reference spells it. -/
def logSoftmax (x : (⟨S16x64x50000, .f32⟩ : BufTy).Contents (Elt F)) : (⟨S16x64x50000, .f32⟩ : BufTy).Contents (Elt F) :=
  subf (subf x (rowMax x))
    (broadcastInDim S16x64x50000 ![0, 1, 2] bcast_S16x64x1_S16x64x50000_0_1_2 (Host.log (rowSum (Host.exp (subf x (rowMax x))))))

/-- The softmax of each row, as the reference spells it. -/
def softmax (x : (⟨S16x64x50000, .f32⟩ : BufTy).Contents (Elt F)) : (⟨S16x64x50000, .f32⟩ : BufTy).Contents (Elt F) :=
  Host.divf (Host.exp (subf x (rowMax x)))
    (broadcastInDim S16x64x50000 ![0, 1, 2] bcast_S16x64x1_S16x64x50000_0_1_2 (rowSum (Host.exp (subf x (rowMax x)))))

/-- English target indices normalised: a negative one wraps by the vocabulary size. -/
def wrapE (i : (⟨S16x64x1, .i32⟩ : BufTy).Contents (Elt F)) : (⟨S16x64x1x1, .i32⟩ : BufTy).Contents (Elt F) :=
  shapeCast S16x64x1x1 (select (cmpi .slt i (broadcastInDim S16x64x1 ![] bcast_S_S16x64x1 (constantI S_ 32 0#32)))
    (addi i (broadcastInDim S16x64x1 ![] bcast_S_S16x64x1 (constantI S_ 32 50000#32))) i) shapeCasts_S16x64x1_S16x64x1x1

/-- The mask of the normalised English indices that name a word. -/
def inRangeE (j : (⟨S16x64x1x1, .i32⟩ : BufTy).Contents (Elt F)) : (⟨S16x64x1, .i1⟩ : BufTy).Contents (Elt F) :=
  Host.reduce IntOp.andi (andi (cmpi .sge j (broadcastInDim S16x64x1x1 ![] bcast_S_S16x64x1x1 (constantI S_ 32 0#32)))
    (cmpi .sle j (broadcastInDim S16x64x1x1 ![0, 1, 2, 3] bcast_S1x1x1x1_S16x64x1x1_0_1_2_3 (broadcastInDim S1x1x1x1 ![3] bcast_S1_S1x1x1x1_3 (constantI S1 32 49999#32)))))
    (constantI S_ 1 1#1) reducesTo_S16x64x1x1_S16x64x1_d3 h_S_

/-- Each row's entry at its target index, a NaN pattern where the index names no word. -/
def takeCoreE (x : (⟨S16x64x50000, .f32⟩ : BufTy).Contents (Elt F)) (i : (⟨S16x64x1, .i32⟩ : BufTy).Contents (Elt F)) : (⟨S16x64x1, .f32⟩ : BufTy).Contents (Elt F) :=
  select (inRangeE (wrapE i)) (Host.gather gather_S16x64x50000_S16x64x1x1_S16x64x1_n_2_01_01_2_3_111 x (wrapE i))
    (broadcastInDim S16x64x1 ![] bcast_S_S16x64x1 (constant S_ .f32 0x7FC00000#32))

def takeE (x : (⟨S16x64x50000, .f32⟩ : BufTy).Contents (Elt F)) (idx : (⟨S16x64, .i32⟩ : BufTy).Contents (Elt F)) : (⟨S16x64, .f32⟩ : BufTy).Contents (Elt F) :=
  shapeCast S16x64 (takeCoreE x (broadcastInDim S16x64x1 ![0, 1] bcast_S16x64_S16x64x1_0_1 idx)) shapeCasts_S16x64x1_S16x64

/-- French target indices normalised. -/
def wrapF (i : (⟨S16x1x48, .i32⟩ : BufTy).Contents (Elt F)) : (⟨S16x48x1, .i32⟩ : BufTy).Contents (Elt F) :=
  shapeCast S16x48x1 (select (cmpi .slt i (broadcastInDim S16x1x48 ![] bcast_S_S16x1x48 (constantI S_ 32 0#32)))
    (addi i (broadcastInDim S16x1x48 ![] bcast_S_S16x1x48 (constantI S_ 32 50000#32))) i) shapeCasts_S16x1x48_S16x48x1

/-- The mask of the normalised French indices that name a word. -/
def inRangeF (j : (⟨S16x48x1, .i32⟩ : BufTy).Contents (Elt F)) : (⟨S16x48, .i1⟩ : BufTy).Contents (Elt F) :=
  Host.reduce IntOp.andi (andi (cmpi .sge j (broadcastInDim S16x48x1 ![] bcast_S_S16x48x1 (constantI S_ 32 0#32)))
    (cmpi .sle j (broadcastInDim S16x48x1 ![0, 1, 2] bcast_S1x1x1_S16x48x1_0_1_2 (broadcastInDim S1x1x1 ![2] bcast_S1_S1x1x1_2 (constantI S1 32 49999#32)))))
    (constantI S_ 1 1#1) reducesTo_S16x48x1_S16x48_d2 h_S_

/-- Every row's entry at each target position's index of its batch, a NaN pattern where the index names no word. -/
def takeCoreF (p : (⟨S16x64x50000, .f32⟩ : BufTy).Contents (Elt F)) (i : (⟨S16x1x48, .i32⟩ : BufTy).Contents (Elt F)) : (⟨S16x64x48, .f32⟩ : BufTy).Contents (Elt F) :=
  select (broadcastInDim S16x64x48 ![0, 2] bcast_S16x48_S16x64x48_0_2 (inRangeF (wrapF i)))
    (Host.gather gather_S16x64x50000_S16x48x1_S16x64x48_1_2_0_0_2_2_1641 p (wrapF i))
    (broadcastInDim S16x64x48 ![] bcast_S_S16x64x48 (constant S_ .f32 0x7FC00000#32))

def takeF (p : (⟨S16x64x50000, .f32⟩ : BufTy).Contents (Elt F)) (idx : (⟨S16x48, .i32⟩ : BufTy).Contents (Elt F)) : (⟨S16x64x48, .f32⟩ : BufTy).Contents (Elt F) :=
  takeCoreF p (broadcastInDim S16x1x48 ![0, 2] bcast_S16x48_S16x1x48_0_2 idx)

/-- The first result from the two gathered arrays. -/
def total (e : (⟨S16x64, .f32⟩ : BufTy).Contents (Elt F)) (p : (⟨S16x64x48, .f32⟩ : BufTy).Contents (Elt F)) : (⟨S_, .f32⟩ : BufTy).Contents (Elt F) :=
  addf (Host.reduceAdd e (constant S_ .f32 0x00000000#32) reducesTo_S16x64_S_d0_1 h_S_)
    (Host.reduceAdd (Host.log (Host.divf (Host.reduceAdd p (constant S_ .f32 0x00000000#32) reducesTo_S16x64x48_S16x48_d1 h_S_)
      (broadcastInDim S16x48 ![] bcast_S_S16x48 (constant S_ .f32 0x42800000#32)))) (constant S_ .f32 0x00000000#32) reducesTo_S16x48_S_d0_1 h_S_)

/-! ## Each stage's results -/

theorem s1_v0 (W : Valuation τ sig (Elt F)) :
    after (s1 (F := F)) W (Proc.devRef .tc main_v0) = addf (W (Proc.devRef .tc main_arg0)) (W (Proc.devRef .tc main_arg1)) := by
  unfold s1; after_results_simp

theorem s1_v4 (W : Valuation τ sig (Elt F)) :
    after (s1 (F := F)) W (Proc.devRef .tc main_v4)
      = logits (addf (W (Proc.devRef .tc main_arg0)) (W (Proc.devRef .tc main_arg1))) (W (Proc.devRef .tc main_arg4)) (W (Proc.devRef .tc main_arg5)) := by
  unfold s1; after_results_simp; rfl

theorem s2_rd (W : Valuation τ sig (Elt F)) :
    rd (after (s2 (F := F)) W) (TRef.of (T := ⟨S16x64x50000, .f32⟩) main_v5) = logSoftmax (rd W (TRef.of (T := ⟨S16x64x50000, .f32⟩) main_v4)) := by
  unfold s2; rd_results_simp; rfl

theorem s2_v5 (W : Valuation τ sig (Elt F)) :
    after (s2 (F := F)) W (Proc.devRef .tc main_v5) = logSoftmax (W (Proc.devRef .tc main_v4)) := by
  have e5 : ∀ X : Valuation τ sig (Elt F), rd X (TRef.of (T := ⟨S16x64x50000, .f32⟩) main_v5) = X (Proc.devRef .tc main_v5) := fun _ => rfl
  have e4 : ∀ X : Valuation τ sig (Elt F), rd X (TRef.of (T := ⟨S16x64x50000, .f32⟩) main_v4) = X (Proc.devRef .tc main_v4) := fun _ => rfl
  exact (e5 _).symm.trans ((s2_rd W).trans (congrArg logSoftmax (e4 W)))

theorem s3a_v6 (W : Valuation τ sig (Elt F)) :
    after (s3a (F := F)) W (Proc.devRef .tc main_v6) = broadcastInDim S16x64x1 ![0, 1] bcast_S16x64_S16x64x1_0_1 (W (Proc.devRef .tc main_arg2)) := by
  unfold s3a; after_results_simp

theorem s3b_rd (W : Valuation τ sig (Elt F)) :
    rd (after (s3b (F := F)) W) (TRef.of (T := ⟨S16x64x1, .f32⟩) main_v7)
      = takeCoreE (rd W (TRef.of (T := ⟨S16x64x50000, .f32⟩) main_v5)) (rd W (TRef.of (T := ⟨S16x64x1, .i32⟩) main_v6)) := by
  unfold s3b; rd_results_simp; rfl

theorem s3b_v7 (W : Valuation τ sig (Elt F)) :
    after (s3b (F := F)) W (Proc.devRef .tc main_v7) = takeCoreE (W (Proc.devRef .tc main_v5)) (W (Proc.devRef .tc main_v6)) := by
  have e7 : ∀ X : Valuation τ sig (Elt F), rd X (TRef.of (T := ⟨S16x64x1, .f32⟩) main_v7) = X (Proc.devRef .tc main_v7) := fun _ => rfl
  have e5 : ∀ X : Valuation τ sig (Elt F), rd X (TRef.of (T := ⟨S16x64x50000, .f32⟩) main_v5) = X (Proc.devRef .tc main_v5) := fun _ => rfl
  have e6 : ∀ X : Valuation τ sig (Elt F), rd X (TRef.of (T := ⟨S16x64x1, .i32⟩) main_v6) = X (Proc.devRef .tc main_v6) := fun _ => rfl
  exact (e7 _).symm.trans ((s3b_rd W).trans (congrArg₂ takeCoreE (e5 W) (e6 W)))

theorem s3c_v8 (W : Valuation τ sig (Elt F)) :
    after (s3c (F := F)) W (Proc.devRef .tc main_v8) = shapeCast S16x64 (W (Proc.devRef .tc main_v7)) shapeCasts_S16x64x1_S16x64 := by
  unfold s3c; after_results_simp; rfl

theorem s4_v23 (W : Valuation τ sig (Elt F)) :
    after (s4 (F := F)) W (Proc.devRef .tc main_v23)
      = softmax (logits (W (Proc.devRef .tc main_v0)) (W (Proc.devRef .tc main_arg6)) (W (Proc.devRef .tc main_arg7))) := by
  unfold s4; after_results_simp; rfl

theorem s5a_v24 (W : Valuation τ sig (Elt F)) :
    after (s5a (F := F)) W (Proc.devRef .tc main_v24) = broadcastInDim S16x1x48 ![0, 2] bcast_S16x48_S16x1x48_0_2 (W (Proc.devRef .tc main_arg3)) := by
  unfold s5a; after_results_simp

theorem s5b_rd (W : Valuation τ sig (Elt F)) :
    rd (after (s5b (F := F)) W) (TRef.of (T := ⟨S16x64x48, .f32⟩) main_v25)
      = takeCoreF (rd W (TRef.of (T := ⟨S16x64x50000, .f32⟩) main_v23)) (rd W (TRef.of (T := ⟨S16x1x48, .i32⟩) main_v24)) := by
  unfold s5b; rd_results_simp; rfl

theorem s5b_v25 (W : Valuation τ sig (Elt F)) :
    after (s5b (F := F)) W (Proc.devRef .tc main_v25) = takeCoreF (W (Proc.devRef .tc main_v23)) (W (Proc.devRef .tc main_v24)) := by
  have e25 : ∀ X : Valuation τ sig (Elt F), rd X (TRef.of (T := ⟨S16x64x48, .f32⟩) main_v25) = X (Proc.devRef .tc main_v25) := fun _ => rfl
  have e23 : ∀ X : Valuation τ sig (Elt F), rd X (TRef.of (T := ⟨S16x64x50000, .f32⟩) main_v23) = X (Proc.devRef .tc main_v23) := fun _ => rfl
  have e24 : ∀ X : Valuation τ sig (Elt F), rd X (TRef.of (T := ⟨S16x1x48, .i32⟩) main_v24) = X (Proc.devRef .tc main_v24) := fun _ => rfl
  exact (e25 _).symm.trans ((s5b_rd W).trans (congrArg₂ takeCoreF (e23 W) (e24 W)))

theorem s6_v32 (W : Valuation τ sig (Elt F)) :
    after (s6 (F := F)) W (Proc.devRef .tc main_v32) = total (W (Proc.devRef .tc main_v8)) (W (Proc.devRef .tc main_v25)) := by
  unfold s6; after_results_simp; rfl

/-! ## What each stage leaves alone -/

theorem s1_fr_main_arg2 (W : Valuation τ sig (Elt F)) :
    after (s1 (F := F)) W (Proc.devRef .tc main_arg2) = W (Proc.devRef .tc main_arg2) := by
  unfold s1; after_results_simp
theorem s1_fr_main_arg3 (W : Valuation τ sig (Elt F)) :
    after (s1 (F := F)) W (Proc.devRef .tc main_arg3) = W (Proc.devRef .tc main_arg3) := by
  unfold s1; after_results_simp
theorem s1_fr_main_arg6 (W : Valuation τ sig (Elt F)) :
    after (s1 (F := F)) W (Proc.devRef .tc main_arg6) = W (Proc.devRef .tc main_arg6) := by
  unfold s1; after_results_simp
theorem s1_fr_main_arg7 (W : Valuation τ sig (Elt F)) :
    after (s1 (F := F)) W (Proc.devRef .tc main_arg7) = W (Proc.devRef .tc main_arg7) := by
  unfold s1; after_results_simp
theorem s2_fr_main_v0 (W : Valuation τ sig (Elt F)) :
    after (s2 (F := F)) W (Proc.devRef .tc main_v0) = W (Proc.devRef .tc main_v0) := by
  unfold s2; after_results_simp
theorem s2_fr_main_arg2 (W : Valuation τ sig (Elt F)) :
    after (s2 (F := F)) W (Proc.devRef .tc main_arg2) = W (Proc.devRef .tc main_arg2) := by
  unfold s2; after_results_simp
theorem s2_fr_main_arg3 (W : Valuation τ sig (Elt F)) :
    after (s2 (F := F)) W (Proc.devRef .tc main_arg3) = W (Proc.devRef .tc main_arg3) := by
  unfold s2; after_results_simp
theorem s2_fr_main_arg6 (W : Valuation τ sig (Elt F)) :
    after (s2 (F := F)) W (Proc.devRef .tc main_arg6) = W (Proc.devRef .tc main_arg6) := by
  unfold s2; after_results_simp
theorem s2_fr_main_arg7 (W : Valuation τ sig (Elt F)) :
    after (s2 (F := F)) W (Proc.devRef .tc main_arg7) = W (Proc.devRef .tc main_arg7) := by
  unfold s2; after_results_simp
theorem s3a_fr_main_v5 (W : Valuation τ sig (Elt F)) :
    after (s3a (F := F)) W (Proc.devRef .tc main_v5) = W (Proc.devRef .tc main_v5) := by
  unfold s3a; after_results_simp
theorem s3a_fr_main_v0 (W : Valuation τ sig (Elt F)) :
    after (s3a (F := F)) W (Proc.devRef .tc main_v0) = W (Proc.devRef .tc main_v0) := by
  unfold s3a; after_results_simp
theorem s3a_fr_main_arg3 (W : Valuation τ sig (Elt F)) :
    after (s3a (F := F)) W (Proc.devRef .tc main_arg3) = W (Proc.devRef .tc main_arg3) := by
  unfold s3a; after_results_simp
theorem s3a_fr_main_arg6 (W : Valuation τ sig (Elt F)) :
    after (s3a (F := F)) W (Proc.devRef .tc main_arg6) = W (Proc.devRef .tc main_arg6) := by
  unfold s3a; after_results_simp
theorem s3a_fr_main_arg7 (W : Valuation τ sig (Elt F)) :
    after (s3a (F := F)) W (Proc.devRef .tc main_arg7) = W (Proc.devRef .tc main_arg7) := by
  unfold s3a; after_results_simp
theorem s3b_fr_main_v0 (W : Valuation τ sig (Elt F)) :
    after (s3b (F := F)) W (Proc.devRef .tc main_v0) = W (Proc.devRef .tc main_v0) := by
  unfold s3b; after_results_simp
theorem s3b_fr_main_arg3 (W : Valuation τ sig (Elt F)) :
    after (s3b (F := F)) W (Proc.devRef .tc main_arg3) = W (Proc.devRef .tc main_arg3) := by
  unfold s3b; after_results_simp
theorem s3b_fr_main_arg6 (W : Valuation τ sig (Elt F)) :
    after (s3b (F := F)) W (Proc.devRef .tc main_arg6) = W (Proc.devRef .tc main_arg6) := by
  unfold s3b; after_results_simp
theorem s3b_fr_main_arg7 (W : Valuation τ sig (Elt F)) :
    after (s3b (F := F)) W (Proc.devRef .tc main_arg7) = W (Proc.devRef .tc main_arg7) := by
  unfold s3b; after_results_simp
theorem s3c_fr_main_v0 (W : Valuation τ sig (Elt F)) :
    after (s3c (F := F)) W (Proc.devRef .tc main_v0) = W (Proc.devRef .tc main_v0) := by
  unfold s3c; after_results_simp
theorem s3c_fr_main_arg3 (W : Valuation τ sig (Elt F)) :
    after (s3c (F := F)) W (Proc.devRef .tc main_arg3) = W (Proc.devRef .tc main_arg3) := by
  unfold s3c; after_results_simp
theorem s3c_fr_main_arg6 (W : Valuation τ sig (Elt F)) :
    after (s3c (F := F)) W (Proc.devRef .tc main_arg6) = W (Proc.devRef .tc main_arg6) := by
  unfold s3c; after_results_simp
theorem s3c_fr_main_arg7 (W : Valuation τ sig (Elt F)) :
    after (s3c (F := F)) W (Proc.devRef .tc main_arg7) = W (Proc.devRef .tc main_arg7) := by
  unfold s3c; after_results_simp
theorem s4_fr_main_v8 (W : Valuation τ sig (Elt F)) :
    after (s4 (F := F)) W (Proc.devRef .tc main_v8) = W (Proc.devRef .tc main_v8) := by
  unfold s4; after_results_simp
theorem s4_fr_main_arg3 (W : Valuation τ sig (Elt F)) :
    after (s4 (F := F)) W (Proc.devRef .tc main_arg3) = W (Proc.devRef .tc main_arg3) := by
  unfold s4; after_results_simp
theorem s5a_fr_main_v23 (W : Valuation τ sig (Elt F)) :
    after (s5a (F := F)) W (Proc.devRef .tc main_v23) = W (Proc.devRef .tc main_v23) := by
  unfold s5a; after_results_simp
theorem s5a_fr_main_v8 (W : Valuation τ sig (Elt F)) :
    after (s5a (F := F)) W (Proc.devRef .tc main_v8) = W (Proc.devRef .tc main_v8) := by
  unfold s5a; after_results_simp
theorem s5b_fr_main_v8 (W : Valuation τ sig (Elt F)) :
    after (s5b (F := F)) W (Proc.devRef .tc main_v8) = W (Proc.devRef .tc main_v8) := by
  unfold s5b; after_results_simp
theorem s7_fr_main_v32 (W : Valuation τ sig (Elt F)) :
    after (s7 (F := F)) W (Proc.devRef .tc main_v32) = W (Proc.devRef .tc main_v32) := by
  unfold s7; after_results_simp

/-! ## The first result as one pure function of the arguments -/

theorem after_v32 (V : Valuation τ sig (Elt F)) :
    after (ValueP.ops (F := F)) V (Proc.devRef .tc main_v32)
      = total
          (takeE (logSoftmax (logits (addf (V (Proc.devRef .tc main_arg0)) (V (Proc.devRef .tc main_arg1))) (V (Proc.devRef .tc main_arg4)) (V (Proc.devRef .tc main_arg5))))
            (V (Proc.devRef .tc main_arg2)))
          (takeF (softmax (logits (addf (V (Proc.devRef .tc main_arg0)) (V (Proc.devRef .tc main_arg1))) (V (Proc.devRef .tc main_arg6)) (V (Proc.devRef .tc main_arg7))))
            (V (Proc.devRef .tc main_arg3))) := by
  rw [ops_eq]
  simp only [after_append']
  rw [s7_fr_main_v32, s6_v32, s5b_v25, s5b_fr_main_v8, s5a_v24, s5a_fr_main_v23, s5a_fr_main_v8, s4_v23, s4_fr_main_v8, s4_fr_main_arg3, s3c_v8, s3c_fr_main_v0, s3c_fr_main_arg3, s3c_fr_main_arg6, s3c_fr_main_arg7, s3b_v7, s3b_fr_main_v0, s3b_fr_main_arg3, s3b_fr_main_arg6, s3b_fr_main_arg7, s3a_v6, s3a_fr_main_v5, s3a_fr_main_v0, s3a_fr_main_arg3, s3a_fr_main_arg6, s3a_fr_main_arg7, s2_v5, s2_fr_main_v0, s2_fr_main_arg2, s2_fr_main_arg3, s2_fr_main_arg6, s2_fr_main_arg7, s1_v4, s1_v0, s1_fr_main_arg2, s1_fr_main_arg3, s1_fr_main_arg6, s1_fr_main_arg7]
  rfl

end Cert.ReferenceIdeal.RefSide

end
-- ==== Proof.RefSideMath.lean ====
/-
  The reference's row functions read at an index, at the ideal reading.

  A head's logits at (b, s, v) are the latent row's inner product with the head's row v plus the bias at v. The running
  maximum of a row from −∞ and the row's sum from zero are read as a fold and a finite sum over the row; with them the
  reference's log-softmax and softmax at an entry are (x − M) − log(0 + Σ exp(x − M)) and exp(x − M) / (0 + Σ exp(x − M)).
  Over real logits the maximum M is a real number, and the two are the entry minus the row's log-sum-exp and its
  exponential.
-/
import proofs.«121325_j12979391169156_2_alg».proof.Proof.RefSideStages
import proofs.«121325_j12979391169156_2_alg».proof.Proof.LseSpec
import proofs.«121325_j12979391169156_2_alg».proof.Proof.LseMath
import Idealize.ShloMosaic.Lib.Pipeline.Value
import Idealize.ShloMosaic.Lib.ValueIdx
import Idealize.ShloMosaic.PureOps.Ideal.Laws

noncomputable section

namespace Cert.ReferenceIdeal.RefSide

open Cert.ReferenceIdeal Cert.ReferenceIdeal.Gen Idealize.ShloMosaic Idealize.ShloMosaic.ValueIdx Cert.Lib.RealsInEReal

/-! ## Bit patterns -/

/-- The word 0xFF800000 is −∞. -/
theorem ofBits_negInf : Ideal.ofBits .f32 0xFF800000#32 = ⊥ := by simp [Ideal.ofBits, Ideal.ieee]

/-- The NaN word 0x7FC00000 reads −∞ on the extended reals. -/
theorem ofBits_nan : Ideal.ofBits .f32 0x7FC00000#32 = ⊥ := by simp [Ideal.ofBits, Ideal.ieee]

/-! ## Shape facts with the inserted index named -/

theorem red_vocab : S16x64x50000.Reduces [2] S16x64 := by decide
theorem red_rows : S16x64x48.Reduces [1] S16x48 := by decide

theorem lift_vocab (b : Fin 16) (s : Fin 64) (k : Fin 50000) : red_vocab.lift (ix2 b s) k = ix3 b s k :=
  funext fun c => match c with
    | ⟨0, _⟩ => Fin.ext rfl
    | ⟨1, _⟩ => Fin.ext rfl
    | ⟨2, _⟩ => Fin.ext rfl

theorem lift_rows (b : Fin 16) (f : Fin 48) (s : Fin 64) : red_rows.lift (ix2 b f) s = ix3 b s f :=
  funext fun c => match c with
    | ⟨0, _⟩ => Fin.ext rfl
    | ⟨1, _⟩ => Fin.ext rfl
    | ⟨2, _⟩ => Fin.ext rfl

/-! ## A head's logits at an index -/

theorem logits_apply (z : S16x64x256.Idx → EReal) (Wm : S50000x256.Idx → EReal) (bias : S50000.Idx → EReal)
    (b : Fin 16) (s : Fin 64) (v : Fin 50000) :
    logits (F := Ideal) z Wm bias (ix3 b s v) = (∑ d : Fin 256, z (ix3 b s d) * Wm (ix2 v d)) + bias (ix1 v) := by
  unfold logits
  change _ + _ = _ + _
  refine congrArg₂ (· + ·) ?_ ?_
  · refine (Ideal.dotGeneral_apply dot_S16x64x256_S50000x256_S16x64x50000_2_1_01_0_n_n none .single z Wm (ix3 b s v)).trans ?_
    rw [← Equiv.sum_comp (contrEquiv1 dot_S16x64x256_S50000x256_S16x64x50000_2_1_01_0_n_n 256 rfl rfl).symm]
    refine Finset.sum_congr rfl fun c _ => ?_
    have c2 := contrEquiv1_symm_val dot_S16x64x256_S50000x256_S16x64x50000_2_1_01_0_n_n 256 rfl rfl c
    have l2 : dot_S16x64x256_S50000x256_S16x64x50000_2_1_01_0_n_n.lhsIdx (ix3 b s v)
        ((contrEquiv1 dot_S16x64x256_S50000x256_S16x64x50000_2_1_01_0_n_n 256 rfl rfl).symm c) = ix3 b s c :=
      funext fun ax => match ax with
        | ⟨0, _⟩ => Fin.ext rfl
        | ⟨1, _⟩ => Fin.ext rfl
        | ⟨2, _⟩ => Fin.ext c2
    have r2 : dot_S16x64x256_S50000x256_S16x64x50000_2_1_01_0_n_n.rhsIdx (ix3 b s v)
        ((contrEquiv1 dot_S16x64x256_S50000x256_S16x64x50000_2_1_01_0_n_n 256 rfl rfl).symm c) = ix2 v c :=
      funext fun ax => match ax with
        | ⟨0, _⟩ => Fin.ext rfl
        | ⟨1, _⟩ => Fin.ext c2
    rw [l2, r2]
  · refine (broadcastInDim_apply _ _ _ (ix3 b s v) (ix3 (0 : Fin 1) (0 : Fin 1) v)
      (fun a => match a with | ⟨0, _⟩ => rfl | ⟨1, _⟩ => rfl | ⟨2, _⟩ => rfl)).trans ?_
    exact broadcastInDim_apply _ _ _ (ix3 (0 : Fin 1) (0 : Fin 1) v) (ix1 v) (fun a => match a with | ⟨0, _⟩ => rfl)

/-! ## The row maximum, the row sum, the log-softmax and the softmax at an index -/

/-- The maximum of row (b, s) from −∞, as a fold over the row. -/
theorem reduce_max_apply (x : S16x64x50000.Idx → EReal) (b : Fin 16) (s : Fin 64) :
    Host.reduce (FloatOps.maximumf (F := Ideal) (φ := .f32)) x (constant (F := Ideal) S_ .f32 0xFF800000#32)
        reducesTo_S16x64x50000_S16x64_d2 h_S_ (ix2 b s)
      = (Finset.univ : Finset (Fin 50000)).fold max ⊥ fun k => x (ix3 b s k) := by
  refine (Host.reduce_eq_fold_single (FloatOps.maximumf (F := Ideal) (φ := .f32)) x _ reducesTo_S16x64x50000_S16x64_d2 red_vocab h_S_ (ix2 b s)).trans ?_
  have hl : (x ∘ red_vocab.lift (ix2 b s)) = fun k => x (ix3 b s k) := funext fun k => congrArg x (lift_vocab b s k)
  rw [hl]
  change Finset.fold max (Ideal.ofBits .f32 0xFF800000#32) _ _ = _
  rw [ofBits_negInf]
  rfl

theorem splat_negInf_apply (b : Fin 16) (s : Fin 64) :
    broadcastInDim S16x64 ![] bcast_S_S16x64 (constant (F := Ideal) S_ .f32 0xFF800000#32) (ix2 b s) = ⊥ := ofBits_negInf

theorem rowMax_apply (x : S16x64x50000.Idx → EReal) (b : Fin 16) (s : Fin 64) (v : Fin 50000) :
    rowMax (F := Ideal) x (ix3 b s v) = max ⊥ ((Finset.univ : Finset (Fin 50000)).fold max ⊥ fun k => x (ix3 b s k)) := by
  unfold rowMax
  refine (broadcastInDim_apply _ _ _ (ix3 b s v) (ix3 b s (0 : Fin 1))
    (fun a => match a with | ⟨0, _⟩ => rfl | ⟨1, _⟩ => rfl | ⟨2, _⟩ => rfl)).trans ?_
  refine (broadcastInDim_apply _ _ _ (ix3 b s (0 : Fin 1)) (ix2 b s)
    (fun a => match a with | ⟨0, _⟩ => rfl | ⟨1, _⟩ => rfl)).trans ?_
  rw [maximumf_apply, reduce_max_apply, splat_negInf_apply]

theorem rowSum_apply (e : S16x64x50000.Idx → EReal) (b : Fin 16) (s : Fin 64) :
    rowSum (F := Ideal) e (ix3 b s (0 : Fin 1)) = 0 + ∑ k : Fin 50000, e (ix3 b s k) := by
  unfold rowSum
  refine (broadcastInDim_apply _ _ _ (ix3 b s (0 : Fin 1)) (ix2 b s)
    (fun a => match a with | ⟨0, _⟩ => rfl | ⟨1, _⟩ => rfl)).trans ?_
  refine (Ideal.hostReduceAdd_single reducesTo_S16x64x50000_S16x64_d2 red_vocab e _ (ix2 b s)).trans ?_
  refine congrArg₂ (· + ·) Ideal.ofBits_zero_f32 (Finset.sum_congr rfl fun k _ => congrArg e (lift_vocab b s k))

/-! ## Host operations at an index, at the ideal reading -/

theorem hostLog_apply {s : Shape} (y : FVec Ideal s .f32) (i : s.Idx) : Host.log y i = Ideal.log (y i) := rfl
theorem hostExp_apply {s : Shape} (y : FVec Ideal s .f32) (i : s.Idx) : Host.exp y i = Ideal.exp (y i) := rfl
theorem hostDivf_apply {s : Shape} (a c : FVec Ideal s .f32) (i : s.Idx) : Host.divf a c i = Ideal.div (a i) (c i) := rfl

/-- A column spread over its row reads the column's entry. -/
theorem bcast_col_apply (c : FVec Ideal S16x64x1 .f32) (b : Fin 16) (s : Fin 64) (v : Fin 50000) :
    broadcastInDim S16x64x50000 ![0, 1, 2] bcast_S16x64x1_S16x64x50000_0_1_2 c (ix3 b s v) = c (ix3 b s (0 : Fin 1)) :=
  broadcastInDim_apply _ _ _ (ix3 b s v) (ix3 b s (0 : Fin 1))
    (fun a => match a with | ⟨0, _⟩ => rfl | ⟨1, _⟩ => rfl | ⟨2, _⟩ => rfl)

/-- The running maximum of row (b, s), from −∞. -/
def rowM (x : S16x64x50000.Idx → EReal) (b : Fin 16) (s : Fin 64) : EReal :=
  max ⊥ ((Finset.univ : Finset (Fin 50000)).fold max ⊥ fun k => x (ix3 b s k))

theorem rowMax_eq_rowM (x : S16x64x50000.Idx → EReal) (b : Fin 16) (s : Fin 64) (v : Fin 50000) :
    rowMax (F := Ideal) x (ix3 b s v) = rowM x b s := rowMax_apply x b s v

theorem logSoftmax_apply (x : S16x64x50000.Idx → EReal) (b : Fin 16) (s : Fin 64) (v : Fin 50000) :
    logSoftmax (F := Ideal) x (ix3 b s v)
      = (x (ix3 b s v) - rowM x b s) - Ideal.log (0 + ∑ k : Fin 50000, Ideal.exp (x (ix3 b s k) - rowM x b s)) := by
  unfold logSoftmax
  rw [subf_apply, subf_apply, bcast_col_apply, hostLog_apply, rowSum_apply, rowMax_eq_rowM]
  refine congrArg₂ (· - ·) rfl (congrArg Ideal.log (congrArg (0 + ·) (Finset.sum_congr rfl fun k _ => ?_)))
  rw [hostExp_apply, subf_apply, rowMax_eq_rowM]

theorem softmax_apply (x : S16x64x50000.Idx → EReal) (b : Fin 16) (s : Fin 64) (v : Fin 50000) :
    softmax (F := Ideal) x (ix3 b s v)
      = Ideal.div (Ideal.exp (x (ix3 b s v) - rowM x b s)) (0 + ∑ k : Fin 50000, Ideal.exp (x (ix3 b s k) - rowM x b s)) := by
  unfold softmax
  rw [hostDivf_apply, hostExp_apply, subf_apply, bcast_col_apply, rowSum_apply, rowMax_eq_rowM]
  refine congrArg (Ideal.div _) (congrArg (0 + ·) (Finset.sum_congr rfl fun k _ => ?_))
  rw [hostExp_apply, subf_apply, rowMax_eq_rowM]

/-! ## Over real logits: the reference's stabilised forms are the plain ones -/

theorem toReal_of_isReal {a : EReal} (h : IsReal a) : ((a.toReal : ℝ) : EReal) = a := by
  obtain ⟨r, rfl⟩ := h; rw [EReal.toReal_coe]

theorem rowM_isReal (x : S16x64x50000.Idx → EReal) (b : Fin 16) (s : Fin 64) (hx : ∀ k, IsReal (x (ix3 b s k))) :
    IsReal (rowM x b s) := by
  unfold rowM
  rw [max_bot_left]
  exact Cert.LseMath.fold_max_bot_isReal Finset.univ _ (fun k _ => hx k) Finset.univ_nonempty

/-- A row's log-softmax over real logits: the entry minus the row's log-sum-exp. -/
theorem logSoftmax_real (x : S16x64x50000.Idx → EReal) (b : Fin 16) (s : Fin 64) (hx : ∀ k, IsReal (x (ix3 b s k)))
    (v : Fin 50000) :
    logSoftmax (F := Ideal) x (ix3 b s v)
      = x (ix3 b s v) - ((Real.log (∑ k : Fin 50000, Real.exp (x (ix3 b s k)).toReal) : ℝ) : EReal) := by
  obtain ⟨M, hM⟩ := rowM_isReal x b s hx
  have hy : ∀ k, x (ix3 b s k) = (((x (ix3 b s k)).toReal : ℝ) : EReal) := fun k => (toReal_of_isReal (hx k)).symm
  rw [logSoftmax_apply, hM]
  have hs : ∑ k : Fin 50000, Ideal.exp (x (ix3 b s k) - (M : EReal))
      = ∑ k : Fin 50000, Ideal.exp ((((x (ix3 b s k)).toReal : ℝ) : EReal) - (M : EReal)) :=
    Finset.sum_congr rfl fun k _ => by rw [← hy k]
  rw [hs]
  conv_lhs => rw [hy v]
  rw [Cert.LseMath.ref_log_prob Finset.univ Finset.univ_nonempty (fun k => (x (ix3 b s k)).toReal) M, EReal.coe_sub, ← hy v]

/-- A row's softmax over real logits: the exponential of the entry minus the row's log-sum-exp. -/
theorem softmax_real (x : S16x64x50000.Idx → EReal) (b : Fin 16) (s : Fin 64) (hx : ∀ k, IsReal (x (ix3 b s k)))
    (v : Fin 50000) :
    softmax (F := Ideal) x (ix3 b s v)
      = Ideal.exp (x (ix3 b s v) - ((Real.log (∑ k : Fin 50000, Real.exp (x (ix3 b s k)).toReal) : ℝ) : EReal)) := by
  obtain ⟨M, hM⟩ := rowM_isReal x b s hx
  have hy : ∀ k, x (ix3 b s k) = (((x (ix3 b s k)).toReal : ℝ) : EReal) := fun k => (toReal_of_isReal (hx k)).symm
  rw [softmax_apply, hM]
  have hs : ∑ k : Fin 50000, Ideal.exp (x (ix3 b s k) - (M : EReal))
      = ∑ k : Fin 50000, Ideal.exp ((((x (ix3 b s k)).toReal : ℝ) : EReal) - (M : EReal)) :=
    Finset.sum_congr rfl fun k _ => by rw [← hy k]
  rw [hs]
  conv_lhs => rw [hy v]
  conv_rhs => rw [hy v]
  rw [Cert.LseMath.ref_prob Finset.univ Finset.univ_nonempty (fun k => (x (ix3 b s k)).toReal) M, ← EReal.coe_sub, Ideal.exp_coe]

end Cert.ReferenceIdeal.RefSide

end
-- ==== Proof.RefTotal.lean ====
/-
  The reference's last steps, read on the extended reals: the first result from the two gathered arrays — the sum over
  the rows of the English entries, plus the sum over (batch, target position) of the log of the mean over the 64 rows
  of the French entries — and the second result, the KL sum over the latent's entries.
-/
import proofs.«121325_j12979391169156_2_alg».proof.Proof.RefSideStages
import proofs.«121325_j12979391169156_2_alg».proof.Proof.LseSpec
import Idealize.ShloMosaic.Lib.IdealHost
import Idealize.ShloMosaic.Lib.ValueIdx
import Idealize.ShloMosaic.PureOps.Ideal.Laws

set_option maxRecDepth 16384

noncomputable section

namespace Cert.ReferenceIdeal.RefTotal

open Cert.ReferenceIdeal Cert.ReferenceIdeal.Gen Cert.ReferenceIdeal.RefSide
open Idealize.ShloMosaic Idealize.ShloMosaic.ValueIdx

/-- Summing a [16, 64, 48] array over its rows: the source index over (b, f) with row s inserted is (b, s, f). -/
theorem lift_rows (hR : S16x64x48.Reduces [1] S16x48) (j : S16x48.Idx) (s : Fin 64) : hR.lift j s = ix3 (j 0) s (j 1) := by
  funext a; refine Fin.ext ?_
  match a with
  | ⟨0, _⟩ => rfl
  | ⟨1, _⟩ => rfl
  | ⟨2, _⟩ => rfl

/-- THE FIRST RESULT from the two gathered arrays. -/
theorem total_apply (e : FVec Ideal S16x64 .f32) (p : FVec Ideal S16x64x48 .f32) :
    total (F := Ideal) e p
      = fun _ => (0 + ∑ i : S16x64.Idx, e i)
          + (0 + ∑ j : S16x48.Idx, Ideal.log (Ideal.div (0 + ∑ s : Fin 64, p (ix3 (j 0) s (j 1))) (Ideal.ofBits .f32 0x42800000#32))) := by
  have hR : S16x64x48.Reduces [1] S16x48 := by decide
  funext k
  unfold total
  refine (addf_apply _ _ _).trans ?_
  refine congrArg₂ (· + ·) ?_ ?_
  · refine (hostReduceAdd_apply _ _ _ _ _).trans ?_
    refine (Ideal.hostReduceAdd_total reducesTo_S16x64_S_d0_1 (fun b => b.elim0) _ _ _).trans ?_
    rw [constant_apply, Ideal.ofBits_zero_f32]
  · refine (hostReduceAdd_apply _ _ _ _ _).trans ?_
    refine (Ideal.hostReduceAdd_total reducesTo_S16x48_S_d0_1 (fun b => b.elim0) _ _ _).trans ?_
    rw [constant_apply, Ideal.ofBits_zero_f32]
    refine congrArg (0 + ·) (Finset.sum_congr rfl fun j _ => ?_)
    show Ideal.log (Ideal.div (Host.reduceAdd p (constant (F := Ideal) S_ .f32 0x00000000#32) reducesTo_S16x64x48_S16x48_d1 h_S_ j)
      (broadcastInDim S16x48 ![] bcast_S_S16x48 (constant (F := Ideal) S_ .f32 0x42800000#32) j)) = _
    rw [hostReduceAdd_apply, broadcastInDim_scalar_apply, constant_apply, constant_apply, Ideal.ofBits_zero_f32,
      Ideal.hostReduceAdd_single reducesTo_S16x64x48_S16x48_d1 hR]
    refine congrArg (fun x => Ideal.log (Ideal.div (0 + x) _)) (Finset.sum_congr rfl fun s _ => ?_)
    exact congrArg p (lift_rows hR j s)

/-- THE SECOND RESULT: the KL sum, as the reference's run states it. -/
theorem kl_apply (mu sg : FVec Ideal S16x64x256 .f32) :
    (Host.reduceAdd (subf (addf (Host.negf (Host.log sg)) (mulf (broadcastInDim S16x64x256 ![] bcast_S_S16x64x256 (constant S_ .f32 0x3F000000#32)) (addf (mulf sg sg) (mulf mu mu)))) (broadcastInDim S16x64x256 ![] bcast_S_S16x64x256 (constant S_ .f32 0x3F000000#32))) (constant S_ .f32 0x00000000#32) reducesTo_S16x64x256_S_d0_1_2 h_S_ : (⟨S_, .f32⟩ : BufTy).Contents (Elt Ideal))
      = fun _ => Cert.LseSpec.kl mu sg := by
  funext k
  refine (hostReduceAdd_apply _ _ _ _ _).trans ?_
  refine (Ideal.hostReduceAdd_total reducesTo_S16x64x256_S_d0_1_2 (fun b => b.elim0) _ _ _).trans ?_
  rw [constant_apply, Ideal.ofBits_zero_f32]
  unfold Cert.LseSpec.kl
  refine congrArg (0 + ·) (Finset.sum_congr rfl fun i _ => ?_)
  unfold Cert.LseSpec.klEntry
  show (-(Ideal.log (sg i)) + (broadcastInDim S16x64x256 ![] bcast_S_S16x64x256 (constant (F := Ideal) S_ .f32 0x3F000000#32) i) * (sg i * sg i + mu i * mu i))
      - (broadcastInDim S16x64x256 ![] bcast_S_S16x64x256 (constant (F := Ideal) S_ .f32 0x3F000000#32) i) = _
  rw [broadcastInDim_scalar_apply, constant_apply]

end Cert.ReferenceIdeal.RefTotal

end
-- ==== Proof.RefTake.lean ====
/-
  The reference's two reads of a target word's entry out of a [16, 64, 50000] array, each at an index: the entry the
  normalised index names, −∞ where it names no word.
-/
import proofs.«121325_j12979391169156_2_alg».proof.Proof.RefSideStages
import proofs.«121325_j12979391169156_2_alg».proof.Proof.TailSide
import proofs.«121325_j12979391169156_2_alg».proof.Proof.LseSpec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.ReferenceIdeal.RefTake

open Cert.ReferenceIdeal Cert.ReferenceIdeal.Gen Cert.ReferenceIdeal.RefSide
open Idealize.ShloMosaic Idealize.ShloMosaic.TcCoe Idealize.ShloMosaic.ValueIdx
open Cert.KernelIdeal.TailSide (select_ofBool mask_word bcast_last ofBits_nan)
open Cert.LseSpec (wrap InRange pos)

/-! ## The English read -/

/-- The normalised English index at (b, s). -/
theorem wrapE_apply (i : IVec S16x64x1 32) (b : Fin 16) (s : Fin 64) :
    wrapE (F := Ideal) i (ix4 b s (0 : Fin 1) (0 : Fin 1)) = wrap (i (ix3 b s (0 : Fin 1))) := by
  unfold wrapE
  refine (shapeCast_apply _ shapeCasts_S16x64x1_S16x64x1x1 (ix4 b s (0 : Fin 1) (0 : Fin 1)) (ix3 b s (0 : Fin 1)) ?_).trans ?_
  · rw [Shape.rowMajor_val_three, Shape.rowMajor_val_four]
    show (b.val * 64 + s.val) * 1 + 0 = ((b.val * 64 + s.val) * 1 + 0) * 1 + 0
    omega
  show Scalar.select (BitVec.ofBool ((i (ix3 b s (0 : Fin 1))).slt 0#32)) (i (ix3 b s (0 : Fin 1)) + 50000#32) (i (ix3 b s (0 : Fin 1))) = _
  rw [select_ofBool]; rfl

/-- The English mask at (b, s): the normalised index names a word. -/
theorem inRangeE_apply (j : IVec S16x64x1x1 32) (b : Fin 16) (s : Fin 64) :
    inRangeE (F := Ideal) j (ix3 b s (0 : Fin 1))
      = if 0 ≤ (j (ix4 b s (0 : Fin 1) (0 : Fin 1))).toInt ∧ (j (ix4 b s (0 : Fin 1) (0 : Fin 1))).toInt ≤ 49999 then 1#1 else 0#1 := by
  unfold inRangeE
  have hR : S16x64x1x1.Reduces [3] S16x64x1 := by decide
  have key : ∀ (f : Fin 1 → BitVec 1) (v : BitVec 1),
      (Finset.univ : Finset (Fin 1)).fold IntOp.andi v f = IntOp.andi (f 0) v := by
    intro f v; rw [show (Finset.univ : Finset (Fin 1)) = {0} from rfl, Finset.fold_singleton]
  have hl : hR.lift (ix3 b s (0 : Fin 1)) (0 : Fin 1) = ix4 b s (0 : Fin 1) (0 : Fin 1) := by
    funext a; refine Fin.ext ?_
    match a with
    | ⟨0, _⟩ => rfl
    | ⟨1, _⟩ => rfl
    | ⟨2, _⟩ => rfl
    | ⟨3, _⟩ => rfl
  rw [Host.reduce_eq_fold_single IntOp.andi _ _ reducesTo_S16x64x1x1_S16x64x1_d3 hR h_S_ (ix3 b s (0 : Fin 1))]
  refine (key _ _).trans ?_
  show IntOp.andi (IntOp.andi (IntOp.cmpi .sge (j (hR.lift (ix3 b s (0 : Fin 1)) (0 : Fin 1))) 0#32)
      (IntOp.cmpi .sle (j (hR.lift (ix3 b s (0 : Fin 1)) (0 : Fin 1))) 49999#32)) 1#1 = _
  rw [hl]
  exact mask_word (j (ix4 b s (0 : Fin 1) (0 : Fin 1)))

/-- The English gather at (b, s): row (b, s)'s entry at the start index, read signed and clamped into the vocabulary. -/
theorem gatherE_apply (x : FVec Ideal S16x64x50000 .f32) (j : IVec S16x64x1x1 32) (b : Fin 16) (s : Fin 64) :
    Host.gather gather_S16x64x50000_S16x64x1x1_S16x64x1_n_2_01_01_2_3_111 x j (ix3 b s (0 : Fin 1))
      = x (ix3 b s (⟨min (j (ix4 b s (0 : Fin 1) (0 : Fin 1))).toInt.toNat 49999, by omega⟩ : Fin 50000)) := by
  unfold Host.gather
  congr 1
  funext a
  refine Fin.ext ?_
  show gather_S16x64x50000_S16x64x1x1_S16x64x1_n_2_01_01_2_3_111.start (ix3 b s (0 : Fin 1)) j a
      + gather_S16x64x50000_S16x64x1x1_S16x64x1_n_2_01_01_2_3_111.batchCoord (ix3 b s (0 : Fin 1)) a
      + gather_S16x64x50000_S16x64x1x1_S16x64x1_n_2_01_01_2_3_111.offCoord (ix3 b s (0 : Fin 1)) a = _
  have ha : a = (0 : Fin 3) ∨ a = (1 : Fin 3) ∨ a = (2 : Fin 3) := by
    rcases a with ⟨v, hv⟩
    have hv3 : v < 3 := hv
    interval_cases v
    · exact Or.inl rfl
    · exact Or.inr (Or.inl rfl)
    · exact Or.inr (Or.inr rfl)
  rcases ha with rfl | rfl | rfl
  · have hs : gather_S16x64x50000_S16x64x1x1_S16x64x1_n_2_01_01_2_3_111.start (ix3 b s (0 : Fin 1)) j (0 : Fin 3) = 0 := by
      unfold GatherDims.start; rw [dif_neg (by decide)]
    have ho : gather_S16x64x50000_S16x64x1x1_S16x64x1_n_2_01_01_2_3_111.offCoord (ix3 b s (0 : Fin 1)) (0 : Fin 3) = 0 :=
      GatherDims.offCoord_eq_zero _ _ _ (fun h => ((GatherDims.mem_sKept _ _).mp h).2 (by decide))
    rw [hs, ho]
    simp only [Nat.zero_add, Nat.add_zero]
    unfold GatherDims.batchCoord
    rw [dif_pos (by decide)]
    rfl
  · have hs : gather_S16x64x50000_S16x64x1x1_S16x64x1_n_2_01_01_2_3_111.start (ix3 b s (0 : Fin 1)) j (1 : Fin 3) = 0 := by
      unfold GatherDims.start; rw [dif_neg (by decide)]
    have ho : gather_S16x64x50000_S16x64x1x1_S16x64x1_n_2_01_01_2_3_111.offCoord (ix3 b s (0 : Fin 1)) (1 : Fin 3) = 0 :=
      GatherDims.offCoord_eq_zero _ _ _ (fun h => ((GatherDims.mem_sKept _ _).mp h).2 (by decide))
    rw [hs, ho]
    simp only [Nat.zero_add, Nat.add_zero]
    unfold GatherDims.batchCoord
    rw [dif_pos (by decide)]
    rfl
  · have hmem : (2 : Fin 3) ∈ gather_S16x64x50000_S16x64x1x1_S16x64x1_n_2_01_01_2_3_111.startIndexMap := by decide
    have hb : gather_S16x64x50000_S16x64x1x1_S16x64x1_n_2_01_01_2_3_111.batchCoord (ix3 b s (0 : Fin 1)) (2 : Fin 3) = 0 :=
      GatherDims.batchCoord_eq_zero _ _ _ (by decide)
    have ho : gather_S16x64x50000_S16x64x1x1_S16x64x1_n_2_01_01_2_3_111.offCoord (ix3 b s (0 : Fin 1)) (2 : Fin 3) = 0 :=
      GatherDims.offCoord_eq_zero _ _ _ (fun h => ((GatherDims.mem_sKept _ _).mp h).1 (by decide))
    rw [hb, ho]
    simp only [Nat.add_zero]
    unfold GatherDims.start
    rw [dif_pos hmem]
    have hsi : gather_S16x64x50000_S16x64x1x1_S16x64x1_n_2_01_01_2_3_111.siIdx (ix3 b s (0 : Fin 1))
        ⟨List.idxOf (2 : Fin 3) gather_S16x64x50000_S16x64x1x1_S16x64x1_n_2_01_01_2_3_111.startIndexMap,
          List.idxOf_lt_length_iff.2 hmem⟩ = ix4 b s (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

/-- THE ENGLISH READ at (b, s): row (b, s)'s entry at the word the normalised index names, −∞ when it names none. -/
theorem takeE_apply (x : FVec Ideal S16x64x50000 .f32) (idx : IVec S16x64 32) (b : Fin 16) (s : Fin 64) :
    takeE (F := Ideal) x idx (ix2 b s)
      = if InRange (idx (ix2 b s)) then x (ix3 b s (pos (idx (ix2 b s)))) else ⊥ := by
  unfold takeE
  refine (shapeCast_apply _ shapeCasts_S16x64x1_S16x64 (ix2 b s) (ix3 b s (0 : Fin 1)) ?_).trans ?_
  · rw [Shape.rowMajor_val_three, Shape.rowMajor_val_two]
    show (b.val * 64 + s.val) * 1 + 0 = b.val * 64 + s.val
    omega
  unfold takeCoreE
  have hw : wrapE (F := Ideal) (broadcastInDim S16x64x1 ![0, 1] bcast_S16x64_S16x64x1_0_1 idx) (ix4 b s (0 : Fin 1) (0 : Fin 1)) = wrap (idx (ix2 b s)) := by
    rw [wrapE_apply, bcast_last bcast_S16x64_S16x64x1_0_1 idx b s 0]
  generalize wrapE (F := Ideal) (broadcastInDim S16x64x1 ![0, 1] bcast_S16x64_S16x64x1_0_1 idx) = J at hw ⊢
  show Scalar.select (inRangeE (F := Ideal) J (ix3 b s (0 : Fin 1)))
      (Host.gather gather_S16x64x50000_S16x64x1x1_S16x64x1_n_2_01_01_2_3_111 x J (ix3 b s (0 : Fin 1))) (Ideal.ofBits .f32 0x7FC00000#32) = _
  rw [inRangeE_apply, gatherE_apply, ofBits_nan]
  by_cases h : InRange (idx (ix2 b s))
  · have h' : 0 ≤ (J (ix4 b s (0 : Fin 1) (0 : Fin 1))).toInt ∧ (J (ix4 b s (0 : Fin 1) (0 : Fin 1))).toInt ≤ 49999 := by
      rw [hw]; exact h
    rw [if_pos h', if_pos h, select_one]
    refine congrArg x (congrArg (fun q : Fin 50000 => ix3 b s q) (Fin.ext ?_))
    show min (J (ix4 b s (0 : Fin 1) (0 : Fin 1))).toInt.toNat 49999 = min (wrap (idx (ix2 b s))).toInt.toNat 49999
    rw [hw]
  · have h' : ¬ (0 ≤ (J (ix4 b s (0 : Fin 1) (0 : Fin 1))).toInt ∧ (J (ix4 b s (0 : Fin 1) (0 : Fin 1))).toInt ≤ 49999) := by
      rw [hw]; exact h
    rw [if_neg h', if_neg h, select_zero]

/-! ## The French read -/

/-- The normalised French index at (b, f). -/
theorem wrapF_apply (i : IVec S16x1x48 32) (b : Fin 16) (f : Fin 48) :
    wrapF (F := Ideal) i (ix3 b f (0 : Fin 1)) = wrap (i (ix3 b (0 : Fin 1) f)) := by
  unfold wrapF
  refine (shapeCast_apply _ shapeCasts_S16x1x48_S16x48x1 (ix3 b f (0 : Fin 1)) (ix3 b (0 : Fin 1) f) ?_).trans ?_
  · rw [Shape.rowMajor_val_three, Shape.rowMajor_val_three]
    show (b.val * 1 + 0) * 48 + f.val = (b.val * 48 + f.val) * 1 + 0
    omega
  show Scalar.select (BitVec.ofBool ((i (ix3 b (0 : Fin 1) f)).slt 0#32)) (i (ix3 b (0 : Fin 1) f) + 50000#32) (i (ix3 b (0 : Fin 1) f)) = _
  rw [select_ofBool]; rfl

/-- The French mask at (b, f): the normalised index names a word. -/
theorem inRangeF_apply (j : IVec S16x48x1 32) (b : Fin 16) (f : Fin 48) :
    inRangeF (F := Ideal) j (ix2 b f)
      = if 0 ≤ (j (ix3 b f (0 : Fin 1))).toInt ∧ (j (ix3 b f (0 : Fin 1))).toInt ≤ 49999 then 1#1 else 0#1 := by
  unfold inRangeF
  rw [Cert.KernelIdeal.TailSide.reduce_unit (R := 16) (C := 48) reducesTo_S16x48x1_S16x48_d2 (by decide) h_S_]
  show IntOp.andi (IntOp.andi (IntOp.cmpi .sge (j (ix3 b f (0 : Fin 1))) 0#32)
      (IntOp.cmpi .sle (j (ix3 b f (0 : Fin 1))) 49999#32)) 1#1 = _
  exact mask_word (j (ix3 b f (0 : Fin 1)))

/-- The French gather at (b, s, f): row (b, s)'s entry at the start index of target position f of batch b, read signed
    and clamped into the vocabulary. -/
theorem gatherF_apply (p : FVec Ideal S16x64x50000 .f32) (j : IVec S16x48x1 32) (b : Fin 16) (s : Fin 64) (f : Fin 48) :
    Host.gather gather_S16x64x50000_S16x48x1_S16x64x48_1_2_0_0_2_2_1641 p j (ix3 b s f)
      = p (ix3 b s (⟨min (j (ix3 b f (0 : Fin 1))).toInt.toNat 49999, by omega⟩ : Fin 50000)) := by
  unfold Host.gather
  congr 1
  funext a
  refine Fin.ext ?_
  show gather_S16x64x50000_S16x48x1_S16x64x48_1_2_0_0_2_2_1641.start (ix3 b s f) j a + gather_S16x64x50000_S16x48x1_S16x64x48_1_2_0_0_2_2_1641.batchCoord (ix3 b s f) a + gather_S16x64x50000_S16x48x1_S16x64x48_1_2_0_0_2_2_1641.offCoord (ix3 b s f) a = _
  have ha : a = (0 : Fin 3) ∨ a = (1 : Fin 3) ∨ a = (2 : Fin 3) := by
    rcases a with ⟨v, hv⟩
    have hv3 : v < 3 := hv
    interval_cases v
    · exact Or.inl rfl
    · exact Or.inr (Or.inl rfl)
    · exact Or.inr (Or.inr rfl)
  rcases ha with rfl | rfl | rfl
  · have hs : gather_S16x64x50000_S16x48x1_S16x64x48_1_2_0_0_2_2_1641.start (ix3 b s f) j (0 : Fin 3) = 0 := by
      unfold GatherDims.start; rw [dif_neg (by decide)]
    have ho : gather_S16x64x50000_S16x48x1_S16x64x48_1_2_0_0_2_2_1641.offCoord (ix3 b s f) (0 : Fin 3) = 0 :=
      GatherDims.offCoord_eq_zero _ _ _ (fun h => ((GatherDims.mem_sKept _ _).mp h).2 (by decide))
    rw [hs, ho]
    simp only [Nat.zero_add, Nat.add_zero]
    unfold GatherDims.batchCoord
    rw [dif_pos (by decide)]
    rfl
  · have hs : gather_S16x64x50000_S16x48x1_S16x64x48_1_2_0_0_2_2_1641.start (ix3 b s f) j (1 : Fin 3) = 0 := by
      unfold GatherDims.start; rw [dif_neg (by decide)]
    have hb : gather_S16x64x50000_S16x48x1_S16x64x48_1_2_0_0_2_2_1641.batchCoord (ix3 b s f) (1 : Fin 3) = 0 := GatherDims.batchCoord_eq_zero _ _ _ (by decide)
    rw [hs, hb]
    simp only [Nat.zero_add, Nat.add_zero]
    unfold GatherDims.offCoord
    rw [dif_pos (by decide)]
    rfl
  · have hmem : (2 : Fin 3) ∈ gather_S16x64x50000_S16x48x1_S16x64x48_1_2_0_0_2_2_1641.startIndexMap := by decide
    have hb : gather_S16x64x50000_S16x48x1_S16x64x48_1_2_0_0_2_2_1641.batchCoord (ix3 b s f) (2 : Fin 3) = 0 := GatherDims.batchCoord_eq_zero _ _ _ (by decide)
    have ho : gather_S16x64x50000_S16x48x1_S16x64x48_1_2_0_0_2_2_1641.offCoord (ix3 b s f) (2 : Fin 3) = 0 :=
      GatherDims.offCoord_eq_zero _ _ _ (fun h => ((GatherDims.mem_sKept _ _).mp h).1 (by decide))
    rw [hb, ho]
    simp only [Nat.add_zero]
    unfold GatherDims.start
    rw [dif_pos hmem]
    have hsi : gather_S16x64x50000_S16x48x1_S16x64x48_1_2_0_0_2_2_1641.siIdx (ix3 b s f) ⟨List.idxOf (2 : Fin 3) gather_S16x64x50000_S16x48x1_S16x64x48_1_2_0_0_2_2_1641.startIndexMap, List.idxOf_lt_length_iff.2 hmem⟩
        = ix3 b f (0 : Fin 1) := by
      funext c; refine Fin.ext ?_
      match c with
      | ⟨0, _⟩ => rfl
      | ⟨1, _⟩ => rfl
      | ⟨2, _⟩ => rfl
    rw [hsi]
    rfl

/-- THE FRENCH READ at (b, s, f): row (b, s)'s entry at the word the normalised index of target position f of batch b
    names, −∞ when it names none. -/
theorem takeF_apply (p : FVec Ideal S16x64x50000 .f32) (idx : IVec S16x48 32) (b : Fin 16) (s : Fin 64) (f : Fin 48) :
    takeF (F := Ideal) p idx (ix3 b s f)
      = if InRange (idx (ix2 b f)) then p (ix3 b s (pos (idx (ix2 b f)))) else ⊥ := by
  unfold takeF takeCoreF
  have hI : (broadcastInDim S16x1x48 ![0, 2] bcast_S16x48_S16x1x48_0_2 idx) (ix3 b (0 : Fin 1) f) = idx (ix2 b f) := by
    refine broadcastInDim_apply _ bcast_S16x48_S16x1x48_0_2 idx (ix3 b (0 : Fin 1) f) (ix2 b f) fun a => ?_
    match a with
    | ⟨0, _⟩ => rfl
    | ⟨1, _⟩ => rfl
  have hw : wrapF (F := Ideal) (broadcastInDim S16x1x48 ![0, 2] bcast_S16x48_S16x1x48_0_2 idx) (ix3 b f (0 : Fin 1)) = wrap (idx (ix2 b f)) := by
    rw [wrapF_apply, hI]
  generalize wrapF (F := Ideal) (broadcastInDim S16x1x48 ![0, 2] bcast_S16x48_S16x1x48_0_2 idx) = J at hw ⊢
  have hm : (broadcastInDim S16x64x48 ![0, 2] bcast_S16x48_S16x64x48_0_2 (inRangeF (F := Ideal) J)) (ix3 b s f)
      = inRangeF (F := Ideal) J (ix2 b f) := by
    refine broadcastInDim_apply _ bcast_S16x48_S16x64x48_0_2 _ (ix3 b s f) (ix2 b f) fun a => ?_
    match a with
    | ⟨0, _⟩ => rfl
    | ⟨1, _⟩ => rfl
  show Scalar.select ((broadcastInDim S16x64x48 ![0, 2] bcast_S16x48_S16x64x48_0_2 (inRangeF (F := Ideal) J)) (ix3 b s f))
      (Host.gather gather_S16x64x50000_S16x48x1_S16x64x48_1_2_0_0_2_2_1641 p J (ix3 b s f)) (Ideal.ofBits .f32 0x7FC00000#32) = _
  rw [hm, inRangeF_apply, gatherF_apply, ofBits_nan]
  by_cases h : InRange (idx (ix2 b f))
  · have h' : 0 ≤ (J (ix3 b f (0 : Fin 1))).toInt ∧ (J (ix3 b f (0 : Fin 1))).toInt ≤ 49999 := by
      rw [hw]; exact h
    rw [if_pos h', if_pos h, select_one]
    refine congrArg p (congrArg (fun q : Fin 50000 => ix3 b s q) (Fin.ext ?_))
    show min (J (ix3 b f (0 : Fin 1))).toInt.toNat 49999 = min (wrap (idx (ix2 b f))).toInt.toNat 49999
    rw [hw]
  · have h' : ¬ (0 ≤ (J (ix3 b f (0 : Fin 1))).toInt ∧ (J (ix3 b f (0 : Fin 1))).toInt ≤ 49999) := by
      rw [hw]; exact h
    rw [if_neg h', if_neg h, select_zero]

end Cert.ReferenceIdeal.RefTake

end
-- ==== Proof.RefSideJoin.lean ====
/-
  The reference's two results are the specification.

  The first result is, by the staged reading of the reference's run, total (takeE (logSoftmax x_e) english)
  (takeF (softmax x_f) french), where x_e and x_f are the two heads' logits of the latent rows. Read at an index,
  the total's English summand at row (b, s) is the row's log-softmax at the target word — over real logits the word's
  logit minus the row's log-sum-exp — or −∞ where the index names no word; its French summand at (b, f) is the log of
  the mean over the 64 rows of the softmax at the target word, the exponential of (logit − log-sum-exp), or −∞ where
  the index names no word: there every gathered entry is −∞, so is their sum from zero, so is its quotient by 64, and
  so is the log. These are the specification's termE and termF summand by summand. The second result is the KL sum.
-/
import proofs.«121325_j12979391169156_2_alg».proof.Proof.RefSideMath
import proofs.«121325_j12979391169156_2_alg».proof.Proof.RefTotal
import proofs.«121325_j12979391169156_2_alg».proof.Proof.RefRunPatched
import proofs.«121325_j12979391169156_2_alg».proof.Proof.RefTake

noncomputable section

namespace Cert.ReferenceIdeal.RefSide

open Cert.ReferenceIdeal Cert.ReferenceIdeal.Gen Idealize.ShloMosaic Idealize.ShloMosaic.ValueIdx Cert.Lib.RealsInEReal

/-! ## The two results are the specification -/

section Join
open Cert.LseSpec

variable (mu sg : FVec Ideal S16x64x256 .f32) (eng : IVec S16x64 32) (fr : IVec S16x48 32)
  (We : FVec Ideal S50000x256 .f32) (be : FVec Ideal S50000 .f32) (Wf : FVec Ideal S50000x256 .f32) (bf : FVec Ideal S50000 .f32)

/-- The reference's logits are the specification's. -/
theorem logits_eq (W : FVec Ideal S50000x256 .f32) (bias : FVec Ideal S50000 .f32) (b : Fin 16) (s : Fin 64) (v : Fin 50000) :
    logits (F := Ideal) (addf mu sg) W bias (ix3 b s v) = logit mu sg W bias b s v :=
  logits_apply (addf mu sg) W bias b s v

/-- Every logit is a real number when the arguments are. -/
theorem logit_isReal (W : FVec Ideal S50000x256 .f32) (bias : FVec Ideal S50000 .f32)
    (hmu : ∀ i, IsReal (mu i)) (hsg : ∀ i, IsReal (sg i)) (hW : ∀ i, IsReal (W i)) (hb : ∀ i, IsReal (bias i))
    (b : Fin 16) (s : Fin 64) (v : Fin 50000) : IsReal (logit mu sg W bias b s v) := by
  unfold logit z
  exact (isReal_sum _ _ fun d _ => ((hmu _).add (hsg _)).mul (hW _)).add (hb _)

/-- The English summand at row (b, s). -/
theorem eng_term (hmu : ∀ i, IsReal (mu i)) (hsg : ∀ i, IsReal (sg i)) (hW : ∀ i, IsReal (We i)) (hb : ∀ i, IsReal (be i))
    (b : Fin 16) (s : Fin 64) :
    takeE (F := Ideal) (logSoftmax (logits (addf mu sg) We be)) eng (ix2 b s) = logProbE mu sg eng We be b s := by
  have hx : ∀ k, logits (F := Ideal) (addf mu sg) We be (ix3 b s k) = logit mu sg We be b s k := logits_eq mu sg We be b s
  rw [Cert.ReferenceIdeal.RefTake.takeE_apply]
  unfold logProbE
  by_cases h : InRange (eng (ix2 b s))
  · rw [if_pos h, if_pos h, logSoftmax_real _ b s (fun k => by rw [hx k]; exact logit_isReal mu sg We be hmu hsg hW hb b s k)]
    unfold lse
    simp only [hx]
  · rw [if_neg h, if_neg h]

theorem sum_bot_fin (n : ℕ) : ∑ _i : Fin (n + 1), (⊥ : EReal) = ⊥ := by
  rw [Fin.sum_univ_succ, EReal.bot_add]

/-- The word 0x42800000 is 64. -/
theorem ofBits_64 : Ideal.ofBits .f32 0x42800000#32 = ((64 : ℝ) : EReal) := by
  simp [Ideal.ofBits, Ideal.ieee]
  first
    | (rw [← EReal.coe_mul]; exact congrArg _ (by norm_num))
    | (norm_cast; norm_num)

/-- The French summand at (b, f). -/
theorem fr_term (hmu : ∀ i, IsReal (mu i)) (hsg : ∀ i, IsReal (sg i)) (hW : ∀ i, IsReal (Wf i)) (hb : ∀ i, IsReal (bf i))
    (b : Fin 16) (f : Fin 48) :
    Ideal.log (Ideal.div (0 + ∑ s : Fin 64, takeF (F := Ideal) (softmax (logits (addf mu sg) Wf bf)) fr (ix3 b s f))
        (Ideal.ofBits .f32 0x42800000#32))
      = logMeanF mu sg fr Wf bf b f := by
  unfold logMeanF
  by_cases h : InRange (fr (ix2 b f))
  · rw [if_pos h]
    refine congrArg Ideal.log (congrArg (fun t => Ideal.div t _) (congrArg (0 + ·) (Finset.sum_congr rfl fun s _ => ?_)))
    have hx : ∀ k, logits (F := Ideal) (addf mu sg) Wf bf (ix3 b s k) = logit mu sg Wf bf b s k := logits_eq mu sg Wf bf b s
    rw [Cert.ReferenceIdeal.RefTake.takeF_apply, if_pos h,
      softmax_real _ b s (fun k => by rw [hx k]; exact logit_isReal mu sg Wf bf hmu hsg hW hb b s k)]
    unfold probF lse
    simp only [hx]
  · rw [if_neg h]
    have hbot : ∀ s : Fin 64, takeF (F := Ideal) (softmax (logits (addf mu sg) Wf bf)) fr (ix3 b s f) = ⊥ := fun s => by
      rw [Cert.ReferenceIdeal.RefTake.takeF_apply, if_neg h]
    simp only [hbot]
    rw [sum_bot_fin 63, EReal.add_bot, ofBits_64, Ideal.div_coe (by norm_num), EReal.bot_mul_coe_of_pos (by norm_num), Ideal.log_bot]

/-- THE FIRST RESULT is the specification's likelihood. -/
theorem first_result (hfin : Finite mu sg We be Wf bf) :
    total (F := Ideal) (takeE (logSoftmax (logits (addf mu sg) We be)) eng) (takeF (softmax (logits (addf mu sg) Wf bf)) fr)
      = fun _ => likelihood mu sg eng fr We be Wf bf := by
  obtain ⟨hmu, hsg, hWe, hbe, hWf, hbf⟩ := hfin
  rw [Cert.ReferenceIdeal.RefTotal.total_apply]
  funext _
  unfold likelihood termE termF
  refine congrArg₂ (· + ·) (congrArg (0 + ·) (Finset.sum_congr rfl fun i _ => ?_))
    (congrArg (0 + ·) (Finset.sum_congr rfl fun j _ => ?_))
  · exact (congrArg (takeE (F := Ideal) (logSoftmax (logits (addf mu sg) We be)) eng) (eq_ix2 i)).trans
      (eng_term mu sg eng We be hmu hsg hWe hbe (i 0) (i 1))
  · exact fr_term mu sg fr Wf bf hmu hsg hWf hbf (j 0) (j 1)

end Join

/-! ## The reference's run -/

open Idealize.ShloMosaic.TcCoe Idealize.SL.Sem Idealize.ShloMosaic.StableHlo in
theorem ref_run (m : (ℓ : Loc nD τ sig) → Buf (Elt Ideal) ℓ) (ρ : Dev nD → PrngReg)
    (hfin : ∀ c : Dev nD, Cert.LseSpec.Finite (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :
    θ_run defs (onTc (τ := τ) (main (F := Ideal))) ⟨m, fun _ => 0, ρ⟩ fun r => ∀ c : Dev nD,
      r.2.mem ((c.tc : Thread nD τ).loc main_v32) = (fun _ => Cert.LseSpec.likelihood (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_v43) = (fun _ => Cert.LseSpec.kl (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      (h c).1.trans ((after_v32 (launchContents m c)).trans
        (first_result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (hfin c))),
      (h c).2.1.trans (Cert.ReferenceIdeal.RefTotal.kl_apply (m ((c.tc : Thread nD τ).loc main_arg0)) (m ((c.tc : Thread nD τ).loc main_arg1))),
      (h c).2.2⟩)
    (ValueP.run m ρ)

end Cert.ReferenceIdeal.RefSide

end
-- ==== Proof.lean ====
/-
  Both programs compute two scalars from a batch of 16 x 64 latent rows z = mu + sigma: a likelihood — over the English
  head, the sum over the rows of the log-probability of each row's target word; over the French head, the sum over
  (batch, target position) of the log of the mean over the 64 source rows of the target word's probability — and a KL
  sum of the latent. A word's log-probability under a head is its logit z·W[v] + b[v] minus the log-sum-exp of the
  row's 50000 logits.

  The kernel computes the two log-sum-exps of every row in a Pallas region, block by block over the vocabulary (25
  blocks of 2000) with a running maximum and a rescaled running sum, and the target logits on the host from gathered
  weight rows; the reference forms all 50000 logits on the host, applies log_softmax / softmax, and gathers. On the
  extended reals a change of float format is the identity, and both are the same function of the arguments: a running
  pair (m, l) with m real and l = Σ exp(logit − m) gives m + log l = log Σ exp(logit) whatever m is, which is also
  what the reference's stabilised forms come to. A target index out of range gives −∞ in both (a NaN fill reads −∞
  and absorbs the sums it enters), so no condition on the indices is needed.

  Here: the three frames (each program runs to the end from any memory satisfying the precondition, faults nowhere and
  leaves its arguments as they were), the idealization's ledger, which is empty, and the equality of the results.
-/
import proofs.«121325_j12979391169156_2_alg».proof.Defs
import proofs.«121325_j12979391169156_2_alg».proof.Proof.Gen.Kernel
import proofs.«121325_j12979391169156_2_alg».proof.Proof.Gen.KernelIdeal
import proofs.«121325_j12979391169156_2_alg».proof.Proof.Gen.ReferenceIdeal
import proofs.«121325_j12979391169156_2_alg».proof.Proof.Gen.Pre_finite_inputs
import proofs.«121325_j12979391169156_2_alg».proof.Proof.BitsArgs
import proofs.«121325_j12979391169156_2_alg».proof.Proof.IdealRun
import proofs.«121325_j12979391169156_2_alg».proof.Proof.PreReal
import proofs.«121325_j12979391169156_2_alg».proof.Proof.RefRunPatched
import proofs.«121325_j12979391169156_2_alg».proof.Proof.RefSideJoin
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Lse.frame m ρ

/-- So does its idealization. -/
theorem frame_ki : Cert.frame_KernelIdeal := fun m ρ _ => Cert.KernelIdeal.Lse.frame m ρ

/-- The reference is host operations only: its run, with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing. -/
theorem preserves : Cert.preserves_Kernel_KernelIdeal := trivial

/-- At the ideal instance, from memories agreeing on the arguments, both programs run to the same two results: each is
    the specification's value of the shared arguments, and the arguments are left as they were. -/
theorem algebraic : Cert.algebraic_KernelIdeal_ReferenceIdeal := by
  intro m ρ m' ρ' hpre hagree
  have hfin : ∀ c : Dev Cert.KernelIdeal.nD, Cert.LseSpec.Finite (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
    fun c => Cert.PreReal.finite_of_pre _ _ _ _ _ _ _ _ (hpre c)
  refine ⟨fun c => fun _ => Cert.LseSpec.likelihood (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => fun _ => Cert.LseSpec.kl (m ((c.tc : Thread Cert.KernelIdeal.nD Cert.KernelIdeal.τ).loc Cert.KernelIdeal.main_arg0)) (m ((c.tc : Thread Cert.KernelIdeal.nD Cert.KernelIdeal.τ).loc Cert.KernelIdeal.main_arg1)), Cert.KernelIdeal.Lse.kernel_run m ρ hfin, ?_⟩
  have hfin' : ∀ c : Dev Cert.ReferenceIdeal.nD, Cert.LseSpec.Finite (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) := fun c => by
    rw [(hagree c).1, (hagree c).2.1, (hagree c).2.2.2.2.1, (hagree c).2.2.2.2.2.1, (hagree c).2.2.2.2.2.2.1, (hagree c).2.2.2.2.2.2.2]
    exact hfin c
  refine (θ_run Cert.ReferenceIdeal.defs _ _).mono (fun r h c => ?_) (Cert.ReferenceIdeal.RefSide.ref_run m' ρ' hfin')
  obtain ⟨h32, h43, hargs⟩ := h c
  refine ⟨h32.trans ?_, h43.trans ?_, hargs⟩
  · rw [(hagree c).1, (hagree c).2.1, (hagree c).2.2.1, (hagree c).2.2.2.1, (hagree c).2.2.2.2.1, (hagree c).2.2.2.2.2.1, (hagree c).2.2.2.2.2.2.1, (hagree c).2.2.2.2.2.2.2]
    rfl
  · rw [(hagree c).1, (hagree c).2.1]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
